-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S262144 : Shape := ⟨1, ![262144]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S262144 : S_.BroadcastsInDim S262144 (![] : Fin 0 → Fin S262144.rank)
  reducesTo_S262144_S_d0 : S262144.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S256x16 .f32) (main_arg6 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg5
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S8192x128 .f32) (main_arg1 : IVec S2x262144 32) (main_arg2 : FVec F S262144 .f32) (main_arg3 : FVec F S128x256 .f32) (main_arg4 : FVec F S256 .f32) (main_arg5 : FVec F S256x16 .f32) (main_arg6 : FVec F S16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S8192x128 : Shape := ⟨2, ![8192, 128]⟩
abbrev S2x262144 : Shape := ⟨2, ![2, 262144]⟩
abbrev S262144 : Shape := ⟨1, ![262144]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x262144 : Shape := ⟨2, ![1, 262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S8192x2 : Shape := ⟨2, ![8192, 2]⟩
abbrev S1024x2048 : Shape := ⟨2, ![1024, 2048]⟩
abbrev S1024x1 : Shape := ⟨2, ![1024, 1]⟩
abbrev S1024 : Shape := ⟨1, ![1024]⟩
abbrev S1x8192 : Shape := ⟨2, ![1, 8192]⟩
abbrev S8192x256 : Shape := ⟨2, ![8192, 256]⟩
abbrev S1x256 : Shape := ⟨2, ![1, 256]⟩
abbrev S1x2048 : Shape := ⟨2, ![1, 2048]⟩
abbrev S2048x256 : Shape := ⟨2, ![2048, 256]⟩
abbrev S1024x256 : Shape := ⟨2, ![1024, 256]⟩
abbrev S8192x16 : Shape := ⟨2, ![8192, 16]⟩
abbrev S1x16 : Shape := ⟨2, ![1, 16]⟩
abbrev S2048x16 : Shape := ⟨2, ![2048, 16]⟩
abbrev S1024x16 : Shape := ⟨2, ![1024, 16]⟩

abbrev nBuf : Space → Nat
  | .hbm => 84
  | .vmem => 29
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144, .f32⟩
  | .hbm, ⟨3, _⟩ => ⟨S128x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .f32⟩
  | .hbm, ⟨12, _⟩ => ⟨S8192x8192, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x1, .i32⟩
  | .hbm, ⟨29, _⟩ => ⟨S262144x2, .i32⟩
  | .hbm, ⟨30, _⟩ => ⟨S8192x8192, .f32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x1, .i32⟩
  | .hbm, ⟨48, _⟩ => ⟨S8192x2, .i32⟩
  | .hbm, ⟨49, _⟩ => ⟨S_, .f32⟩
  | .hbm, ⟨50, _⟩ => ⟨S8192, .f32⟩
  | .hbm, ⟨51, _⟩ => ⟨S8192x8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .i1⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S1x8192, .f32⟩
  | .hbm, ⟨63, _⟩ => ⟨S8192x256, .f32⟩
  | .hbm, ⟨64, _⟩ => ⟨S1x256, .f32⟩
  | .hbm, ⟨65, _⟩ => ⟨S8192x256, .f32⟩
  | .hbm, ⟨66, _⟩ => ⟨S8192x16, .f32⟩
  | .hbm, ⟨67, _⟩ => ⟨S1x16, .f32⟩
  | .hbm, ⟨68, _⟩ => ⟨S8192x16, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1, .f32⟩
  | .hbm, ⟨82, _⟩ => ⟨S8192x16, .f32⟩
  | .hbm, ⟨83, _⟩ => ⟨S8192x16, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S1024x1, .f32⟩
  | .local _ .vmem, ⟨8, _⟩ => ⟨S1024x1, .f32⟩
  | .local _ .vmem, ⟨9, _⟩ => ⟨S1x2048, .f32⟩
  | .local _ .vmem, ⟨10, _⟩ => ⟨S1x2048, .f32⟩
  | .local _ .vmem, ⟨11, _⟩ => ⟨S2048x256, .f32⟩
  | .local _ .vmem, ⟨12, _⟩ => ⟨S2048x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x2048, .f32⟩
  | .local _ .vmem, ⟨18, _⟩ => ⟨S1024x2048, .f32⟩
  | .local _ .vmem, ⟨19, _⟩ => ⟨S1024x1, .f32⟩
  | .local _ .vmem, ⟨20, _⟩ => ⟨S1024x1, .f32⟩
  | .local _ .vmem, ⟨21, _⟩ => ⟨S1x2048, .f32⟩
  | .local _ .vmem, ⟨22, _⟩ => ⟨S1x2048, .f32⟩
  | .local _ .vmem, ⟨23, _⟩ => ⟨S2048x16, .f32⟩
  | .local _ .vmem, ⟨24, _⟩ => ⟨S2048x16, .f32⟩
  | .local _ .vmem, ⟨25, _⟩ => ⟨S1x16, .f32⟩
  | .local _ .vmem, ⟨26, _⟩ => ⟨S1024x16, .f32⟩
  | .local _ .vmem, ⟨27, _⟩ => ⟨S1024x16, .f32⟩
  | .local _ .vmem, ⟨28, _⟩ => ⟨S1024x16, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_call1_cst_0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_cst_1 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_v49 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reducesTo_S8192x16_S8192_d1 : S8192x16.ReducesTo [1] S8192
  h_S_ : 0 < S_.numel
  bcast_S8192x1_S8192x16_0_1 : S8192x1.BroadcastsInDim S8192x16 (![0, 1] : Fin 2 → Fin S8192x16.rank)
  scatter_S8192x8192_S262144x2_S262144_n_01_01_1_wf : ScatterDims.WF S8192x8192 S262144x2 S262144 [] [0, 1] [0, 1] 1
  scatter_S8192x8192_S8192x2_S8192_n_01_01_1_wf : ScatterDims.WF S8192x8192 S8192x2 S8192 [] [0, 1] [0, 1] 1
  dot_S8192x128_S128x256_S8192x256_1_0_0_1_n_n_wf : DotDims.WF S8192x128 S128x256 S8192x256 [1] [0] [0] [1] [] []
  dot_S1024x2048_S2048x256_S1024x256_1_0_0_1_n_n_wf : DotDims.WF S1024x2048 S2048x256 S1024x256 [1] [0] [0] [1] [] []
  dot_S8192x256_S256x16_S8192x16_1_0_0_1_n_n_wf : DotDims.WF S8192x256 S256x16 S8192x16 [1] [0] [0] [1] [] []
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S8192x16.size a
  hwx2_3 : ∀ i : grid2.Coords, EltTy.bits .f32 = 32 ∨ (Rect.block (s := S8192x16) S2048x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x16.size a ≤ S8192x16.size a
  hwx2_5 : ∀ i : grid2.Coords, EltTy.bits .f32 = 32 ∨ (Rect.block (s := S8192x16) S1024x16.size (cc2_transform_5 i) (hinb2_5 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_v34) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v34) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v34) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2048x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1024x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S262144 : Shape := ⟨1, ![262144]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩
abbrev S8192x8192 : Shape := ⟨2, ![8192, 8192]⟩
abbrev S1x262144 : Shape := ⟨2, ![1, 262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩
abbrev S8192x16 : Shape := ⟨2, ![8192, 16]⟩
abbrev S1x16 : Shape := ⟨2, ![1, 16]⟩

abbrev nBuf : Space → Nat
  | .hbm => 84
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144, .f32⟩
  | .hbm, ⟨3, _⟩ => ⟨S128x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S_, .f32⟩
  | .hbm, ⟨8, _⟩ => ⟨S8192x8192, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x1, .i32⟩
  | .hbm, ⟨29, _⟩ => ⟨S262144x2, .i32⟩
  | .hbm, ⟨30, _⟩ => ⟨S8192x8192, .f32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .i1⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S1x8192, .f32⟩
  | .hbm, ⟨54, _⟩ => ⟨S8192x8192, .f32⟩
  | .hbm, ⟨55, _⟩ => ⟨S8192x8192, .f32⟩
  | .hbm, ⟨56, _⟩ => ⟨S8192x256, .f32⟩
  | .hbm, ⟨57, _⟩ => ⟨S8192x256, .f32⟩
  | .hbm, ⟨58, _⟩ => ⟨S1x256, .f32⟩
  | .hbm, ⟨59, _⟩ => ⟨S8192x256, .f32⟩
  | .hbm, ⟨60, _⟩ => ⟨S8192x256, .f32⟩
  | .hbm, ⟨61, _⟩ => ⟨S_, .f32⟩
  | .hbm, ⟨62, _⟩ => ⟨S8192x256, .f32⟩
  | .hbm, ⟨63, _⟩ => ⟨S8192x256, .f32⟩
  | .hbm, ⟨64, _⟩ => ⟨S8192x16, .f32⟩
  | .hbm, ⟨65, _⟩ => ⟨S8192x16, .f32⟩
  | .hbm, ⟨66, _⟩ => ⟨S1x16, .f32⟩
  | .hbm, ⟨67, _⟩ => ⟨S8192x16, .f32⟩
  | .hbm, ⟨68, _⟩ => ⟨S8192x16, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1, .f32⟩
  | .hbm, ⟨82, _⟩ => ⟨S8192x16, .f32⟩
  | .hbm, ⟨83, _⟩ => ⟨S8192x16, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v50 : Ref sig .tc := ⟨.hbm, 83, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S8192x1_S8192x16_0_1 : S8192x1.BroadcastsInDim S8192x16 (![0, 1] : Fin 2 → Fin S8192x16.rank)
  scatter_S8192x8192_S262144x2_S262144_n_01_01_1_wf : ScatterDims.WF S8192x8192 S262144x2 S262144 [] [0, 1] [0, 1] 1
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x16_S8192x16_1_0_0_1_n_n_wf : DotDims.WF S8192x256 S256x16 S8192x16 [1] [0] [0] [1] [] []
  dot_S8192x8192_S8192x16_S8192x16_1_0_0_1_n_n_wf : DotDims.WF S8192x8192 S8192x16 S8192x16 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.K.RunData.lean ====
/-
  The data of the whole program's run: three kernel regions among stretches of host operations.

  Each region is known here only through its HALF: proof data stated at the buffer contents the region is
  entered from, the fact that the data read their arrays off those contents, the body obligation at every
  grid point, and the two entailments that carry the region's invariant in from and back out to "the core's
  scratch buffers at some contents beside the generator register".  From three such halves this module
  defines the contents each region leaves in its output array (`res0`, `res1`, `res2`), each read off the
  region's own data at the contents the earlier regions and host stretches produced; `outs`, which names them
  at the three places the boundary valuations look; the proof data of the three pipelines; and what each
  region's arrays hold when it is left.  Nothing here looks inside a region or inside a host stretch.
-/
import proofs.«173056_j36472862278098_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

/-- The TensorCore's buffer contents on every core: what a region's half is stated at. -/
abbrev Contents (F : FTy → Type) : Type :=
  (c : Dev nD) → (b : Ref sig .tc) → Buf (Elt F) ((c : Thread nD τ).loc b)

/-! ## A region's half -/

/-- What this module needs of one kernel region with configuration `cfg` over the windows `spec`: proof data at
    any entry contents `V`, reading their arrays off `V` (`rd` says where), holding every array whole, owing
    nothing and bounding the recorded waits at entry by nothing; the body obligation; the invariant entered from, and left at, the core's scratch buffers beside the
    generator register. -/
structure Half (cfg : Cfg sig Λ₀) (spec : Fin cfg.W → Pipeline.WinSpec sig cfg.grid.rank)
    (rd : (c : Dev nD) → ((b : Ref sig .tc) → Buf (Elt F) ((c : Thread nD τ).loc b)) →
      (w : Fin cfg.W) → Buf (Elt F) ((cfg.win w).arr.view.loc (c.tc : Thread nD τ))) where
  dat : Contents F → (c : Dev nD) → Dat τ (Elt F) Unit ℕ (UR sig nD τ) ℕ cfg c
  hA : ∀ V c w, (dat V c).A w = rd c (V c) w
  hq : ∀ V c w, (dat V c).q w = fullShare
  howed : ∀ V c t, (dat V c).owed t = 0
  hrec : ∀ V c, (dat V c).recorded 0 = Set.univ
  hbody : ∀ V c, BodyObligation (dat V c) (defs₀ (F := F)) Variants.none () Set.univ
  hin : ∀ V c, (Pipeline.ΦA spec c : sProp 𝕄) ⊢ (dat V c).Φ 0
  hout : ∀ V c, (dat V c).Φ (Fin.last cfg.N) ⊢ (Pipeline.ΦA spec c : sProp 𝕄)

/-- The three regions' halves: the degree kernel, the first layer, the second layer. -/
abbrev Half0 (F : FTy → Type) [FloatOps F] : Type := Half (F := F) cfg0 spec0 fun c V w => V (Pipeline.arrRef spec0 w)
abbrev Half1 (F : FTy → Type) [FloatOps F] : Type := Half (F := F) cfg1 spec1 fun c V w => V (Pipeline.arrRef spec1 w)
abbrev Half2 (F : FTy → Type) [FloatOps F] : Type := Half (F := F) cfg2 spec2 fun c V w => V (Pipeline.arrRef spec2 w)

variable (H0 : Half0 F) (H1 : Half1 F) (H2 : Half2 F)
variable (m : (ℓ : Loc nD τ sig) → Buf (Elt F) ℓ)

/-! ## What the regions leave

The boundary valuations of the program are written over an unknown family `outs`, read at three places only: what
the degree kernel leaves in its output column, what the first layer leaves in its output, what the second layer
leaves in its output.  Each of these is what the region's own data say its output array holds after the last grid
point, the data taken at the contents the region is entered from.  Those contents depend on the EARLIER regions'
results only, so the family is built in three stages, and each stage's valuations are shown to be the final ones'. -/

/-- The contents the degree kernel is entered from: the launch memory after the first host stretch. -/
abbrev ent0 : Contents F := fun c b => Gen.V1 m c b
/-- What the degree kernel leaves in its output column. -/
def res0 (c : Dev nD) : Buf (Elt F) ((c : Thread nD τ).loc main_v35) := (H0.dat (ent0 m) c).arrAt 1 cfg0.N
/-- Stage one: only the degree kernel's result is known. -/
def outsA : Gen.Outs (F := F) := fun _ r c => Function.update (Gen.V1 m c) main_v35 (res0 H0 m c) r

/-- The contents the first layer is entered from: the degree column in place, three more host stretches run. -/
abbrev ent1 : Contents F := fun c b => Gen.V5 m (outsA H0 m) c b
/-- What the first layer leaves in its output. -/
def res1 (c : Dev nD) : Buf (Elt F) ((c : Thread nD τ).loc main_v45) := (H1.dat (ent1 H0 m) c).arrAt 5 cfg1.N
/-- Stage two: the first two regions' results are known. -/
def outsB : Gen.Outs (F := F) := fun n r c =>
  if n = 2 then outsA H0 m n r c else Function.update (Gen.V5 m (outsA H0 m) c) main_v45 (res1 H0 H1 m c) r

/-- The contents the second layer is entered from: the first layer's output in place, one more host stretch run. -/
abbrev ent2 : Contents F := fun c b => Gen.V7 m (outsB H0 H1 m) c b
/-- What the second layer leaves in its output. -/
def res2 (c : Dev nD) : Buf (Elt F) ((c : Thread nD τ).loc main_v48) := (H2.dat (ent2 H0 H1 m) c).arrAt 5 cfg2.N
/-- THE CONTENTS THE REGIONS LEAVE, at the three places the boundary valuations read them. -/
def outs : Gen.Outs (F := F) := fun n r c =>
  if n = 2 then outsA H0 m n r c
  else if n = 6 then outsB H0 H1 m n r c
  else Function.update (Gen.V7 m (outsB H0 H1 m) c) main_v48 (res2 H0 H1 H2 m c) r

theorem outsA_v35 (c : Dev nD) : outsA H0 m 2 main_v35 c = res0 H0 m c := by
  unfold outsA; exact Function.update_self _ _ _
theorem outsB_v35 (c : Dev nD) : outsB H0 H1 m 2 main_v35 c = res0 H0 m c := by
  unfold outsB; rw [if_pos rfl]; exact outsA_v35 H0 m c
theorem outsB_v45 (c : Dev nD) : outsB H0 H1 m 6 main_v45 c = res1 H0 H1 m c := by
  unfold outsB; rw [if_neg (by decide)]; exact Function.update_self _ _ _
/-- The three entries of `outs` that are read. -/
theorem outs_v35 (c : Dev nD) : outs H0 H1 H2 m 2 main_v35 c = res0 H0 m c := by
  unfold outs; rw [if_pos rfl]; exact outsA_v35 H0 m c
theorem outs_v45 (c : Dev nD) : outs H0 H1 H2 m 6 main_v45 c = res1 H0 H1 m c := by
  unfold outs; rw [if_neg (by decide), if_pos rfl]; exact outsB_v45 H0 H1 m c
theorem outs_v48 (c : Dev nD) : outs H0 H1 H2 m 8 main_v48 c = res2 H0 H1 H2 m c := by
  unfold outs; rw [if_neg (by decide), if_neg (by decide)]; exact Function.update_self _ _ _

/-! ### A boundary valuation depends on the family only where it reads it -/

omit H0 H1 H2 in
theorem V2_congr (o o' : Gen.Outs (F := F)) (c : Dev nD) (h : o 2 main_v35 c = o' 2 main_v35 c) :
    Gen.V2 m o c = Gen.V2 m o' c := by
  show Function.update (Gen.V1 m c) (main_v35 : DevRef τ sig) (o 2 main_v35 c)
    = Function.update (Gen.V1 m c) (main_v35 : DevRef τ sig) (o' 2 main_v35 c)
  rw [h]
omit H0 H1 H2 in
theorem V5_congr (o o' : Gen.Outs (F := F)) (c : Dev nD) (h : o 2 main_v35 c = o' 2 main_v35 c) :
    Gen.V5 m o c = Gen.V5 m o' c :=
  congrArg (fun W => StableHlo.after Gen.hostOps1_2 (StableHlo.after Gen.hostOps1_1 (StableHlo.after Gen.hostOps1 W))) (V2_congr m o o' c h)
omit H0 H1 H2 in
theorem V6_congr (o o' : Gen.Outs (F := F)) (c : Dev nD) (h : o 2 main_v35 c = o' 2 main_v35 c)
    (h' : o 6 main_v45 c = o' 6 main_v45 c) : Gen.V6 m o c = Gen.V6 m o' c := by
  show Function.update (Gen.V5 m o c) (main_v45 : DevRef τ sig) (o 6 main_v45 c)
    = Function.update (Gen.V5 m o' c) (main_v45 : DevRef τ sig) (o' 6 main_v45 c)
  rw [h', V5_congr m o o' c h]
omit H0 H1 H2 in
theorem V7_congr (o o' : Gen.Outs (F := F)) (c : Dev nD) (h : o 2 main_v35 c = o' 2 main_v35 c)
    (h' : o 6 main_v45 c = o' 6 main_v45 c) : Gen.V7 m o c = Gen.V7 m o' c :=
  congrArg (StableHlo.after Gen.hostOps2) (V6_congr m o o' c h h')

/-- The first layer's entry contents, read off the final family. -/
theorem V5_outs (c : Dev nD) : Gen.V5 m (outs H0 H1 H2 m) c = Gen.V5 m (outsA H0 m) c :=
  V5_congr m _ _ c ((outs_v35 H0 H1 H2 m c).trans (outsA_v35 H0 m c).symm)
/-- The second layer's entry contents, read off the final family. -/
theorem V7_outs (c : Dev nD) : Gen.V7 m (outs H0 H1 H2 m) c = Gen.V7 m (outsB H0 H1 m) c :=
  V7_congr m _ _ c ((outs_v35 H0 H1 H2 m c).trans (outsB_v35 H0 H1 m c).symm)
    ((outs_v45 H0 H1 H2 m c).trans (outsB_v45 H0 H1 m c).symm)

/-! ## The proof data of the three pipelines, each at its region's entry contents -/

/-- A literal `match`, so that the pipeline chosen by a numeral reduces to the printed configuration. -/
def pdats : (p : Fin 3) → (c : Dev nD) → Dat τ (Elt F) Unit ℕ (UR sig nD τ) ℕ (Pipeline.pin (pcfgs (F := F)) Gen.adm p) c
  | ⟨0, _⟩ => fun c => H0.dat (ent0 m) c
  | ⟨1, _⟩ => fun c => H1.dat (ent1 H0 m) c
  | ⟨2, _⟩ => fun c => H2.dat (ent2 H0 H1 m) c

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 :=
  iprop((∃ r, prngReg c r) ∗ ∃ W, owes (c : Thread nD τ) (0 : CellTallies nD τ sig Unit) W)

/-! ## Small facts about proof data that owe nothing -/

omit [FloatOps F] in
/-- A core owing nothing, whatever its waits recorded, is what proof data that owe nothing and do not bound the
    recorded waits ask for at entry. -/
theorem owesAt_first {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hr]
  iintro ⟨%W, HO⟩; iexists W; isplitr; · ipureintro; exact fun _ _ => Or.inl trivial
  iexact HO

omit [FloatOps F] in
/-- And at exit such data hand back a core owing nothing. -/
theorem owes_of_owesAt_last {cfg : Cfg sig Λ₀} {c : Dev nD} (dat : Dat τ (Elt F) Unit ℕ (UR sig nD τ) ℕ cfg c)
    (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩; iexists W; iexact HO

/-! ## Each region's arrays at its exit

A region's input arrays are never written, so after the last grid point they hold what the region was entered
from, which the exit valuation keeps; its output array holds the region's result, which is where the exit
valuation differs from the entry one. -/

theorem hF0 (c : Dev nD) (w : Fin cfg0.W) :
    (H0.dat (ent0 m) c).arrAt w cfg0.N = Gen.V2 m (outs H0 H1 H2 m) c (Pipeline.arrRef spec0 w) := by
  match w with
  | ⟨0, _⟩ =>
    exact ((H0.dat (ent0 m) c).arrAt_in 0 rfl _).trans ((H0.hA (ent0 m) c 0).trans (Gen.V2_of m _ c main_v34 (by decide)).symm)
  | ⟨1, _⟩ =>
    refine Eq.trans ?_ ((Function.update_self (main_v35 : DevRef τ sig) _ (Gen.V1 m c)).trans (outs_v35 H0 H1 H2 m c)).symm
    rfl

theorem hrest0 (c : Dev nD) (b : Ref sig .tc) (hb : b ∉ Finset.univ.image (Pipeline.arrRef spec0)) :
    Gen.V2 m (outs H0 H1 H2 m) c b = Gen.V1 m c b :=
  Gen.V2_of m _ c b fun hmem => hb (by
    rw [List.mem_singleton.mp hmem]; exact Finset.mem_image.mpr ⟨1, Finset.mem_univ _, rfl⟩)

theorem hF1 (c : Dev nD) (w : Fin cfg1.W) :
    (H1.dat (ent1 H0 m) c).arrAt w cfg1.N = Gen.V6 m (outs H0 H1 H2 m) c (Pipeline.arrRef spec1 w) := by
  have inp : ∀ (w : Fin cfg1.W), (cfg1.win w).isOut = false → Pipeline.arrRef spec1 w ∉ ([main_v45] : List (Ref sig .tc)) →
      (H1.dat (ent1 H0 m) c).arrAt w cfg1.N = Gen.V6 m (outs H0 H1 H2 m) c (Pipeline.arrRef spec1 w) :=
    fun w hi hne => ((H1.dat (ent1 H0 m) c).arrAt_in w hi _).trans ((H1.hA (ent1 H0 m) c w).trans
      ((congrFun (V5_outs H0 H1 H2 m c) _).symm.trans (Gen.V6_of m _ c _ hne).symm))
  match w with
  | ⟨0, _⟩ => exact inp 0 rfl (by decide)
  | ⟨1, _⟩ => exact inp 1 rfl (by decide)
  | ⟨2, _⟩ => exact inp 2 rfl (by decide)
  | ⟨3, _⟩ => exact inp 3 rfl (by decide)
  | ⟨4, _⟩ => exact inp 4 rfl (by decide)
  | ⟨5, _⟩ =>
    refine Eq.trans ?_ ((Function.update_self (main_v45 : DevRef τ sig) _ (Gen.V5 m (outs H0 H1 H2 m) c)).trans (outs_v45 H0 H1 H2 m c)).symm
    rfl

theorem hrest1 (c : Dev nD) (b : Ref sig .tc) (hb : b ∉ Finset.univ.image (Pipeline.arrRef spec1)) :
    Gen.V6 m (outs H0 H1 H2 m) c b = ent1 H0 m c b :=
  (Gen.V6_of m _ c b fun hmem => hb (by
    rw [List.mem_singleton.mp hmem]; exact Finset.mem_image.mpr ⟨5, Finset.mem_univ _, rfl⟩)).trans
    (congrFun (V5_outs H0 H1 H2 m c) _)

theorem hF2 (c : Dev nD) (w : Fin cfg2.W) :
    (H2.dat (ent2 H0 H1 m) c).arrAt w cfg2.N = Gen.V8 m (outs H0 H1 H2 m) c (Pipeline.arrRef spec2 w) := by
  have inp : ∀ (w : Fin cfg2.W), (cfg2.win w).isOut = false → Pipeline.arrRef spec2 w ∉ ([main_v48] : List (Ref sig .tc)) →
      (H2.dat (ent2 H0 H1 m) c).arrAt w cfg2.N = Gen.V8 m (outs H0 H1 H2 m) c (Pipeline.arrRef spec2 w) :=
    fun w hi hne => ((H2.dat (ent2 H0 H1 m) c).arrAt_in w hi _).trans ((H2.hA (ent2 H0 H1 m) c w).trans
      ((congrFun (V7_outs H0 H1 H2 m c) _).symm.trans (Gen.V8_of m _ c _ hne).symm))
  match w with
  | ⟨0, _⟩ => exact inp 0 rfl (by decide)
  | ⟨1, _⟩ => exact inp 1 rfl (by decide)
  | ⟨2, _⟩ => exact inp 2 rfl (by decide)
  | ⟨3, _⟩ => exact inp 3 rfl (by decide)
  | ⟨4, _⟩ => exact inp 4 rfl (by decide)
  | ⟨5, _⟩ =>
    refine Eq.trans ?_ ((Function.update_self (main_v48 : DevRef τ sig) _ (Gen.V7 m (outs H0 H1 H2 m) c)).trans (outs_v48 H0 H1 H2 m c)).symm
    rfl

theorem hrest2 (c : Dev nD) (b : Ref sig .tc) (hb : b ∉ Finset.univ.image (Pipeline.arrRef spec2)) :
    Gen.V8 m (outs H0 H1 H2 m) c b = ent2 H0 H1 m c b :=
  (Gen.V8_of m _ c b fun hmem => hb (by
    rw [List.mem_singleton.mp hmem]; exact Finset.mem_image.mpr ⟨5, Finset.mem_univ _, rfl⟩)).trans
    (congrFun (V7_outs H0 H1 H2 m c) _)

end Cert.Kernel.Hand

end
-- ==== Proof.K.Run.lean ====
/-
  The whole program as a run: three kernel regions among stretches of host operations.

  From the halves of the three regions (proof data at the region's entry contents, the body obligation, the
  invariant's way in and out) this module makes one segment record per region over the thread state "every
  unscoped buffer at the boundary's valuation, the generator register at some state, nothing owed", lines them
  up with the host stretches, and runs the program from any launch memory: it terminates, the seven arguments end
  as launched, and the result array holds the last boundary valuation's value (`run_of`).  The frame claim is a
  corollary (`frame_of`).  Nothing here looks inside a region or inside a host stretch: the result is named, not
  computed.
-/
import proofs.«173056_j36472862278098_1_alg».proof.Proof.K.RunData

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (H0 : Half0 F) (H1 : Half1 F) (H2 : Half2 F)
variable (m : (ℓ : Loc nD τ sig) → Buf (Elt F) ℓ)

/-! ## The regions as items of the program -/

omit [FloatOps F] in
/-- The generator register at some state and the scoped buffers no window stages are what a region's invariant is
    entered from (whatever else is offered beside them is not needed). -/
theorem inv_in {gr W : Nat} (win : Fin W → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp

omit [FloatOps F] in
/-- And they are what it gives back. -/
theorem inv_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

-- the library's region rules are stated over the pipeline chosen by an index; they meet the printed configuration
-- only when unification may unfold plain definitions inside a metavariable's type
set_option backward.isDefEq.respectTransparency.types false in
/-- THE DEGREE KERNEL as an item of the program: entered with every unscoped buffer at the valuation before it, left with
    them at the valuation after it.  Its arrays are split out of the unscoped buffers at entry and put back at exit,
    the output array at the region's result; the generator register and the scratch buffers go into the region's
    invariant and come back; nothing is owed, and the kernel has no semaphore of its own. -/
def reg0 : RegionSeg (pcfgs (F := F)) Gen.adm (pdats H0 H1 H2 m) () defs₀ Variants.none L lv 0 where
  win := Gen.launch0.win.to₀
  block_pos := Gen.launch0.block_pos
  stage_whole := Gen.launch0.stage_whole
  K := PEmpty
  osem k := k.elim
  ho := Pipeline.OwnSemFacts.none _
  hbody c := (H0.hbody (ent0 m) c).loose
  hwaits := Pipeline.hwaits_of_owed_zero _ _ _ _ L lv 0 fun c t => H0.howed (ent0 m) c t
  pre c := iprop(StableHlo.held (c : Thread nD τ) (Pipeline.ucRefs τ sig) (Gen.V1 m c) ∗ R c)
  post c := iprop(StableHlo.held (c : Thread nD τ) (Pipeline.ucRefs τ sig) (Gen.V2 m (outs H0 H1 H2 m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats H0 H1 H2 m) Gen.launch0.win Gen.launch0.arr_whole c
      ((pdats H0 H1 H2 m 0 c).share_full fun w => H0.hq (ent0 m) c w) (ent0 m c) fun w => H0.hA (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pdats H0 H1 H2 m 0 c) (H0.howed (ent0 m) c 0) (H0.hrec (ent0 m) c)); iexact HO
    isplitl [Hp]; · iexact Hp
    iexact Hrest
  hin c := (inv_in spec0 c _).trans (H0.hin (ent0 m) c)
  hout c := by
    rw [Pipeline.ownSems0_none]
    exact (H0.hout (ent0 m) c).trans (inv_out spec0 c)
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats H0 H1 H2 m) ((pdats H0 H1 H2 m 0 c).share_full fun w => H0.hq (ent0 m) c w)
      (ent0 m c) (fun b => Gen.V2 m (outs H0 H1 H2 m) c b) ((pdats H0 H1 H2 m 0 c).arrAt · cfg0.N) (hF0 H0 H1 H2 m c) (hrest0 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats H0 H1 H2 m 0 c) (H0.howed (ent0 m) c _)); iexact HO

-- the library's region rules are stated over the pipeline chosen by an index; they meet the printed configuration
-- only when unification may unfold plain definitions inside a metavariable's type
set_option backward.isDefEq.respectTransparency.types false in
/-- THE FIRST LAYER as an item of the program: entered with every unscoped buffer at the valuation before it, left with
    them at the valuation after it.  Its arrays are split out of the unscoped buffers at entry and put back at exit,
    the output array at the region's result; the generator register and the scratch buffers go into the region's
    invariant and come back; nothing is owed, and the kernel has no semaphore of its own. -/
def reg1 : RegionSeg (pcfgs (F := F)) Gen.adm (pdats H0 H1 H2 m) () defs₀ Variants.none L lv 1 where
  win := Gen.launch1.win.to₀
  block_pos := Gen.launch1.block_pos
  stage_whole := Gen.launch1.stage_whole
  K := PEmpty
  osem k := k.elim
  ho := Pipeline.OwnSemFacts.none _
  hbody c := (H1.hbody (ent1 H0 m) c).loose
  hwaits := Pipeline.hwaits_of_owed_zero _ _ _ _ L lv 1 fun c t => H1.howed (ent1 H0 m) c t
  pre c := iprop(StableHlo.held (c : Thread nD τ) (Pipeline.ucRefs τ sig) (Gen.V5 m (outs H0 H1 H2 m) c) ∗ R c)
  post c := iprop(StableHlo.held (c : Thread nD τ) (Pipeline.ucRefs τ sig) (Gen.V6 m (outs H0 H1 H2 m) c) ∗ R c)
  X c := iprop(∃ r, prngReg c r)
  Y c := iprop(∃ r, prngReg c r)
  Z c := Pipeline.unscopedRest (Ix := Unit) (Name := ℕ) (U := UR sig nD τ) (Lvl := ℕ) spec1 c (ent1 H0 m c)
  hentry c := by
    rw [Pipeline.ownSems0_none]; rw [V5_outs H0 H1 H2 m c]
    have hsplit := Pipeline.arrays_of_unscopedBufs (p := 1) (pcfgs (F := F)) Gen.adm (pdats H0 H1 H2 m) Gen.launch1.win Gen.launch1.arr_whole c
      ((pdats H0 H1 H2 m 1 c).share_full fun w => H1.hq (ent1 H0 m) c w) (ent1 H0 m c) fun w => H1.hA (ent1 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pdats H0 H1 H2 m 1 c) (H1.howed (ent1 H0 m) c 0) (H1.hrec (ent1 H0 m) c)); iexact HO
    isplitl [Hp]; · iexact Hp
    iexact Hrest
  hin c := (inv_in spec1 c _).trans (H1.hin (ent1 H0 m) c)
  hout c := by
    rw [Pipeline.ownSems0_none]
    exact (H1.hout (ent1 H0 m) c).trans (inv_out spec1 c)
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats H0 H1 H2 m) ((pdats H0 H1 H2 m 1 c).share_full fun w => H1.hq (ent1 H0 m) c w)
      (ent1 H0 m c) (fun b => Gen.V6 m (outs H0 H1 H2 m) c b) ((pdats H0 H1 H2 m 1 c).arrAt · cfg1.N) (hF1 H0 H1 H2 m c) (hrest1 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats H0 H1 H2 m 1 c) (H1.howed (ent1 H0 m) c _)); iexact HO

-- the library's region rules are stated over the pipeline chosen by an index; they meet the printed configuration
-- only when unification may unfold plain definitions inside a metavariable's type
set_option backward.isDefEq.respectTransparency.types false in
/-- THE SECOND LAYER as an item of the program: entered with every unscoped buffer at the valuation before it, left with
    them at the valuation after it.  Its arrays are split out of the unscoped buffers at entry and put back at exit,
    the output array at the region's result; the generator register and the scratch buffers go into the region's
    invariant and come back; nothing is owed, and the kernel has no semaphore of its own. -/
def reg2 : RegionSeg (pcfgs (F := F)) Gen.adm (pdats H0 H1 H2 m) () defs₀ Variants.none L lv 2 where
  win := Gen.launch2.win.to₀
  block_pos := Gen.launch2.block_pos
  stage_whole := Gen.launch2.stage_whole
  K := PEmpty
  osem k := k.elim
  ho := Pipeline.OwnSemFacts.none _
  hbody c := (H2.hbody (ent2 H0 H1 m) c).loose
  hwaits := Pipeline.hwaits_of_owed_zero _ _ _ _ L lv 2 fun c t => H2.howed (ent2 H0 H1 m) c t
  pre c := iprop(StableHlo.held (c : Thread nD τ) (Pipeline.ucRefs τ sig) (Gen.V7 m (outs H0 H1 H2 m) c) ∗ R c)
  post c := iprop(StableHlo.held (c : Thread nD τ) (Pipeline.ucRefs τ sig) (Gen.V8 m (outs H0 H1 H2 m) c) ∗ R c)
  X c := iprop(∃ r, prngReg c r)
  Y c := iprop(∃ r, prngReg c r)
  Z c := Pipeline.unscopedRest (Ix := Unit) (Name := ℕ) (U := UR sig nD τ) (Lvl := ℕ) spec2 c (ent2 H0 H1 m c)
  hentry c := by
    rw [Pipeline.ownSems0_none]; rw [V7_outs H0 H1 H2 m c]
    have hsplit := Pipeline.arrays_of_unscopedBufs (p := 2) (pcfgs (F := F)) Gen.adm (pdats H0 H1 H2 m) Gen.launch2.win Gen.launch2.arr_whole c
      ((pdats H0 H1 H2 m 2 c).share_full fun w => H2.hq (ent2 H0 H1 m) c w) (ent2 H0 H1 m c) fun w => H2.hA (ent2 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pdats H0 H1 H2 m 2 c) (H2.howed (ent2 H0 H1 m) c 0) (H2.hrec (ent2 H0 H1 m) c)); iexact HO
    isplitl [Hp]; · iexact Hp
    iexact Hrest
  hin c := (inv_in spec2 c _).trans (H2.hin (ent2 H0 H1 m) c)
  hout c := by
    rw [Pipeline.ownSems0_none]
    exact (H2.hout (ent2 H0 H1 m) c).trans (inv_out spec2 c)
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c (pdats H0 H1 H2 m) ((pdats H0 H1 H2 m 2 c).share_full fun w => H2.hq (ent2 H0 H1 m) c w)
      (ent2 H0 H1 m c) (fun b => Gen.V8 m (outs H0 H1 H2 m) c b) ((pdats H0 H1 H2 m 2 c).arrAt · cfg2.N) (hF2 H0 H1 H2 m c) (hrest2 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats H0 H1 H2 m 2 c) (H2.howed (ent2 H0 H1 m) c _)); iexact HO

/-! ## The program as its items, and the run -/

/-- Between any two items the same rest rides beside the buffers. -/
abbrev E : Fin 4 → Dev nD → sProp 𝕄 := fun _ c => R c

/-- The program's nine items on a core: six host stretches and the three regions, in order. -/
abbrev items (c : Dev nD) : List (Seg (pcfgs (F := F)) Gen.adm (pdats H0 H1 H2 m) () defs₀ Variants.none L lv) :=
  Gen.segs m (outs H0 H1 H2 m) Variants.none L lv E () (pdats H0 H1 H2 m) (reg0 H0 H1 H2 m) (reg1 H0 H1 H2 m) (reg2 H0 H1 H2 m) c

-- the launch rule's implicit arguments are found by unifying its conclusion with this one, which takes unfolding
-- plain definitions in a metavariable's type
set_option backward.isDefEq.respectTransparency.types false in
/-- THE RUN.  From any launch memory `m` with every counter at zero, every weakly fair execution of the program on
    the TensorCores terminates, and in every final memory the result array holds what the last boundary valuation
    says — the last host stretch applied to the contents the second layer leaves — while each of the seven argument
    arrays holds what it was launched with.

    The launch deals each core its unscoped buffers at the launch memory, its generator register and an empty debt;
    the items carry that state from boundary to boundary (each host stretch by running its operations over the
    valuation, each region by its record above); at the end the valuation is read against the final memory, at the
    result array and at each argument. -/
theorem run_of (ρ : Dev nD → PrngReg) :
    θ_run defs (onTc (τ := τ) (main (F := F))) ⟨m, fun _ => 0, ρ⟩ (fun r => ∀ c : Dev nD,
      r.2.mem ((c.tc : Thread nD τ).loc main_v49) = Gen.V9 m (outs H0 H1 H2 m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats H0 H1 H2 m) () Gen.cellOf_inj emb₁ defs₀ Variants.none L lv m ρ main
    (items H0 H1 H2 m)
    (fun c Q => by
      rewrite [Gen.main_chain c, Seg.run_eq_chain,
        show (items H0 H1 H2 m c).map Seg.prog = [
          StableHlo.seq Gen.hostOps0,
          Prog.lift (.customCall (Pipeline.entry 0) ()),
          StableHlo.seq Gen.hostOps1,
          StableHlo.seq Gen.hostOps1_1,
          StableHlo.seq Gen.hostOps1_2,
          Prog.lift (.customCall (Pipeline.entry 1) ()),
          StableHlo.seq Gen.hostOps2,
          Prog.lift (.customCall (Pipeline.entry 2) ()),
          StableHlo.seq Gen.hostOps3 ] from rfl]
      exact .rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V9 m (outs H0 H1 H2 m) c))
    (hch := fun c => ⟨.rfl, .rfl, .rfl, .rfl, .rfl, .rfl, .rfl, .rfl, .rfl, sep_mono .rfl (by iintro ⟨-, HO⟩; iexact HO)⟩)
    (hinit := ?_)
    (QY := fun c s => s.mem ((c.tc : Thread nD τ).loc main_v49) = Gen.V9 m (outs H0 H1 H2 m) c main_v49
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch: each core's unscoped buffers are held at the launch valuation, its register is at some state, and
    -- it owes nothing
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V9 m (outs H0 H1 H2 m) c) s') $$ [Hh HSI]
    · isplitl [Hh] <;> iassumption
    icases Hr with ⟨%h, HSI⟩
    imodintro
    isplitr
    · ipureintro
      exact ⟨h (Proc.devRef .tc main_v49) (Finset.mem_filter.mpr ⟨StableHlo.devRef_mem_tcRefs main_v49, by decide⟩),
        (h (Proc.devRef .tc main_arg0) (Finset.mem_filter.mpr ⟨StableHlo.devRef_mem_tcRefs main_arg0, by decide⟩)).trans (Gen.V9_main_arg0 m (outs H0 H1 H2 m) c),
        (h (Proc.devRef .tc main_arg1) (Finset.mem_filter.mpr ⟨StableHlo.devRef_mem_tcRefs main_arg1, by decide⟩)).trans (Gen.V9_main_arg1 m (outs H0 H1 H2 m) c),
        (h (Proc.devRef .tc main_arg2) (Finset.mem_filter.mpr ⟨StableHlo.devRef_mem_tcRefs main_arg2, by decide⟩)).trans (Gen.V9_main_arg2 m (outs H0 H1 H2 m) c),
        (h (Proc.devRef .tc main_arg3) (Finset.mem_filter.mpr ⟨StableHlo.devRef_mem_tcRefs main_arg3, by decide⟩)).trans (Gen.V9_main_arg3 m (outs H0 H1 H2 m) c),
        (h (Proc.devRef .tc main_arg4) (Finset.mem_filter.mpr ⟨StableHlo.devRef_mem_tcRefs main_arg4, by decide⟩)).trans (Gen.V9_main_arg4 m (outs H0 H1 H2 m) c),
        (h (Proc.devRef .tc main_arg5) (Finset.mem_filter.mpr ⟨StableHlo.devRef_mem_tcRefs main_arg5, by decide⟩)).trans (Gen.V9_main_arg5 m (outs H0 H1 H2 m) c),
        (h (Proc.devRef .tc main_arg6) (Finset.mem_filter.mpr ⟨StableHlo.devRef_mem_tcRefs main_arg6, by decide⟩)).trans (Gen.V9_main_arg6 m (outs H0 H1 H2 m) c)⟩
    · iexact HSI

include H0 H1 H2 in
/-- THE FRAME: the program terminates from any launch memory with zero counters and leaves its seven argument
    arrays as launched — the run above with the statement about the result array dropped. -/
theorem frame_of (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_of H0 H1 H2 m ρ)

end Cert.Kernel.Hand

end
-- ==== Proof.K.R0Runs.lean ====
/-
  The degree kernel (the first of the three calls): what its three control cases share.

  The call walks a grid of 8 row tiles by 4 column tiles.  At a point (i, k) its body adds the row sums of
  the adjacency block (i, k) into an accumulator it keeps between points; it clears the accumulator first
  when k = 0, and copies it into the output block when k = 3.  So a point is in one of three cases:
  A (k = 0: clear, then add), B (k = 1 or 2: add), C (k = 3: add, then copy out).  This module names the two
  tests the body makes on k and decides over the 32 points where each holds, records where the output block
  is left alone and where it is written back, names the memory the body is called with, spells the region's
  invariant with the accumulator split off the rest, and shows that the input's staging buffer holds the
  input block at every point.
-/
import proofs.«173056_j36472862278098_1_alg».proof.Proof.Gen.Kernel.Launch
import proofs.«173056_j36472862278098_1_alg».proof.Proof.Gen.Kernel.Skeleton
import proofs.«173056_j36472862278098_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- The contents of the TensorCore's buffers when the call is entered: everything below is stated at it.
variable (V : (c : Dev nD) → (b : Ref sig .tc) → Buf (Elt F) ((c : Thread nD τ).loc b))

/-! ## The two tests on the column-tile coordinate -/

/-- The body's first test: is the column tile the first one (`k = 0`), as the body computes it. -/
abbrev cond0_0 (i : grid0.Coords) : Prop :=
  (Scalar.cmpi .ne (Scalar.extui (Scalar.cmpi .eq (BitVec.ofNat 32 (i 1).val) 0#32)) 0#32) = 1#1

/-- Over the 32 points in row-major order the first test holds exactly at the multiples of four. -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second test: is the column tile the last one (`k = 3`). -/
abbrev cond0_1 (i : grid0.Coords) : Prop := k0_cond2 i = 1#1

/-- It holds exactly at the points that leave remainder three. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output block is left alone -/

/-- The input window is stored into nowhere, and is never marked as left alone. -/
theorem liveAt0_0 : ∀ t : Fin cfg0.N, cfg0.idle 0 (grid0.coords t) = false := by decide +kernel

/-- Case A leaves the output block alone, -/
theorem idleAt0_1_A : ∀ t : Fin cfg0.N, cond0_0 (grid0.coords t) → ¬cond0_1 (grid0.coords t) →
    cfg0.idle 1 (grid0.coords t) = true := by decide +kernel
/-- and the output block is not written back there. -/
theorem noFlush0_1_A : ∀ t : Fin cfg0.N, cond0_0 (grid0.coords t) → ¬cond0_1 (grid0.coords t) →
    (cfg0.win 1).flush t = false := by decide +kernel
/-- Case B leaves the output block alone, -/
theorem idleAt0_1_B : ∀ t : Fin cfg0.N, ¬cond0_0 (grid0.coords t) → ¬cond0_1 (grid0.coords t) →
    cfg0.idle 1 (grid0.coords t) = true := by decide +kernel
/-- and the output block is not written back there. -/
theorem noFlush0_1_B : ∀ t : Fin cfg0.N, ¬cond0_0 (grid0.coords t) → ¬cond0_1 (grid0.coords t) →
    (cfg0.win 1).flush t = false := by decide +kernel
/-- Case C stores the output block. -/
theorem liveAt0_1_C : ∀ t : Fin cfg0.N, ¬cond0_0 (grid0.coords t) → cond0_1 (grid0.coords t) →
    cfg0.idle 1 (grid0.coords t) = false := by decide +kernel

/-! ## The memory the body is called with -/

/-- One staging buffer of the output window as a view: what the output block holds is stated through it. -/
abbrev VO0_1 : View sig .tc .vmem S1024x1 .f32 := (Memref.whole cc0_stg1_0 : Memref sig .tc .vmem S1024x1 .f32).view
/-- The staging memory of each window at point `t`, as the body is handed it, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole buffer of the call's own, handed to the body beside the windows. -/
abbrev scM0_0 : Memref sig .tc .vmem S1024x1 .f32 := Memref.whole cc0_scratch0
/-- The accumulator as a view: what it holds between points is stated through it. -/
abbrev VS0_0 : View sig .tc .vmem S1024x1 .f32 := scM0_0.view

/-- The region's invariant with the accumulator split off: the accumulator whole at some contents, the other
    buffers of limited lifetime unopened, and the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

/-! ## The windows' blocks -/

/-- Window `w`'s block at point `t`, read off its array as the call finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input's staging buffer holds the input block at every point, for any proof data whose input array is
    the entry contents and whose body leaves the block in place: the block is fetched afresh at every point. -/
theorem before0_0_of {c : Dev nD} (dat : Dat τ (Elt F) Unit ℕ (UR sig nD τ) ℕ cfg0 c)
    (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

end Cert.Kernel.Hand

end
-- ==== Proof.K.R0RunA.lean ====
/-
  The degree kernel's body run through in case A: the first column tile (k = 0).  The body clears the
  accumulator, reads it back, reads the adjacency block, and stores the accumulator again with the block's row
  sums added.  The output block is not touched.  The run is carried out symbolically; what the accumulator ends
  with is recorded as the list of stores made into it (latest first), which the run itself produces.
-/
import proofs.«173056_j36472862278098_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- Case A.  On whole buffers — the input's at contents `x0`, the output's at contents `xi1` (handed back
    untouched), the accumulator at anything — the body runs to any continuation that accepts the input's and the
    output's buffers as they were and the accumulator with the stores `LS0` made into it.  The stores are the
    witness the run finds. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0RunB.lean ====
/-
  The degree kernel's body run through in case B: a middle column tile (k = 1 or 2).  The body reads the
  accumulator, reads the adjacency block, and stores the accumulator with the block's row sums added.  The
  output block is not touched.  The run is carried out symbolically; what the accumulator ends with is recorded
  as the list of stores made into it, which the run itself produces.
-/
import proofs.«173056_j36472862278098_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- Case B.  On whole buffers — the input's at contents `x0`, the output's at contents `xi1` (handed back
    untouched), the accumulator at the contents `xs0` the point before left — the body runs to any continuation
    that accepts the input's and the output's buffers as they were and the accumulator with the stores `LS0` made
    into it.  The stores are the witness the run finds. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0RunC.lean ====
/-
  The degree kernel's body run through in case C: the last column tile (k = 3).  The body reads the
  accumulator, reads the adjacency block, stores the accumulator with the block's row sums added, reads it back
  and stores it into the output block.  The run is carried out symbolically; what the accumulator and the output
  block end with is recorded as the lists of stores made into them, which the run itself produces.
-/
import proofs.«173056_j36472862278098_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- Case C.  On whole buffers — the input's at contents `x0`, the output's at anything, the accumulator at the
    contents `xs0` the point before left — the body runs to any continuation that accepts the input's buffer as
    it was, the output's with the stores `L1` made into it and the accumulator with the stores `LS0` made into it.
    Both lists are the witness the run finds. -/
noncomputable def kernelRun0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.R0Frame.lean ====
/-
  The degree kernel (the first of the three calls): its frame half, at any float instance.

  From the three case runs this module reads off what the accumulator and the output block hold after each of
  the 32 points, by recursion on the point: a point of case A starts from nothing, a point of case B or C starts
  from what the point before left in the accumulator.  The region's invariant tracks the accumulator's contents
  from one point to the next.  With that the body meets its obligation at every point: the point's remainder
  modulo four selects the case, the case's run applies, and the accumulator is handed on at its new contents.
  Before the first point and after the last one the invariant is the plain one (the accumulator at anything).
-/
import proofs.«173056_j36472862278098_1_alg».proof.Proof.K.R0RunA
import proofs.«173056_j36472862278098_1_alg».proof.Proof.K.R0RunB
import proofs.«173056_j36472862278098_1_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- The contents of the TensorCore's buffers when the call is entered.
variable (V : (c : Dev nD) → (b : Ref sig .tc) → Buf (Elt F) ((c : Thread nD τ).loc b))

/-! ## What each case leaves -/

/-- Case A makes no store into the output block: this placeholder is consulted by nothing, since at these points
    the block is neither written back nor read at the next point. -/
def out0_A_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VO0_1.read (Elt F) (VO0_1.writes (Elt F) VO0_1.junk (kernelRun0_A c i arg2 harg2 arg3 harg3 arg4 harg4 hc0 hc1 x0).1)

/-- Case A's stores into the accumulator cover it: each is a store of the whole block. -/
theorem scover0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- What case A leaves in the accumulator: its stores read back. -/
def sout0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VS0_0.read (Elt F) (VS0_0.writes (Elt F) VS0_0.junk (kernelRun0_A c i arg2 harg2 arg3 harg3 arg4 harg4 hc0 hc1 x0).2.1)

/-- Case B makes no store into the output block either: a placeholder again. -/
def out0_B_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)

/-- Case B's one store into the accumulator covers it. -/
theorem scover0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

/-- What case B leaves in the accumulator. -/
def sout0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

/-- Case C's one store into the output block covers it. -/
theorem cover0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- What case C leaves in the output block. -/
def out0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

/-- Case C's one store into the accumulator covers it. -/
theorem scover0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- What case C leaves in the accumulator. -/
def sout0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: the pair (output block's staging buffer, accumulator).  The remainder of `n`
    modulo four selects the case; the case is run at the point's own memory and input block, and in cases B and C
    from what position `n - 1` left in the accumulator.  No point has remainder 0 and 3 at once. -/
def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- At a point of case A. -/
theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t),
      sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- At a point of case B: over what the point before left. -/
theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2,
      sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
      sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant, with the accumulator's contents tracked -/

/-- The buffers of limited lifetime other than this call's accumulator and staging buffers: never opened here. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: before the first point the plain one (the accumulator at anything);
    afterwards the accumulator at what the point before left in it, the other buffers unopened, the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2)) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ rest0 c) ∗ (∃ r, prngReg c r)) := by
  cases n with
  | zero => exact absurd rfl hz
  | succ n => rfl

/-! ## The proof data -/

/-- The call's proof data on core `c`: the arrays as the call finds them; after the body at point `t` the
    input's buffer at its block and the output's at `outsAt0`'s first component; the tracked invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's staging buffer holds the input block at every point. -/
theorem before0_0 (c : Dev nD) (t : Fin cfg0.N) (d) : (dat0 V c).before 0 t d = iblk0 V c 0 t :=
  before0_0_of V (dat0 V c) (A_eq0 V c 0) (after0_0 V c) t d

/-! ## The body's obligation at a point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point.  The input's buffer holds its block; the point's remainder modulo four says which
    case it is in, and that case's run applies.  The invariant hands the body the accumulator at what the point
    before left (at anything, at the first point) and takes it back at this point's contents; the other buffers,
    the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the plain one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.R1Runs.lean ====
/-
  The first propagation layer's kernel, region 1 of the program: what its three control cases share.

  The kernel runs on a grid of 8 row tiles by 4 column tiles.  At a point `(i, k)` it multiplies the
  `1024 × 2048` block `(i, k)` of the adjacency matrix, scaled by a column of row factors and a row of
  column factors, with the `2048 × 256` block `k` of the features, and adds the product to an accumulator
  it keeps in a scratch buffer between points.  Two conditionals on `k` steer it: at `k = 0` the
  accumulator is first set to zero; at `k = 3` the accumulator plus the bias row, clamped at zero from
  below, is stored into the output block.  Elsewhere the output block is neither stored nor written back.

  Here: the two conditions in closed form over the 32 points, where the output window is idle and where it
  is live, names for the staging memrefs and the scratch, the region's invariant with the scratch split
  off the other scoped buffers, each window's block read off the entry contents, and the fact that every
  input's staging buffer holds its block at every point.
-/
import proofs.«173056_j36472862278098_1_alg».proof.Proof.Gen.Kernel.Launch
import proofs.«173056_j36472862278098_1_alg».proof.Proof.Gen.Kernel.Skeleton
import proofs.«173056_j36472862278098_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The two conditionals -/

/-- "This is the first column tile" (`k = 0`), as the body computes it from the point's coordinates. -/
abbrev cond1_0 (i : grid1.Coords) : Prop := (Scalar.cmpi .ne (Scalar.extui (Scalar.cmpi .eq (BitVec.ofNat 32 (i 1).val) 0#32)) 0#32) = 1#1
/-- Counting the points row tile by row tile, it holds at the points that are multiples of 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column tile" (`k = 3`). -/
abbrev cond1_1 (i : grid1.Coords) : Prop := k1_cond2 i = 1#1
/-- It holds at the points that are 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- At a first column tile the output block is not stored: the window is idle there, -/
theorem idleAt1_5_A : ∀ t : Fin cfg1.N, cond1_0 (grid1.coords t) → ¬cond1_1 (grid1.coords t) → cfg1.idle 5 (grid1.coords t) = true := by decide +kernel
/-- and its buffer is not written back. -/
theorem noFlush1_5_A : ∀ t : Fin cfg1.N, cond1_0 (grid1.coords t) → ¬cond1_1 (grid1.coords t) → (cfg1.win 5).flush t = false := by decide +kernel
/-- The same at a middle column tile. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last column tile the output block is stored: the window is live. -/
theorem liveAt1_5_C : ∀ t : Fin cfg1.N, ¬cond1_0 (grid1.coords t) → cond1_1 (grid1.coords t) → cfg1.idle 5 (grid1.coords t) = false := by decide +kernel

/-! ## The memrefs the body is called with -/

/-- Each window's current staging memref at point `t`, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)

/-- The accumulator: the kernel's own scratch buffer, whole. -/
abbrev scM1 : Memref sig .tc .vmem S1024x256 .f32 := Memref.whole cc1_scratch0
/-- The accumulator as a view: what it holds is stated through it. -/
abbrev VS1 : View sig .tc .vmem S1024x256 .f32 := (scM1).view
/-- One staging buffer of the output window, through which the output block's contents are stated. -/
abbrev VO1 : View sig .tc .vmem S1024x256 .f32 := (Memref.whole cc1_stg5_0 : Memref sig .tc .vmem S1024x256 .f32).view

/-! ## The invariant, with the accumulator split off -/

/-- What the region is handed besides its windows: the accumulator at some contents, every other scoped
    buffer that is no staging buffer of this region (never opened), and the generator register. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point of the grid, whether the pipeline
    fetched it there or kept it from the point before (its block index did not move), for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point of the grid, whether the pipeline
    fetched it there or kept it from the point before (its block index did not move), for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point of the grid, whether the pipeline
    fetched it there or kept it from the point before (its block index did not move), for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point of the grid, whether the pipeline
    fetched it there or kept it from the point before (its block index did not move), for any proof data
    whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point of the grid, whether the pipeline
    fetched it there or kept it from the point before (its block index did not move), for any proof data
    whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.K.R1RunA.lean ====
/-
  The first layer's kernel at a FIRST column tile (`k = 0`): the accumulator is set to zero, then the
  scaled block product is added to it; the output block is left alone.  The body's run on any whole
  staging memrefs, with the stores the accumulator ends with as the witness the run finds.
-/
import proofs.«173056_j36472862278098_1_alg».proof.Proof.K.R1Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs — the five inputs at their contents, the accumulator at anything (it is overwritten before it is used), the output block's buffer at contents handed back untouched —
    runs to a continuation that is given the inputs as they were, the output block's buffer as it was
    and the accumulator with the pieces `LS` written (last store first).  The conditionals are decided by the case's hypotheses. -/
noncomputable def kernelRun1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) :
    Σ' (LO : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.K.R1RunB.lean ====
/-
  The first layer's kernel at a MIDDLE column tile (`k = 1, 2`): the scaled block product is added to the
  accumulator; the output block is left alone.  The body's run on any whole staging memrefs, with the
  stores the accumulator ends with as the witness the run finds.
-/
import proofs.«173056_j36472862278098_1_alg».proof.Proof.K.R1Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs — the five inputs at their contents, the accumulator at the contents the point before left, the output block's buffer at contents handed back untouched —
    runs to a continuation that is given the inputs as they were, the output block's buffer as it was
    and the accumulator with the pieces `LS` written (last store first).  The conditionals are decided by the case's hypotheses. -/
noncomputable def kernelRun1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    Σ' (LO : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.K.R1RunC.lean ====
/-
  The first layer's kernel at a LAST column tile (`k = 3`): the scaled block product is added to the
  accumulator, and the accumulator plus the bias row, clamped at zero from below, is stored into the
  output block.  The body's run on any whole staging memrefs, with the stores the accumulator and the
  output block end with as the witness the run finds.
-/
import proofs.«173056_j36472862278098_1_alg».proof.Proof.K.R1Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs — the five inputs at their contents, the accumulator at the contents the point before left, the output block's buffer at anything —
    runs to a continuation that is given the inputs as they were, the output block's buffer with the pieces `LO` written
    and the accumulator with the pieces `LS` written (last store first).  The conditionals are decided by the case's hypotheses. -/
noncomputable def kernelRun1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.K.R1Frame.lean ====
/-
  The first propagation layer's kernel, region 1 of the program: its proof data and body obligation.

  From the three runs of the body (first, middle and last column tile) this module reads what the
  accumulator holds after every point of the grid — a recursion on the point: a first column tile starts
  the accumulator afresh from the point's input blocks; a middle or last one continues from what the point
  before left — and what the output block holds after a last column tile.  The region's invariant names
  the accumulator's contents after each point; the other scoped buffers and the generator register pass
  through untouched.  With these the body meets its obligation at every point, in each of the three cases.
-/
import proofs.«173056_j36472862278098_1_alg».proof.Proof.K.R1RunA
import proofs.«173056_j36472862278098_1_alg».proof.Proof.K.R1RunB
import proofs.«173056_j36472862278098_1_alg».proof.Proof.K.R1RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At a first column tile the stores into the accumulator cover it. -/
theorem scover1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) (y : S1024x256.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x256.size (by sl_kernel_rfl) y

/-- What a first column tile leaves in the accumulator: its stores read back. -/
def sout1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) : Vec F S1024x256 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

/-- At a middle column tile the store into the accumulator covers it. -/
theorem scover1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 x3 x4 xs).2.1, y ∈ pc.1.set :=
  View.cover_of_tiledL (kernelRun1_B c i arg2 harg2 arg3 harg3 arg4 harg4 arg5 harg5 arg6 harg6 arg7 harg7 arg8 harg8 hc0 hc1 x0 x1 x2 x3 x4 xs).2.1 S1024x256.size (by sl_kernel_rfl) y

/-- What a middle column tile leaves in the accumulator, from what the point before left (`xs`). -/
def sout1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) : Vec F S1024x256 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs).2.1)

/-- At a last column tile the store into the output block covers it, -/
theorem cover1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S1024x256.size (by sl_kernel_rfl) y

/-- and this is what it leaves there. -/
def out1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) : Vec F S1024x256 .f32 :=
  VO1.read (Elt F) (VO1.writes (Elt F) VO1.junk (kernelRun1_C c i arg2 harg2 arg3 harg3 arg4 harg4 arg5 harg5 arg6 harg6 arg7 harg7 arg8 harg8 hc0 hc1 x0 x1 x2 x3 x4 xs).1)

/-- The store into the accumulator covers it as well, -/
theorem scover1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S1024x256.size (by sl_kernel_rfl) y

/-- and this is what it leaves there. -/
def sout1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) : Vec F S1024x256 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1)

/-! ## The same at a point of the grid, on the point's memrefs and input blocks -/

/-- The accumulator after a first column tile `t`. -/
def accA (c : Dev nD) (t : Fin cfg1.N) (h0 : t.val % 4 = 0) (h1 : ¬t.val % 4 = 3) : Vec F S1024x256 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- The accumulator after a middle column tile `t`, over what the point before left. -/
def accB (c : Dev nD) (t : Fin cfg1.N) (h0 : ¬t.val % 4 = 0) (h1 : ¬t.val % 4 = 3) (xs : Vec F S1024x256 .f32) : Vec F S1024x256 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs

/-- The accumulator after a last column tile `t`, over what the point before left. -/
def accC (c : Dev nD) (t : Fin cfg1.N) (h0 : ¬t.val % 4 = 0) (h1 : t.val % 4 = 3) (xs : Vec F S1024x256 .f32) : Vec F S1024x256 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) xs

/-- The output block after a last column tile `t`. -/
def outC (c : Dev nD) (t : Fin cfg1.N) (h0 : ¬t.val % 4 = 0) (h1 : t.val % 4 = 3) (xs : Vec F S1024x256 .f32) : Vec F S1024x256 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) xs

/-! ## The accumulator and the output block after each point -/

/-- THE ACCUMULATION: what the accumulator holds after the body at position `n`.  A first column tile starts
    afresh; any other continues from position `n - 1`. -/
def accAt (c : Dev nD) : (n : ℕ) → n < cfg1.N → Vec F S1024x256 .f32
  | 0, hn => accA V c ⟨0, hn⟩ (Nat.zero_mod _) (show ¬(0 : ℕ) % 4 = 3 by decide)
  | n + 1, hn =>
    if h0 : (n + 1) % 4 = 0 then
      accA V c ⟨n + 1, hn⟩ h0 (show ¬(n + 1) % 4 = 3 by omega)
    else if h1 : (n + 1) % 4 = 3 then
      accC V c ⟨n + 1, hn⟩ h0 h1 (accAt c n (Nat.lt_of_succ_lt hn))
    else
      accB V c ⟨n + 1, hn⟩ h0 h1 (accAt c n (Nat.lt_of_succ_lt hn))

theorem accAt_A (c : Dev nD) (t : Fin cfg1.N) (h0 : t.val % 4 = 0) (h1 : ¬t.val % 4 = 3) :
    accAt V c t.val t.isLt = accA V c t h0 h1 := by
  obtain ⟨n, hn⟩ := t
  cases n with
  | zero => exact rfl
  | succ n => exact (dif_pos h0).trans rfl

theorem accAt_B (c : Dev nD) (t : Fin cfg1.N) (h0 : ¬t.val % 4 = 0) (h1 : ¬t.val % 4 = 3) :
    accAt V c t.val t.isLt = accB V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg1.N) (h0 : ¬t.val % 4 = 0) (h1 : t.val % 4 = 3) :
    accAt V c t.val t.isLt = accC V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block's staging buffer holds after the body at `t`: at a last column tile the stored
    block, over the accumulator the point before left; elsewhere nothing anyone reads (the window is idle and
    not written back there). -/
def outAt (c : Dev nD) (t : Fin cfg1.N) : Vec F S1024x256 .f32 :=
  if h1 : t.val % 4 = 3 then
    outC V c t (fun h0 => by omega) h1 (accAt V c (t.val - 1) (Nat.lt_of_le_of_lt (Nat.sub_le _ _) t.isLt))
  else VO1.read (Elt F) VO1.junk

theorem outAt_C (c : Dev nD) (t : Fin cfg1.N) (h0 : ¬t.val % 4 = 0) (h1 : t.val % 4 = 3) :
    outAt V c t = outC V c t h0 h1 (accAt V c (t.val - 1) (Nat.lt_of_le_of_lt (Nat.sub_le _ _) t.isLt)) := by
  unfold outAt; exact dif_pos h1

/-! ## The invariant -/

/-- Before position `n`: at the region's entry what the launch hands it; afterwards the same with the
    accumulator at what the point before left. -/
def PhiS (c : Dev nD) : (n : ℕ) → n ≤ cfg1.N → sProp 𝕄
  | 0, _ => Pipeline.ΦA spec1 c
  | n + 1, hn => iprop(iprop(iprop(owns (c : Thread nD τ) scM1 fullShare (accAt V c n hn))
      ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1 fullShare (accAt V c n hn))
      ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(iprop(owns (c : Thread nD τ) scM1 fullShare (accAt V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body each input's
    buffer at its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window is never idle. -/
theorem liveAt1_0 : ∀ t : Fin cfg1.N, cfg1.idle 0 (grid1.coords t) = false := fun _ => rfl
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
/-- An input window is never idle. -/
theorem liveAt1_1 : ∀ t : Fin cfg1.N, cfg1.idle 1 (grid1.coords t) = false := fun _ => rfl
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
/-- An input window is never idle. -/
theorem liveAt1_2 : ∀ t : Fin cfg1.N, cfg1.idle 2 (grid1.coords t) = false := fun _ => rfl
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- An input window is never idle. -/
theorem liveAt1_3 : ∀ t : Fin cfg1.N, cfg1.idle 3 (grid1.coords t) = false := fun _ => rfl
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
/-- An input window is never idle. -/
theorem liveAt1_4 : ∀ t : Fin cfg1.N, cfg1.idle 4 (grid1.coords t) = false := fun _ => rfl
theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point.  The inputs' memrefs hold their blocks; the point's position modulo 4 says which
    case it is in; the invariant hands the body the accumulator at what the point before left (at anything
    before the first point) and takes it back at this point's contents; the other scoped buffers and the
    generator register pass through; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hN : t.val < 32 := lt_of_lt_of_eq t.isLt (show cfg1.N = 32 from N_1)
  by_cases h0 : t.val % 4 = 0
  · have h1 : ¬t.val % 4 = 3 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [accAt_A V c t h0 h1]
    unfold accA sout1_A; (try dsimp only)
    by_cases hz : t.val = 0
    · rw [PhiS_castSucc V c t, PhiS_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [accAt_C V c t h0 h1, outAt_C V c t h0 h1]
      unfold accC outC sout1_C out1_C; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [accAt_B V c t h0 h1]
      unfold accB sout1_B; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

/-- The shares are full, by computation. -/
example (c : Dev nD) := (dat1 V c).share_full fun _ => rfl

end Cert.Kernel.Hand

end
-- ==== Proof.K.R2Runs.lean ====
/-
  The second propagation layer's kernel, what its three control cases share.

  The kernel visits a grid of 8 row tiles by 4 column tiles.  At each point it multiplies a 1024 × 2048 block of
  the adjacency matrix entrywise by a column of row scalings and a row of column scalings, multiplies the result
  with a 2048 × 16 block of features, and adds the product into a 1024 × 16 accumulator that lives beside the
  staged windows and is carried from one column tile to the next.  The accumulator is zeroed first at column
  tile 0, and at column tile 3 the accumulated block plus the bias row is stored into the output window.

  Here: the two branch conditions as propositions over the grid coordinates with their closed forms over the 32
  points; where the output window is idle, not written back, or live; the staging and accumulator memrefs the
  body is called with; the region invariant with the accumulator split off the other scoped buffers; each
  window's block read off its array as the region finds it; and that every input's current staging buffer holds
  that block at every point, whether or not the pipeline fetched it there.
-/
import proofs.«173056_j36472862278098_1_alg».proof.Proof.Gen.Kernel.Launch
import proofs.«173056_j36472862278098_1_alg».proof.Proof.Gen.Kernel.Skeleton
import proofs.«173056_j36472862278098_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point: where the pipeline does not fetch
    it the block index has not moved, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: where the pipeline does not fetch
    it the block index has not moved, and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point: where the pipeline does not fetch
    it the block index has not moved, and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point: where the pipeline does not fetch
    it the block index has not moved, and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point: where the pipeline does not fetch
    it the block index has not moved, and the body leaves the buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's branch conditions -/

/-- The body zeroes its accumulator first exactly when this holds: the column-tile coordinate is 0. -/
abbrev cond2_0 (i : grid2.Coords) : Prop := (Scalar.cmpi .ne (Scalar.extui (Scalar.cmpi .eq (BitVec.ofNat 32 (i 1).val) 0#32)) 0#32) = 1#1
/-- Over the 32 points in row-major order that is every fourth point, starting with the first. -/
theorem hcond2_0 : ∀ t : Fin cfg2.N, cond2_0 (grid2.coords t) ↔ t.val % 4 = 0 :=
  (by decide +kernel : ∀ t : Fin grid2.N, cond2_0 (grid2.coords t) ↔ t.val % 4 = 0)

/-- The body stores the output block exactly when this holds: the column-tile coordinate is 3. -/
abbrev cond2_1 (i : grid2.Coords) : Prop := k2_cond2 i = 1#1
/-- That is every fourth point, starting with the fourth. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Input window 0 is live at every point. -/
theorem liveAt2_0 : ∀ t : Fin cfg2.N, cfg2.idle 0 (grid2.coords t) = false := by decide +kernel
/-- Input window 1 is live at every point. -/
theorem liveAt2_1 : ∀ t : Fin cfg2.N, cfg2.idle 1 (grid2.coords t) = false := by decide +kernel
/-- Input window 2 is live at every point. -/
theorem liveAt2_2 : ∀ t : Fin cfg2.N, cfg2.idle 2 (grid2.coords t) = false := by decide +kernel
/-- Input window 3 is live at every point. -/
theorem liveAt2_3 : ∀ t : Fin cfg2.N, cfg2.idle 3 (grid2.coords t) = false := by decide +kernel
/-- Input window 4 is live at every point. -/
theorem liveAt2_4 : ∀ t : Fin cfg2.N, cfg2.idle 4 (grid2.coords t) = false := by decide +kernel
/-- At column tile 0 the output window is idle: nothing is stored into it there. -/
theorem idleAt2_5_A : ∀ t : Fin cfg2.N, cond2_0 (grid2.coords t) → ¬cond2_1 (grid2.coords t) → cfg2.idle 5 (grid2.coords t) = true := by decide +kernel
/-- At column tile 0 the output window's block is not written back. -/
theorem noFlush2_5_A : ∀ t : Fin cfg2.N, cond2_0 (grid2.coords t) → ¬cond2_1 (grid2.coords t) → (cfg2.win 5).flush t = false := by decide +kernel
/-- At column tiles 1 and 2 the output window is idle. -/
theorem idleAt2_5_B : ∀ t : Fin cfg2.N, ¬cond2_0 (grid2.coords t) → ¬cond2_1 (grid2.coords t) → cfg2.idle 5 (grid2.coords t) = true := by decide +kernel
/-- At column tiles 1 and 2 the output window's block is not written back. -/
theorem noFlush2_5_B : ∀ t : Fin cfg2.N, ¬cond2_0 (grid2.coords t) → ¬cond2_1 (grid2.coords t) → (cfg2.win 5).flush t = false := by decide +kernel
/-- At column tile 3 the output window is live: the body stores its block. -/
theorem liveAt2_5_C : ∀ t : Fin cfg2.N, ¬cond2_0 (grid2.coords t) → cond2_1 (grid2.coords t) → cfg2.idle 5 (grid2.coords t) = false := by decide +kernel

/-! ## The memrefs the body is called with -/

/-- One staging buffer of the output window, as a view: what the body leaves there is stated through it. -/
abbrev VO2_5 : View sig .tc .vmem S1024x16 .f32 := (Memref.whole cc2_stg5_0 : Memref sig .tc .vmem S1024x16 .f32).view
/-- Window 0's current staging memref at point `t`, and that it is a whole buffer. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
/-- Window 1's current staging memref at point `t`, and that it is a whole buffer. -/
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
/-- Window 2's current staging memref at point `t`, and that it is a whole buffer. -/
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
/-- Window 3's current staging memref at point `t`, and that it is a whole buffer. -/
abbrev ms2_3 (t : Fin cfg2.N) : Memref sig .tc .vmem S2048x16 .f32 := win2_3.stage (cfg2.slots t 3)
abbrev hs2_3 (t : Fin cfg2.N) : (ms2_3 t).IsWhole := hstage2_3 ((cfg2.slots t 3).cast nbuf2_3)
/-- Window 4's current staging memref at point `t`, and that it is a whole buffer. -/
abbrev ms2_4 (t : Fin cfg2.N) : Memref sig .tc .vmem S1x16 .f32 := win2_4.stage (cfg2.slots t 4)
abbrev hs2_4 (t : Fin cfg2.N) : (ms2_4 t).IsWhole := hstage2_4 ((cfg2.slots t 4).cast nbuf2_4)
/-- Window 5's current staging memref at point `t`, and that it is a whole buffer. -/
abbrev ms2_5 (t : Fin cfg2.N) : Memref sig .tc .vmem S1024x16 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S1024x16 .f32 := Memref.whole cc2_scratch0
/-- The accumulator as a view: what it holds is stated through it. -/
abbrev VS2_0 : View sig .tc .vmem S1024x16 .f32 := scM2_0.view

/-! ## The region invariant with the accumulator split off -/

/-- The other scoped buffers of the core that are no staging buffer of this region, each at some contents, unopened. -/
abbrev rest2 (c : Dev nD) : sProp 𝕄 :=
  Pipeline.scopedRestBut (Ix := Unit) (Name := ℕ) (U := UR sig nD τ) (Lvl := ℕ) (Val := Elt F) spec2 c [cc2_scratch0]

/-- What the region hands its body besides the windows: the accumulator at some contents, the other scoped
    buffers unopened, and the generator register at some state. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA
  rw [Pipeline.scopedRest_split_of_list spec2 c [cc2_scratch0] (by decide) (by decide)]
  simp only [scM2_0, owns_whole]; try rfl

end Cert.Kernel.Hand

end
-- ==== Proof.K.R2RunA.lean ====
/-
  The second layer's kernel body at column tile 0.

  The body first stores zeros over the whole accumulator, then loads the adjacency block, the row scalings, the
  column scalings, the accumulator (which now reads as the zeros just stored) and the feature block, and stores
  the accumulator plus the product of the scaled adjacency block with the feature block back over the whole
  accumulator.  The output window is not touched.  The run is found by symbolic execution of the body's memory
  operations; what the accumulator ends with is recorded as the list of stores, last first.
-/
import proofs.«173056_j36472862278098_1_alg».proof.Proof.K.R2Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at column tile 0 (zero the accumulator, then accumulate): on whole staging memrefs holding the five input blocks, the output's at contents handed back untouched, and the
    accumulator at anything, the body runs to a state with the inputs as they were and the accumulator
    with its stores written.  The store lists are the witness the run finds. -/
noncomputable def kernelRun2_A (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) :
    Σ' (L5 : List (View.Piece (Elt F) S1024x16 .f32)), { LS0 : List (View.Piece (Elt F) S1024x16 .f32) //
      ∀ (xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    rw [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R2RunB.lean ====
/-
  The second layer's kernel body at column tiles 1 and 2.

  The body loads the adjacency block, the row scalings, the column scalings, the accumulator as the point
  before left it, and the feature block, and stores the accumulator plus the product of the scaled adjacency
  block with the feature block back over the whole accumulator.  The output window is not touched.  The run is
  found by symbolic execution of the body's memory operations; what the accumulator ends with is recorded as
  the list of stores, last first.
-/
import proofs.«173056_j36472862278098_1_alg».proof.Proof.K.R2Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at column tiles 1 and 2 (accumulate): on whole staging memrefs holding the five input blocks, the output's at contents handed back untouched, and the
    accumulator at what the point before left, the body runs to a state with the inputs as they were and the accumulator
    with its stores written.  The store lists are the witness the run finds. -/
noncomputable def kernelRun2_B (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    Σ' (L5 : List (View.Piece (Elt F) S1024x16 .f32)), { LS0 : List (View.Piece (Elt F) S1024x16 .f32) //
      ∀ (xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    rw [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R2RunC.lean ====
/-
  The second layer's kernel body at column tile 3.

  The body accumulates as at the tiles before, then loads the accumulator it has just stored and the bias row,
  and stores their sum (the bias row repeated down the 1024 rows) over the whole output block.  The run is
  found by symbolic execution of the body's memory operations; what the output block and the accumulator end
  with is recorded as the lists of stores, last first.
-/
import proofs.«173056_j36472862278098_1_alg».proof.Proof.K.R2Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at column tile 3 (accumulate, then store the output block): on whole staging memrefs holding the five input blocks, the output's at anything, and the
    accumulator at what the point before left, the body runs to a state with the inputs as they were, the output block with its stores written and the accumulator
    with its stores written.  The store lists are the witness the run finds. -/
noncomputable def kernelRun2_C (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    Σ' (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨?_, ?_, fun E K => ?run⟩
  case run =>
    rw [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.R2Frame.lean ====
/-
  The second propagation layer's kernel: what its accumulator and its output window hold after every grid
  point, and the frame half of the region.

  The 32 points are walked in row-major order, four column tiles per row tile.  After each point the
  accumulator holds what that point's control case stored into it: at column tile 0 the case that zeroes first,
  at column tiles 1 and 2 the plain accumulation over what the point before left, at column tile 3 the same
  followed by the store of the output block.  The contents are defined by recursion on the point, and the region
  invariant tracks them: before the first point the accumulator holds anything, afterwards what the point before
  left.  The output window is idle and not written back except at column tile 3, where the body covers its block.
  From this the body obligation at every point follows by cases on the point, and the invariant is what the
  region is entered with and gives back.
-/
import proofs.«173056_j36472862278098_1_alg».proof.Proof.K.R2RunA
import proofs.«173056_j36472862278098_1_alg».proof.Proof.K.R2RunB
import proofs.«173056_j36472862278098_1_alg».proof.Proof.K.R2RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- In this case nothing is stored into the output window: a placeholder that nothing consults, since the window
    is idle and not written back at these points. -/
def out2_A_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) : Vec F S1024x16 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3 x4).1)

/-- In this case nothing is stored into the output window: a placeholder that nothing consults, since the window
    is idle and not written back at these points. -/
def out2_B_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 x4 xs0).1)

/-- The stores into the accumulator in this case cover it: every store is of the whole 1024 × 16 block. -/
theorem scover2_A_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) (y : S1024x16.Idx) :
    ∃ pc ∈ (kernelRun2_A c i arg2 harg2 arg3 harg3 arg4 harg4 arg5 harg5 arg6 harg6 arg7 harg7 arg8 harg8 hc0 hc1 x0 x1 x2 x3 x4).2.1, y ∈ pc.1.set :=
  View.cover_of_tiledL (kernelRun2_A c i arg2 harg2 arg3 harg3 arg4 harg4 arg5 harg5 arg6 harg6 arg7 harg7 arg8 harg8 hc0 hc1 x0 x1 x2 x3 x4).2.1 S1024x16.size (by sl_kernel_rfl) y

/-- What this case leaves in the accumulator: its stores read back. -/
def sout2_A_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) : Vec F S1024x16 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).2.1)

/-- The stores into the accumulator in this case cover it: every store is of the whole 1024 × 16 block. -/
theorem scover2_B_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) (y : S1024x16.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S1024x16.size (by sl_kernel_rfl) y

/-- What this case leaves in the accumulator: its stores read back. -/
def sout2_B_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).2.1)

/-- The stores into the accumulator in this case cover it: every store is of the whole 1024 × 16 block. -/
theorem scover2_C_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x16.size (by sl_kernel_rfl) y

/-- What this case leaves in the accumulator: its stores read back. -/
def sout2_C_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

/-- At column tile 3 the one store into the output window covers its block. -/
theorem cover2_C_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x16.size (by sl_kernel_rfl) y

/-- What the body leaves in the output window's staging buffer at column tile 3: its store read back. -/
def out2_C_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

section
variable (V : (c : Dev nD) → (b : Ref sig .tc) → Buf (Elt F) ((c : Thread nD τ).loc b))

/-! ## What the output window and the accumulator hold after each point -/

/-- The accumulation.  After the body at position `n`: first what the output window's staging buffer holds, then
    what the accumulator holds — the case the point is in, run on the point's memrefs and input blocks, over what
    the point before left in the accumulator.  No point is in both the first and the last column tile. -/
def outsAt2 (c : Dev nD) : (n : ℕ) → n < cfg2.N → Vec F S1024x16 .f32 × Vec F S1024x16 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- At a point of column tile 0: the zeroing case's contents. -/
theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- At a point of column tiles 1 and 2: the accumulating case's contents, over what the point before left. -/
theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of column tile 3: the storing case's contents, over what the point before left. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents tracked -/

/-- Before position `n`: at the first point what the region is entered with (the accumulator at anything);
    afterwards the accumulator at what the point before left, the other scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ rest2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ rest2 (F := F) c) ∗ (∃ r, prngReg c r)) := by
  cases n with
  | zero => exact absurd rfl hz
  | succ n => rfl

/-! ## The region's proof data -/

/-- On core `c`: the arrays as the region finds them; after the body at point `t` each input's buffer at its
    block and the output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point.  The inputs' memrefs hold their blocks; the point's position modulo 4 says which case it
    is in; the invariant hands the body the accumulator at what the point before left (at anything at the first
    point) and takes it back at this point's contents; the output window is handed back untouched where it is
    idle and at its covered block where it is stored; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the region was entered with: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end

end Cert.Kernel.Hand

end
-- ==== Proof.K.RunInst.lean ====
/-
  The run of the whole program at the three regions' actual halves.

  The run is proved once for any three region halves; here the halves are the degree kernel's, the first
  layer's and the second layer's, and the statements are restated over them: what the regions leave (`outs` at
  its three entries, each as the region's own data read after the last grid point, the data taken at the
  boundary valuation the region is entered from), the run with the result array named (`run_main`) and the
  frame claim (`frame`).
-/
import proofs.«173056_j36472862278098_1_alg».proof.Proof.K.Run
import proofs.«173056_j36472862278098_1_alg».proof.Proof.K.R0Frame
import proofs.«173056_j36472862278098_1_alg».proof.Proof.K.R1Frame
import proofs.«173056_j36472862278098_1_alg».proof.Proof.K.R2Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

/-- The degree kernel's half. -/
def half0 : Half0 F :=
  ⟨fun V c => dat0 V c, A_eq0, fun _ _ _ => rfl, fun _ _ _ => rfl, fun _ _ => rfl, body_obligation0, hin0, hout0⟩
/-- The first layer's half. -/
def half1 : Half1 F :=
  ⟨fun V c => dat1 V c, A_eq1, fun _ _ _ => rfl, fun _ _ _ => rfl, fun _ _ => rfl, body_obligation1, hin1, hout1⟩
/-- The second layer's half. -/
def half2 : Half2 F :=
  ⟨fun V c => dat2 V c, A_eq2, fun _ _ _ => rfl, fun _ _ _ => rfl, fun _ _ => rfl, body_obligation2, hin2, hout2⟩

variable (m : (ℓ : Loc nD τ sig) → Buf (Elt F) ℓ)

/-! ## What the regions leave, over the regions' own data -/

/-- The degree column after the degree kernel: its data at the valuation after the first host stretch. -/
theorem outs_main_v35 (c : Dev nD) :
    outs half0 half1 half2 m 2 main_v35 c = (dat0 (fun c b => Gen.V1 m c b) c).arrAt 1 cfg0.N :=
  outs_v35 half0 half1 half2 m c

/-- The first layer's output: its data at the valuation before it, which already holds the degree column. -/
theorem outs_main_v45 (c : Dev nD) :
    outs half0 half1 half2 m 6 main_v45 c
      = (dat1 (fun c b => Gen.V5 m (outs half0 half1 half2 m) c b) c).arrAt 5 cfg1.N := by
  have e : (fun (c : Dev nD) (b : Ref sig .tc) => Gen.V5 m (outs half0 half1 half2 m) c b) = ent1 half0 m :=
    funext fun c => funext fun b => congrFun (V5_outs half0 half1 half2 m c) _
  rw [e]; exact outs_v45 half0 half1 half2 m c

/-- The second layer's output: its data at the valuation before it, which already holds the first layer's. -/
theorem outs_main_v48 (c : Dev nD) :
    outs half0 half1 half2 m 8 main_v48 c
      = (dat2 (fun c b => Gen.V7 m (outs half0 half1 half2 m) c b) c).arrAt 5 cfg2.N := by
  have e : (fun (c : Dev nD) (b : Ref sig .tc) => Gen.V7 m (outs half0 half1 half2 m) c b) = ent2 half0 half1 m :=
    funext fun c => funext fun b => congrFun (V7_outs half0 half1 half2 m c) _
  rw [e]; exact outs_v48 half0 half1 half2 m c

/-! ## The run and the frame -/

/-- From any launch memory with zero counters the program terminates; the result array ends holding the last
    boundary valuation's value, each argument array what it was launched with. -/
theorem run_main (ρ : Dev nD → PrngReg) :
    θ_run defs (onTc (τ := τ) (main (F := F))) ⟨m, fun _ => 0, ρ⟩ (fun r => ∀ c : Dev nD,
      r.2.mem ((c.tc : Thread nD τ).loc main_v49) = Gen.V9 m (outs half0 half1 half2 m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of half0 half1 half2 m ρ

/-- The frame claim: the program terminates and leaves its seven argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of half0 half1 half2 m ρ

end Cert.Kernel.Hand

end
-- ==== Proof.KI.RunData.lean ====
/-
  The data of the whole program's run: three kernel regions among stretches of host operations.

  Each region is known here only through its HALF: proof data stated at the buffer contents the region is
  entered from, the fact that the data read their arrays off those contents, the body obligation at every
  grid point, and the two entailments that carry the region's invariant in from and back out to "the core's
  scratch buffers at some contents beside the generator register".  From three such halves this module
  defines the contents each region leaves in its output array (`res0`, `res1`, `res2`), each read off the
  region's own data at the contents the earlier regions and host stretches produced; `outs`, which names them
  at the three places the boundary valuations look; the proof data of the three pipelines; and what each
  region's arrays hold when it is left.  Nothing here looks inside a region or inside a host stretch.
-/
import proofs.«173056_j36472862278098_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

/-- The TensorCore's buffer contents on every core: what a region's half is stated at. -/
abbrev Contents (F : FTy → Type) : Type :=
  (c : Dev nD) → (b : Ref sig .tc) → Buf (Elt F) ((c : Thread nD τ).loc b)

/-! ## A region's half -/

/-- What this module needs of one kernel region with configuration `cfg` over the windows `spec`: proof data at
    any entry contents `V`, reading their arrays off `V` (`rd` says where), holding every array whole, owing
    nothing and bounding the recorded waits at entry by nothing; the body obligation; the invariant entered from, and left at, the core's scratch buffers beside the
    generator register. -/
structure Half (cfg : Cfg sig Λ₀) (spec : Fin cfg.W → Pipeline.WinSpec sig cfg.grid.rank)
    (rd : (c : Dev nD) → ((b : Ref sig .tc) → Buf (Elt F) ((c : Thread nD τ).loc b)) →
      (w : Fin cfg.W) → Buf (Elt F) ((cfg.win w).arr.view.loc (c.tc : Thread nD τ))) where
  dat : Contents F → (c : Dev nD) → Dat τ (Elt F) Unit ℕ (UR sig nD τ) ℕ cfg c
  hA : ∀ V c w, (dat V c).A w = rd c (V c) w
  hq : ∀ V c w, (dat V c).q w = fullShare
  howed : ∀ V c t, (dat V c).owed t = 0
  hrec : ∀ V c, (dat V c).recorded 0 = Set.univ
  hbody : ∀ V c, BodyObligation (dat V c) (defs₀ (F := F)) Variants.none () Set.univ
  hin : ∀ V c, (Pipeline.ΦA spec c : sProp 𝕄) ⊢ (dat V c).Φ 0
  hout : ∀ V c, (dat V c).Φ (Fin.last cfg.N) ⊢ (Pipeline.ΦA spec c : sProp 𝕄)

/-- The three regions' halves: the degree kernel, the first layer, the second layer. -/
abbrev Half0 (F : FTy → Type) [FloatOps F] : Type := Half (F := F) cfg0 spec0 fun c V w => V (Pipeline.arrRef spec0 w)
abbrev Half1 (F : FTy → Type) [FloatOps F] : Type := Half (F := F) cfg1 spec1 fun c V w => V (Pipeline.arrRef spec1 w)
abbrev Half2 (F : FTy → Type) [FloatOps F] : Type := Half (F := F) cfg2 spec2 fun c V w => V (Pipeline.arrRef spec2 w)

variable (H0 : Half0 F) (H1 : Half1 F) (H2 : Half2 F)
variable (m : (ℓ : Loc nD τ sig) → Buf (Elt F) ℓ)

/-! ## What the regions leave

The boundary valuations of the program are written over an unknown family `outs`, read at three places only: what
the degree kernel leaves in its output column, what the first layer leaves in its output, what the second layer
leaves in its output.  Each of these is what the region's own data say its output array holds after the last grid
point, the data taken at the contents the region is entered from.  Those contents depend on the EARLIER regions'
results only, so the family is built in three stages, and each stage's valuations are shown to be the final ones'. -/

/-- The contents the degree kernel is entered from: the launch memory after the first host stretch. -/
abbrev ent0 : Contents F := fun c b => Gen.V1 m c b
/-- What the degree kernel leaves in its output column. -/
def res0 (c : Dev nD) : Buf (Elt F) ((c : Thread nD τ).loc main_v35) := (H0.dat (ent0 m) c).arrAt 1 cfg0.N
/-- Stage one: only the degree kernel's result is known. -/
def outsA : Gen.Outs (F := F) := fun _ r c => Function.update (Gen.V1 m c) main_v35 (res0 H0 m c) r

/-- The contents the first layer is entered from: the degree column in place, three more host stretches run. -/
abbrev ent1 : Contents F := fun c b => Gen.V5 m (outsA H0 m) c b
/-- What the first layer leaves in its output. -/
def res1 (c : Dev nD) : Buf (Elt F) ((c : Thread nD τ).loc main_v45) := (H1.dat (ent1 H0 m) c).arrAt 5 cfg1.N
/-- Stage two: the first two regions' results are known. -/
def outsB : Gen.Outs (F := F) := fun n r c =>
  if n = 2 then outsA H0 m n r c else Function.update (Gen.V5 m (outsA H0 m) c) main_v45 (res1 H0 H1 m c) r

/-- The contents the second layer is entered from: the first layer's output in place, one more host stretch run. -/
abbrev ent2 : Contents F := fun c b => Gen.V7 m (outsB H0 H1 m) c b
/-- What the second layer leaves in its output. -/
def res2 (c : Dev nD) : Buf (Elt F) ((c : Thread nD τ).loc main_v48) := (H2.dat (ent2 H0 H1 m) c).arrAt 5 cfg2.N
/-- THE CONTENTS THE REGIONS LEAVE, at the three places the boundary valuations read them. -/
def outs : Gen.Outs (F := F) := fun n r c =>
  if n = 2 then outsA H0 m n r c
  else if n = 6 then outsB H0 H1 m n r c
  else Function.update (Gen.V7 m (outsB H0 H1 m) c) main_v48 (res2 H0 H1 H2 m c) r

theorem outsA_v35 (c : Dev nD) : outsA H0 m 2 main_v35 c = res0 H0 m c := by
  unfold outsA; exact Function.update_self _ _ _
theorem outsB_v35 (c : Dev nD) : outsB H0 H1 m 2 main_v35 c = res0 H0 m c := by
  unfold outsB; rw [if_pos rfl]; exact outsA_v35 H0 m c
theorem outsB_v45 (c : Dev nD) : outsB H0 H1 m 6 main_v45 c = res1 H0 H1 m c := by
  unfold outsB; rw [if_neg (by decide)]; exact Function.update_self _ _ _
/-- The three entries of `outs` that are read. -/
theorem outs_v35 (c : Dev nD) : outs H0 H1 H2 m 2 main_v35 c = res0 H0 m c := by
  unfold outs; rw [if_pos rfl]; exact outsA_v35 H0 m c
theorem outs_v45 (c : Dev nD) : outs H0 H1 H2 m 6 main_v45 c = res1 H0 H1 m c := by
  unfold outs; rw [if_neg (by decide), if_pos rfl]; exact outsB_v45 H0 H1 m c
theorem outs_v48 (c : Dev nD) : outs H0 H1 H2 m 8 main_v48 c = res2 H0 H1 H2 m c := by
  unfold outs; rw [if_neg (by decide), if_neg (by decide)]; exact Function.update_self _ _ _

/-! ### A boundary valuation depends on the family only where it reads it -/

omit H0 H1 H2 in
theorem V2_congr (o o' : Gen.Outs (F := F)) (c : Dev nD) (h : o 2 main_v35 c = o' 2 main_v35 c) :
    Gen.V2 m o c = Gen.V2 m o' c := by
  show Function.update (Gen.V1 m c) (main_v35 : DevRef τ sig) (o 2 main_v35 c)
    = Function.update (Gen.V1 m c) (main_v35 : DevRef τ sig) (o' 2 main_v35 c)
  rw [h]
omit H0 H1 H2 in
theorem V5_congr (o o' : Gen.Outs (F := F)) (c : Dev nD) (h : o 2 main_v35 c = o' 2 main_v35 c) :
    Gen.V5 m o c = Gen.V5 m o' c :=
  congrArg (fun W => StableHlo.after Gen.hostOps1_2 (StableHlo.after Gen.hostOps1_1 (StableHlo.after Gen.hostOps1 W))) (V2_congr m o o' c h)
omit H0 H1 H2 in
theorem V6_congr (o o' : Gen.Outs (F := F)) (c : Dev nD) (h : o 2 main_v35 c = o' 2 main_v35 c)
    (h' : o 6 main_v45 c = o' 6 main_v45 c) : Gen.V6 m o c = Gen.V6 m o' c := by
  show Function.update (Gen.V5 m o c) (main_v45 : DevRef τ sig) (o 6 main_v45 c)
    = Function.update (Gen.V5 m o' c) (main_v45 : DevRef τ sig) (o' 6 main_v45 c)
  rw [h', V5_congr m o o' c h]
omit H0 H1 H2 in
theorem V7_congr (o o' : Gen.Outs (F := F)) (c : Dev nD) (h : o 2 main_v35 c = o' 2 main_v35 c)
    (h' : o 6 main_v45 c = o' 6 main_v45 c) : Gen.V7 m o c = Gen.V7 m o' c :=
  congrArg (StableHlo.after Gen.hostOps2) (V6_congr m o o' c h h')

/-- The first layer's entry contents, read off the final family. -/
theorem V5_outs (c : Dev nD) : Gen.V5 m (outs H0 H1 H2 m) c = Gen.V5 m (outsA H0 m) c :=
  V5_congr m _ _ c ((outs_v35 H0 H1 H2 m c).trans (outsA_v35 H0 m c).symm)
/-- The second layer's entry contents, read off the final family. -/
theorem V7_outs (c : Dev nD) : Gen.V7 m (outs H0 H1 H2 m) c = Gen.V7 m (outsB H0 H1 m) c :=
  V7_congr m _ _ c ((outs_v35 H0 H1 H2 m c).trans (outsB_v35 H0 H1 m c).symm)
    ((outs_v45 H0 H1 H2 m c).trans (outsB_v45 H0 H1 m c).symm)

/-! ## The proof data of the three pipelines, each at its region's entry contents -/

/-- A literal `match`, so that the pipeline chosen by a numeral reduces to the printed configuration. -/
def pdats : (p : Fin 3) → (c : Dev nD) → Dat τ (Elt F) Unit ℕ (UR sig nD τ) ℕ (Pipeline.pin (pcfgs (F := F)) Gen.adm p) c
  | ⟨0, _⟩ => fun c => H0.dat (ent0 m) c
  | ⟨1, _⟩ => fun c => H1.dat (ent1 H0 m) c
  | ⟨2, _⟩ => fun c => H2.dat (ent2 H0 H1 m) c

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 :=
  iprop((∃ r, prngReg c r) ∗ ∃ W, owes (c : Thread nD τ) (0 : CellTallies nD τ sig Unit) W)

/-! ## Small facts about proof data that owe nothing -/

omit [FloatOps F] in
/-- A core owing nothing, whatever its waits recorded, is what proof data that owe nothing and do not bound the
    recorded waits ask for at entry. -/
theorem owesAt_first {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hr]
  iintro ⟨%W, HO⟩; iexists W; isplitr; · ipureintro; exact fun _ _ => Or.inl trivial
  iexact HO

omit [FloatOps F] in
/-- And at exit such data hand back a core owing nothing. -/
theorem owes_of_owesAt_last {cfg : Cfg sig Λ₀} {c : Dev nD} (dat : Dat τ (Elt F) Unit ℕ (UR sig nD τ) ℕ cfg c)
    (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩; iexists W; iexact HO

/-! ## Each region's arrays at its exit

A region's input arrays are never written, so after the last grid point they hold what the region was entered
from, which the exit valuation keeps; its output array holds the region's result, which is where the exit
valuation differs from the entry one. -/

theorem hF0 (c : Dev nD) (w : Fin cfg0.W) :
    (H0.dat (ent0 m) c).arrAt w cfg0.N = Gen.V2 m (outs H0 H1 H2 m) c (Pipeline.arrRef spec0 w) := by
  match w with
  | ⟨0, _⟩ =>
    exact ((H0.dat (ent0 m) c).arrAt_in 0 rfl _).trans ((H0.hA (ent0 m) c 0).trans (Gen.V2_of m _ c main_v34 (by decide)).symm)
  | ⟨1, _⟩ =>
    refine Eq.trans ?_ ((Function.update_self (main_v35 : DevRef τ sig) _ (Gen.V1 m c)).trans (outs_v35 H0 H1 H2 m c)).symm
    rfl

theorem hrest0 (c : Dev nD) (b : Ref sig .tc) (hb : b ∉ Finset.univ.image (Pipeline.arrRef spec0)) :
    Gen.V2 m (outs H0 H1 H2 m) c b = Gen.V1 m c b :=
  Gen.V2_of m _ c b fun hmem => hb (by
    rw [List.mem_singleton.mp hmem]; exact Finset.mem_image.mpr ⟨1, Finset.mem_univ _, rfl⟩)

theorem hF1 (c : Dev nD) (w : Fin cfg1.W) :
    (H1.dat (ent1 H0 m) c).arrAt w cfg1.N = Gen.V6 m (outs H0 H1 H2 m) c (Pipeline.arrRef spec1 w) := by
  have inp : ∀ (w : Fin cfg1.W), (cfg1.win w).isOut = false → Pipeline.arrRef spec1 w ∉ ([main_v45] : List (Ref sig .tc)) →
      (H1.dat (ent1 H0 m) c).arrAt w cfg1.N = Gen.V6 m (outs H0 H1 H2 m) c (Pipeline.arrRef spec1 w) :=
    fun w hi hne => ((H1.dat (ent1 H0 m) c).arrAt_in w hi _).trans ((H1.hA (ent1 H0 m) c w).trans
      ((congrFun (V5_outs H0 H1 H2 m c) _).symm.trans (Gen.V6_of m _ c _ hne).symm))
  match w with
  | ⟨0, _⟩ => exact inp 0 rfl (by decide)
  | ⟨1, _⟩ => exact inp 1 rfl (by decide)
  | ⟨2, _⟩ => exact inp 2 rfl (by decide)
  | ⟨3, _⟩ => exact inp 3 rfl (by decide)
  | ⟨4, _⟩ => exact inp 4 rfl (by decide)
  | ⟨5, _⟩ =>
    refine Eq.trans ?_ ((Function.update_self (main_v45 : DevRef τ sig) _ (Gen.V5 m (outs H0 H1 H2 m) c)).trans (outs_v45 H0 H1 H2 m c)).symm
    rfl

theorem hrest1 (c : Dev nD) (b : Ref sig .tc) (hb : b ∉ Finset.univ.image (Pipeline.arrRef spec1)) :
    Gen.V6 m (outs H0 H1 H2 m) c b = ent1 H0 m c b :=
  (Gen.V6_of m _ c b fun hmem => hb (by
    rw [List.mem_singleton.mp hmem]; exact Finset.mem_image.mpr ⟨5, Finset.mem_univ _, rfl⟩)).trans
    (congrFun (V5_outs H0 H1 H2 m c) _)

theorem hF2 (c : Dev nD) (w : Fin cfg2.W) :
    (H2.dat (ent2 H0 H1 m) c).arrAt w cfg2.N = Gen.V8 m (outs H0 H1 H2 m) c (Pipeline.arrRef spec2 w) := by
  have inp : ∀ (w : Fin cfg2.W), (cfg2.win w).isOut = false → Pipeline.arrRef spec2 w ∉ ([main_v48] : List (Ref sig .tc)) →
      (H2.dat (ent2 H0 H1 m) c).arrAt w cfg2.N = Gen.V8 m (outs H0 H1 H2 m) c (Pipeline.arrRef spec2 w) :=
    fun w hi hne => ((H2.dat (ent2 H0 H1 m) c).arrAt_in w hi _).trans ((H2.hA (ent2 H0 H1 m) c w).trans
      ((congrFun (V7_outs H0 H1 H2 m c) _).symm.trans (Gen.V8_of m _ c _ hne).symm))
  match w with
  | ⟨0, _⟩ => exact inp 0 rfl (by decide)
  | ⟨1, _⟩ => exact inp 1 rfl (by decide)
  | ⟨2, _⟩ => exact inp 2 rfl (by decide)
  | ⟨3, _⟩ => exact inp 3 rfl (by decide)
  | ⟨4, _⟩ => exact inp 4 rfl (by decide)
  | ⟨5, _⟩ =>
    refine Eq.trans ?_ ((Function.update_self (main_v48 : DevRef τ sig) _ (Gen.V7 m (outs H0 H1 H2 m) c)).trans (outs_v48 H0 H1 H2 m c)).symm
    rfl

theorem hrest2 (c : Dev nD) (b : Ref sig .tc) (hb : b ∉ Finset.univ.image (Pipeline.arrRef spec2)) :
    Gen.V8 m (outs H0 H1 H2 m) c b = ent2 H0 H1 m c b :=
  (Gen.V8_of m _ c b fun hmem => hb (by
    rw [List.mem_singleton.mp hmem]; exact Finset.mem_image.mpr ⟨5, Finset.mem_univ _, rfl⟩)).trans
    (congrFun (V7_outs H0 H1 H2 m c) _)

end Cert.KernelIdeal.Hand

end
-- ==== Proof.KI.Run.lean ====
/-
  The whole program as a run: three kernel regions among stretches of host operations.

  From the halves of the three regions (proof data at the region's entry contents, the body obligation, the
  invariant's way in and out) this module makes one segment record per region over the thread state "every
  unscoped buffer at the boundary's valuation, the generator register at some state, nothing owed", lines them
  up with the host stretches, and runs the program from any launch memory: it terminates, the seven arguments end
  as launched, and the result array holds the last boundary valuation's value (`run_of`).  The frame claim is a
  corollary (`frame_of`).  Nothing here looks inside a region or inside a host stretch: the result is named, not
  computed.
-/
import proofs.«173056_j36472862278098_1_alg».proof.Proof.KI.RunData

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (H0 : Half0 F) (H1 : Half1 F) (H2 : Half2 F)
variable (m : (ℓ : Loc nD τ sig) → Buf (Elt F) ℓ)

/-! ## The regions as items of the program -/

omit [FloatOps F] in
/-- The generator register at some state and the scoped buffers no window stages are what a region's invariant is
    entered from (whatever else is offered beside them is not needed). -/
theorem inv_in {gr W : Nat} (win : Fin W → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp

omit [FloatOps F] in
/-- And they are what it gives back. -/
theorem inv_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

-- the library's region rules are stated over the pipeline chosen by an index; they meet the printed configuration
-- only when unification may unfold plain definitions inside a metavariable's type
set_option backward.isDefEq.respectTransparency.types false in
/-- THE DEGREE KERNEL as an item of the program: entered with every unscoped buffer at the valuation before it, left with
    them at the valuation after it.  Its arrays are split out of the unscoped buffers at entry and put back at exit,
    the output array at the region's result; the generator register and the scratch buffers go into the region's
    invariant and come back; nothing is owed, and the kernel has no semaphore of its own. -/
def reg0 : RegionSeg (pcfgs (F := F)) Gen.adm (pdats H0 H1 H2 m) () defs₀ Variants.none L lv 0 where
  win := Gen.launch0.win.to₀
  block_pos := Gen.launch0.block_pos
  stage_whole := Gen.launch0.stage_whole
  K := PEmpty
  osem k := k.elim
  ho := Pipeline.OwnSemFacts.none _
  hbody c := (H0.hbody (ent0 m) c).loose
  hwaits := Pipeline.hwaits_of_owed_zero _ _ _ _ L lv 0 fun c t => H0.howed (ent0 m) c t
  pre c := iprop(StableHlo.held (c : Thread nD τ) (Pipeline.ucRefs τ sig) (Gen.V1 m c) ∗ R c)
  post c := iprop(StableHlo.held (c : Thread nD τ) (Pipeline.ucRefs τ sig) (Gen.V2 m (outs H0 H1 H2 m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats H0 H1 H2 m) Gen.launch0.win Gen.launch0.arr_whole c
      ((pdats H0 H1 H2 m 0 c).share_full fun w => H0.hq (ent0 m) c w) (ent0 m c) fun w => H0.hA (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pdats H0 H1 H2 m 0 c) (H0.howed (ent0 m) c 0) (H0.hrec (ent0 m) c)); iexact HO
    isplitl [Hp]; · iexact Hp
    iexact Hrest
  hin c := (inv_in spec0 c _).trans (H0.hin (ent0 m) c)
  hout c := by
    rw [Pipeline.ownSems0_none]
    exact (H0.hout (ent0 m) c).trans (inv_out spec0 c)
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats H0 H1 H2 m) ((pdats H0 H1 H2 m 0 c).share_full fun w => H0.hq (ent0 m) c w)
      (ent0 m c) (fun b => Gen.V2 m (outs H0 H1 H2 m) c b) ((pdats H0 H1 H2 m 0 c).arrAt · cfg0.N) (hF0 H0 H1 H2 m c) (hrest0 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats H0 H1 H2 m 0 c) (H0.howed (ent0 m) c _)); iexact HO

-- the library's region rules are stated over the pipeline chosen by an index; they meet the printed configuration
-- only when unification may unfold plain definitions inside a metavariable's type
set_option backward.isDefEq.respectTransparency.types false in
/-- THE FIRST LAYER as an item of the program: entered with every unscoped buffer at the valuation before it, left with
    them at the valuation after it.  Its arrays are split out of the unscoped buffers at entry and put back at exit,
    the output array at the region's result; the generator register and the scratch buffers go into the region's
    invariant and come back; nothing is owed, and the kernel has no semaphore of its own. -/
def reg1 : RegionSeg (pcfgs (F := F)) Gen.adm (pdats H0 H1 H2 m) () defs₀ Variants.none L lv 1 where
  win := Gen.launch1.win.to₀
  block_pos := Gen.launch1.block_pos
  stage_whole := Gen.launch1.stage_whole
  K := PEmpty
  osem k := k.elim
  ho := Pipeline.OwnSemFacts.none _
  hbody c := (H1.hbody (ent1 H0 m) c).loose
  hwaits := Pipeline.hwaits_of_owed_zero _ _ _ _ L lv 1 fun c t => H1.howed (ent1 H0 m) c t
  pre c := iprop(StableHlo.held (c : Thread nD τ) (Pipeline.ucRefs τ sig) (Gen.V5 m (outs H0 H1 H2 m) c) ∗ R c)
  post c := iprop(StableHlo.held (c : Thread nD τ) (Pipeline.ucRefs τ sig) (Gen.V6 m (outs H0 H1 H2 m) c) ∗ R c)
  X c := iprop(∃ r, prngReg c r)
  Y c := iprop(∃ r, prngReg c r)
  Z c := Pipeline.unscopedRest (Ix := Unit) (Name := ℕ) (U := UR sig nD τ) (Lvl := ℕ) spec1 c (ent1 H0 m c)
  hentry c := by
    rw [Pipeline.ownSems0_none]; rw [V5_outs H0 H1 H2 m c]
    have hsplit := Pipeline.arrays_of_unscopedBufs (p := 1) (pcfgs (F := F)) Gen.adm (pdats H0 H1 H2 m) Gen.launch1.win Gen.launch1.arr_whole c
      ((pdats H0 H1 H2 m 1 c).share_full fun w => H1.hq (ent1 H0 m) c w) (ent1 H0 m c) fun w => H1.hA (ent1 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pdats H0 H1 H2 m 1 c) (H1.howed (ent1 H0 m) c 0) (H1.hrec (ent1 H0 m) c)); iexact HO
    isplitl [Hp]; · iexact Hp
    iexact Hrest
  hin c := (inv_in spec1 c _).trans (H1.hin (ent1 H0 m) c)
  hout c := by
    rw [Pipeline.ownSems0_none]
    exact (H1.hout (ent1 H0 m) c).trans (inv_out spec1 c)
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats H0 H1 H2 m) ((pdats H0 H1 H2 m 1 c).share_full fun w => H1.hq (ent1 H0 m) c w)
      (ent1 H0 m c) (fun b => Gen.V6 m (outs H0 H1 H2 m) c b) ((pdats H0 H1 H2 m 1 c).arrAt · cfg1.N) (hF1 H0 H1 H2 m c) (hrest1 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats H0 H1 H2 m 1 c) (H1.howed (ent1 H0 m) c _)); iexact HO

-- the library's region rules are stated over the pipeline chosen by an index; they meet the printed configuration
-- only when unification may unfold plain definitions inside a metavariable's type
set_option backward.isDefEq.respectTransparency.types false in
/-- THE SECOND LAYER as an item of the program: entered with every unscoped buffer at the valuation before it, left with
    them at the valuation after it.  Its arrays are split out of the unscoped buffers at entry and put back at exit,
    the output array at the region's result; the generator register and the scratch buffers go into the region's
    invariant and come back; nothing is owed, and the kernel has no semaphore of its own. -/
def reg2 : RegionSeg (pcfgs (F := F)) Gen.adm (pdats H0 H1 H2 m) () defs₀ Variants.none L lv 2 where
  win := Gen.launch2.win.to₀
  block_pos := Gen.launch2.block_pos
  stage_whole := Gen.launch2.stage_whole
  K := PEmpty
  osem k := k.elim
  ho := Pipeline.OwnSemFacts.none _
  hbody c := (H2.hbody (ent2 H0 H1 m) c).loose
  hwaits := Pipeline.hwaits_of_owed_zero _ _ _ _ L lv 2 fun c t => H2.howed (ent2 H0 H1 m) c t
  pre c := iprop(StableHlo.held (c : Thread nD τ) (Pipeline.ucRefs τ sig) (Gen.V7 m (outs H0 H1 H2 m) c) ∗ R c)
  post c := iprop(StableHlo.held (c : Thread nD τ) (Pipeline.ucRefs τ sig) (Gen.V8 m (outs H0 H1 H2 m) c) ∗ R c)
  X c := iprop(∃ r, prngReg c r)
  Y c := iprop(∃ r, prngReg c r)
  Z c := Pipeline.unscopedRest (Ix := Unit) (Name := ℕ) (U := UR sig nD τ) (Lvl := ℕ) spec2 c (ent2 H0 H1 m c)
  hentry c := by
    rw [Pipeline.ownSems0_none]; rw [V7_outs H0 H1 H2 m c]
    have hsplit := Pipeline.arrays_of_unscopedBufs (p := 2) (pcfgs (F := F)) Gen.adm (pdats H0 H1 H2 m) Gen.launch2.win Gen.launch2.arr_whole c
      ((pdats H0 H1 H2 m 2 c).share_full fun w => H2.hq (ent2 H0 H1 m) c w) (ent2 H0 H1 m c) fun w => H2.hA (ent2 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pdats H0 H1 H2 m 2 c) (H2.howed (ent2 H0 H1 m) c 0) (H2.hrec (ent2 H0 H1 m) c)); iexact HO
    isplitl [Hp]; · iexact Hp
    iexact Hrest
  hin c := (inv_in spec2 c _).trans (H2.hin (ent2 H0 H1 m) c)
  hout c := by
    rw [Pipeline.ownSems0_none]
    exact (H2.hout (ent2 H0 H1 m) c).trans (inv_out spec2 c)
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c (pdats H0 H1 H2 m) ((pdats H0 H1 H2 m 2 c).share_full fun w => H2.hq (ent2 H0 H1 m) c w)
      (ent2 H0 H1 m c) (fun b => Gen.V8 m (outs H0 H1 H2 m) c b) ((pdats H0 H1 H2 m 2 c).arrAt · cfg2.N) (hF2 H0 H1 H2 m c) (hrest2 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt_last (pdats H0 H1 H2 m 2 c) (H2.howed (ent2 H0 H1 m) c _)); iexact HO

/-! ## The program as its items, and the run -/

/-- Between any two items the same rest rides beside the buffers. -/
abbrev E : Fin 4 → Dev nD → sProp 𝕄 := fun _ c => R c

/-- The program's nine items on a core: six host stretches and the three regions, in order. -/
abbrev items (c : Dev nD) : List (Seg (pcfgs (F := F)) Gen.adm (pdats H0 H1 H2 m) () defs₀ Variants.none L lv) :=
  Gen.segs m (outs H0 H1 H2 m) Variants.none L lv E () (pdats H0 H1 H2 m) (reg0 H0 H1 H2 m) (reg1 H0 H1 H2 m) (reg2 H0 H1 H2 m) c

-- the launch rule's implicit arguments are found by unifying its conclusion with this one, which takes unfolding
-- plain definitions in a metavariable's type
set_option backward.isDefEq.respectTransparency.types false in
/-- THE RUN.  From any launch memory `m` with every counter at zero, every weakly fair execution of the program on
    the TensorCores terminates, and in every final memory the result array holds what the last boundary valuation
    says — the last host stretch applied to the contents the second layer leaves — while each of the seven argument
    arrays holds what it was launched with.

    The launch deals each core its unscoped buffers at the launch memory, its generator register and an empty debt;
    the items carry that state from boundary to boundary (each host stretch by running its operations over the
    valuation, each region by its record above); at the end the valuation is read against the final memory, at the
    result array and at each argument. -/
theorem run_of (ρ : Dev nD → PrngReg) :
    θ_run defs (onTc (τ := τ) (main (F := F))) ⟨m, fun _ => 0, ρ⟩ (fun r => ∀ c : Dev nD,
      r.2.mem ((c.tc : Thread nD τ).loc main_v49) = Gen.V9 m (outs H0 H1 H2 m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats H0 H1 H2 m) () Gen.cellOf_inj emb₁ defs₀ Variants.none L lv m ρ main
    (items H0 H1 H2 m)
    (fun c Q => by
      rewrite [Gen.main_chain c, Seg.run_eq_chain,
        show (items H0 H1 H2 m c).map Seg.prog = [
          StableHlo.seq Gen.hostOps0,
          Prog.lift (.customCall (Pipeline.entry 0) ()),
          StableHlo.seq Gen.hostOps1,
          StableHlo.seq Gen.hostOps1_1,
          StableHlo.seq Gen.hostOps1_2,
          Prog.lift (.customCall (Pipeline.entry 1) ()),
          StableHlo.seq Gen.hostOps2,
          Prog.lift (.customCall (Pipeline.entry 2) ()),
          StableHlo.seq Gen.hostOps3 ] from rfl]
      exact .rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V9 m (outs H0 H1 H2 m) c))
    (hch := fun c => ⟨.rfl, .rfl, .rfl, .rfl, .rfl, .rfl, .rfl, .rfl, .rfl, sep_mono .rfl (by iintro ⟨-, HO⟩; iexact HO)⟩)
    (hinit := ?_)
    (QY := fun c s => s.mem ((c.tc : Thread nD τ).loc main_v49) = Gen.V9 m (outs H0 H1 H2 m) c main_v49
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch: each core's unscoped buffers are held at the launch valuation, its register is at some state, and
    -- it owes nothing
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V9 m (outs H0 H1 H2 m) c) s') $$ [Hh HSI]
    · isplitl [Hh] <;> iassumption
    icases Hr with ⟨%h, HSI⟩
    imodintro
    isplitr
    · ipureintro
      exact ⟨h (Proc.devRef .tc main_v49) (Finset.mem_filter.mpr ⟨StableHlo.devRef_mem_tcRefs main_v49, by decide⟩),
        (h (Proc.devRef .tc main_arg0) (Finset.mem_filter.mpr ⟨StableHlo.devRef_mem_tcRefs main_arg0, by decide⟩)).trans (Gen.V9_main_arg0 m (outs H0 H1 H2 m) c),
        (h (Proc.devRef .tc main_arg1) (Finset.mem_filter.mpr ⟨StableHlo.devRef_mem_tcRefs main_arg1, by decide⟩)).trans (Gen.V9_main_arg1 m (outs H0 H1 H2 m) c),
        (h (Proc.devRef .tc main_arg2) (Finset.mem_filter.mpr ⟨StableHlo.devRef_mem_tcRefs main_arg2, by decide⟩)).trans (Gen.V9_main_arg2 m (outs H0 H1 H2 m) c),
        (h (Proc.devRef .tc main_arg3) (Finset.mem_filter.mpr ⟨StableHlo.devRef_mem_tcRefs main_arg3, by decide⟩)).trans (Gen.V9_main_arg3 m (outs H0 H1 H2 m) c),
        (h (Proc.devRef .tc main_arg4) (Finset.mem_filter.mpr ⟨StableHlo.devRef_mem_tcRefs main_arg4, by decide⟩)).trans (Gen.V9_main_arg4 m (outs H0 H1 H2 m) c),
        (h (Proc.devRef .tc main_arg5) (Finset.mem_filter.mpr ⟨StableHlo.devRef_mem_tcRefs main_arg5, by decide⟩)).trans (Gen.V9_main_arg5 m (outs H0 H1 H2 m) c),
        (h (Proc.devRef .tc main_arg6) (Finset.mem_filter.mpr ⟨StableHlo.devRef_mem_tcRefs main_arg6, by decide⟩)).trans (Gen.V9_main_arg6 m (outs H0 H1 H2 m) c)⟩
    · iexact HSI

include H0 H1 H2 in
/-- THE FRAME: the program terminates from any launch memory with zero counters and leaves its seven argument
    arrays as launched — the run above with the statement about the result array dropped. -/
theorem frame_of (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_of H0 H1 H2 m ρ)

end Cert.KernelIdeal.Hand

end
-- ==== Proof.KI.R0Runs.lean ====
/-
  The degree kernel (the first of the three calls): what its three control cases share.

  The call walks a grid of 8 row tiles by 4 column tiles.  At a point (i, k) its body adds the row sums of
  the adjacency block (i, k) into an accumulator it keeps between points; it clears the accumulator first
  when k = 0, and copies it into the output block when k = 3.  So a point is in one of three cases:
  A (k = 0: clear, then add), B (k = 1 or 2: add), C (k = 3: add, then copy out).  This module names the two
  tests the body makes on k and decides over the 32 points where each holds, records where the output block
  is left alone and where it is written back, names the memory the body is called with, spells the region's
  invariant with the accumulator split off the rest, and shows that the input's staging buffer holds the
  input block at every point.
-/
import proofs.«173056_j36472862278098_1_alg».proof.Proof.Gen.KernelIdeal.Launch
import proofs.«173056_j36472862278098_1_alg».proof.Proof.Gen.KernelIdeal.Skeleton
import proofs.«173056_j36472862278098_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- The contents of the TensorCore's buffers when the call is entered: everything below is stated at it.
variable (V : (c : Dev nD) → (b : Ref sig .tc) → Buf (Elt F) ((c : Thread nD τ).loc b))

/-! ## The two tests on the column-tile coordinate -/

/-- The body's first test: is the column tile the first one (`k = 0`), as the body computes it. -/
abbrev cond0_0 (i : grid0.Coords) : Prop :=
  (Scalar.cmpi .ne (Scalar.extui (Scalar.cmpi .eq (BitVec.ofNat 32 (i 1).val) 0#32)) 0#32) = 1#1

/-- Over the 32 points in row-major order the first test holds exactly at the multiples of four. -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second test: is the column tile the last one (`k = 3`). -/
abbrev cond0_1 (i : grid0.Coords) : Prop := k0_cond2 i = 1#1

/-- It holds exactly at the points that leave remainder three. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output block is left alone -/

/-- The input window is stored into nowhere, and is never marked as left alone. -/
theorem liveAt0_0 : ∀ t : Fin cfg0.N, cfg0.idle 0 (grid0.coords t) = false := by decide +kernel

/-- Case A leaves the output block alone, -/
theorem idleAt0_1_A : ∀ t : Fin cfg0.N, cond0_0 (grid0.coords t) → ¬cond0_1 (grid0.coords t) →
    cfg0.idle 1 (grid0.coords t) = true := by decide +kernel
/-- and the output block is not written back there. -/
theorem noFlush0_1_A : ∀ t : Fin cfg0.N, cond0_0 (grid0.coords t) → ¬cond0_1 (grid0.coords t) →
    (cfg0.win 1).flush t = false := by decide +kernel
/-- Case B leaves the output block alone, -/
theorem idleAt0_1_B : ∀ t : Fin cfg0.N, ¬cond0_0 (grid0.coords t) → ¬cond0_1 (grid0.coords t) →
    cfg0.idle 1 (grid0.coords t) = true := by decide +kernel
/-- and the output block is not written back there. -/
theorem noFlush0_1_B : ∀ t : Fin cfg0.N, ¬cond0_0 (grid0.coords t) → ¬cond0_1 (grid0.coords t) →
    (cfg0.win 1).flush t = false := by decide +kernel
/-- Case C stores the output block. -/
theorem liveAt0_1_C : ∀ t : Fin cfg0.N, ¬cond0_0 (grid0.coords t) → cond0_1 (grid0.coords t) →
    cfg0.idle 1 (grid0.coords t) = false := by decide +kernel

/-! ## The memory the body is called with -/

/-- One staging buffer of the output window as a view: what the output block holds is stated through it. -/
abbrev VO0_1 : View sig .tc .vmem S1024x1 .f32 := (Memref.whole cc0_stg1_0 : Memref sig .tc .vmem S1024x1 .f32).view
/-- The staging memory of each window at point `t`, as the body is handed it, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole buffer of the call's own, handed to the body beside the windows. -/
abbrev scM0_0 : Memref sig .tc .vmem S1024x1 .f32 := Memref.whole cc0_scratch0
/-- The accumulator as a view: what it holds between points is stated through it. -/
abbrev VS0_0 : View sig .tc .vmem S1024x1 .f32 := scM0_0.view

/-- The region's invariant with the accumulator split off: the accumulator whole at some contents, the other
    buffers of limited lifetime unopened, and the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

/-! ## The windows' blocks -/

/-- Window `w`'s block at point `t`, read off its array as the call finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input's staging buffer holds the input block at every point, for any proof data whose input array is
    the entry contents and whose body leaves the block in place: the block is fetched afresh at every point. -/
theorem before0_0_of {c : Dev nD} (dat : Dat τ (Elt F) Unit ℕ (UR sig nD τ) ℕ cfg0 c)
    (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

end Cert.KernelIdeal.Hand

end
-- ==== Proof.KI.R0RunA.lean ====
/-
  The degree kernel's body run through in case A: the first column tile (k = 0).  The body clears the
  accumulator, reads it back, reads the adjacency block, and stores the accumulator again with the block's row
  sums added.  The output block is not touched.  The run is carried out symbolically; what the accumulator ends
  with is recorded as the list of stores made into it (latest first), which the run itself produces.
-/
import proofs.«173056_j36472862278098_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- Case A.  On whole buffers — the input's at contents `x0`, the output's at contents `xi1` (handed back
    untouched), the accumulator at anything — the body runs to any continuation that accepts the input's and the
    output's buffers as they were and the accumulator with the stores `LS0` made into it.  The stores are the
    witness the run finds. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0RunB.lean ====
/-
  The degree kernel's body run through in case B: a middle column tile (k = 1 or 2).  The body reads the
  accumulator, reads the adjacency block, and stores the accumulator with the block's row sums added.  The
  output block is not touched.  The run is carried out symbolically; what the accumulator ends with is recorded
  as the list of stores made into it, which the run itself produces.
-/
import proofs.«173056_j36472862278098_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- Case B.  On whole buffers — the input's at contents `x0`, the output's at contents `xi1` (handed back
    untouched), the accumulator at the contents `xs0` the point before left — the body runs to any continuation
    that accepts the input's and the output's buffers as they were and the accumulator with the stores `LS0` made
    into it.  The stores are the witness the run finds. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0RunC.lean ====
/-
  The degree kernel's body run through in case C: the last column tile (k = 3).  The body reads the
  accumulator, reads the adjacency block, stores the accumulator with the block's row sums added, reads it back
  and stores it into the output block.  The run is carried out symbolically; what the accumulator and the output
  block end with is recorded as the lists of stores made into them, which the run itself produces.
-/
import proofs.«173056_j36472862278098_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- Case C.  On whole buffers — the input's at contents `x0`, the output's at anything, the accumulator at the
    contents `xs0` the point before left — the body runs to any continuation that accepts the input's buffer as
    it was, the output's with the stores `L1` made into it and the accumulator with the stores `LS0` made into it.
    Both lists are the witness the run finds. -/
noncomputable def kernelRun0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.R0Frame.lean ====
/-
  The degree kernel (the first of the three calls): its frame half, at any float instance.

  From the three case runs this module reads off what the accumulator and the output block hold after each of
  the 32 points, by recursion on the point: a point of case A starts from nothing, a point of case B or C starts
  from what the point before left in the accumulator.  The region's invariant tracks the accumulator's contents
  from one point to the next.  With that the body meets its obligation at every point: the point's remainder
  modulo four selects the case, the case's run applies, and the accumulator is handed on at its new contents.
  Before the first point and after the last one the invariant is the plain one (the accumulator at anything).
-/
import proofs.«173056_j36472862278098_1_alg».proof.Proof.KI.R0RunA
import proofs.«173056_j36472862278098_1_alg».proof.Proof.KI.R0RunB
import proofs.«173056_j36472862278098_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- The contents of the TensorCore's buffers when the call is entered.
variable (V : (c : Dev nD) → (b : Ref sig .tc) → Buf (Elt F) ((c : Thread nD τ).loc b))

/-! ## What each case leaves -/

/-- Case A makes no store into the output block: this placeholder is consulted by nothing, since at these points
    the block is neither written back nor read at the next point. -/
def out0_A_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VO0_1.read (Elt F) (VO0_1.writes (Elt F) VO0_1.junk (kernelRun0_A c i arg2 harg2 arg3 harg3 arg4 harg4 hc0 hc1 x0).1)

/-- Case A's stores into the accumulator cover it: each is a store of the whole block. -/
theorem scover0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

/-- What case A leaves in the accumulator: its stores read back. -/
def sout0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VS0_0.read (Elt F) (VS0_0.writes (Elt F) VS0_0.junk (kernelRun0_A c i arg2 harg2 arg3 harg3 arg4 harg4 hc0 hc1 x0).2.1)

/-- Case B makes no store into the output block either: a placeholder again. -/
def out0_B_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)

/-- Case B's one store into the accumulator covers it. -/
theorem scover0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

/-- What case B leaves in the accumulator. -/
def sout0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

/-- Case C's one store into the output block covers it. -/
theorem cover0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- What case C leaves in the output block. -/
def out0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

/-- Case C's one store into the accumulator covers it. -/
theorem scover0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- What case C leaves in the accumulator. -/
def sout0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: the pair (output block's staging buffer, accumulator).  The remainder of `n`
    modulo four selects the case; the case is run at the point's own memory and input block, and in cases B and C
    from what position `n - 1` left in the accumulator.  No point has remainder 0 and 3 at once. -/
def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- At a point of case A. -/
theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t),
      sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- At a point of case B: over what the point before left. -/
theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2,
      sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
      sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant, with the accumulator's contents tracked -/

/-- The buffers of limited lifetime other than this call's accumulator and staging buffers: never opened here. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: before the first point the plain one (the accumulator at anything);
    afterwards the accumulator at what the point before left in it, the other buffers unopened, the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2)) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ rest0 c) ∗ (∃ r, prngReg c r)) := by
  cases n with
  | zero => exact absurd rfl hz
  | succ n => rfl

/-! ## The proof data -/

/-- The call's proof data on core `c`: the arrays as the call finds them; after the body at point `t` the
    input's buffer at its block and the output's at `outsAt0`'s first component; the tracked invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's staging buffer holds the input block at every point. -/
theorem before0_0 (c : Dev nD) (t : Fin cfg0.N) (d) : (dat0 V c).before 0 t d = iblk0 V c 0 t :=
  before0_0_of V (dat0 V c) (A_eq0 V c 0) (after0_0 V c) t d

/-! ## The body's obligation at a point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point.  The input's buffer holds its block; the point's remainder modulo four says which
    case it is in, and that case's run applies.  The invariant hands the body the accumulator at what the point
    before left (at anything, at the first point) and takes it back at this point's contents; the other buffers,
    the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the plain one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.R1Runs.lean ====
/-
  The first propagation layer's kernel, region 1 of the program: what its three control cases share.

  The kernel runs on a grid of 8 row tiles by 4 column tiles.  At a point `(i, k)` it multiplies the
  `1024 × 2048` block `(i, k)` of the adjacency matrix, scaled by a column of row factors and a row of
  column factors, with the `2048 × 256` block `k` of the features, and adds the product to an accumulator
  it keeps in a scratch buffer between points.  Two conditionals on `k` steer it: at `k = 0` the
  accumulator is first set to zero; at `k = 3` the accumulator plus the bias row, clamped at zero from
  below, is stored into the output block.  Elsewhere the output block is neither stored nor written back.

  Here: the two conditions in closed form over the 32 points, where the output window is idle and where it
  is live, names for the staging memrefs and the scratch, the region's invariant with the scratch split
  off the other scoped buffers, each window's block read off the entry contents, and the fact that every
  input's staging buffer holds its block at every point.
-/
import proofs.«173056_j36472862278098_1_alg».proof.Proof.Gen.KernelIdeal.Launch
import proofs.«173056_j36472862278098_1_alg».proof.Proof.Gen.KernelIdeal.Skeleton
import proofs.«173056_j36472862278098_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The two conditionals -/

/-- "This is the first column tile" (`k = 0`), as the body computes it from the point's coordinates. -/
abbrev cond1_0 (i : grid1.Coords) : Prop := (Scalar.cmpi .ne (Scalar.extui (Scalar.cmpi .eq (BitVec.ofNat 32 (i 1).val) 0#32)) 0#32) = 1#1
/-- Counting the points row tile by row tile, it holds at the points that are multiples of 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column tile" (`k = 3`). -/
abbrev cond1_1 (i : grid1.Coords) : Prop := k1_cond2 i = 1#1
/-- It holds at the points that are 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- At a first column tile the output block is not stored: the window is idle there, -/
theorem idleAt1_5_A : ∀ t : Fin cfg1.N, cond1_0 (grid1.coords t) → ¬cond1_1 (grid1.coords t) → cfg1.idle 5 (grid1.coords t) = true := by decide +kernel
/-- and its buffer is not written back. -/
theorem noFlush1_5_A : ∀ t : Fin cfg1.N, cond1_0 (grid1.coords t) → ¬cond1_1 (grid1.coords t) → (cfg1.win 5).flush t = false := by decide +kernel
/-- The same at a middle column tile. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last column tile the output block is stored: the window is live. -/
theorem liveAt1_5_C : ∀ t : Fin cfg1.N, ¬cond1_0 (grid1.coords t) → cond1_1 (grid1.coords t) → cfg1.idle 5 (grid1.coords t) = false := by decide +kernel

/-! ## The memrefs the body is called with -/

/-- Each window's current staging memref at point `t`, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)

/-- The accumulator: the kernel's own scratch buffer, whole. -/
abbrev scM1 : Memref sig .tc .vmem S1024x256 .f32 := Memref.whole cc1_scratch0
/-- The accumulator as a view: what it holds is stated through it. -/
abbrev VS1 : View sig .tc .vmem S1024x256 .f32 := (scM1).view
/-- One staging buffer of the output window, through which the output block's contents are stated. -/
abbrev VO1 : View sig .tc .vmem S1024x256 .f32 := (Memref.whole cc1_stg5_0 : Memref sig .tc .vmem S1024x256 .f32).view

/-! ## The invariant, with the accumulator split off -/

/-- What the region is handed besides its windows: the accumulator at some contents, every other scoped
    buffer that is no staging buffer of this region (never opened), and the generator register. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point of the grid, whether the pipeline
    fetched it there or kept it from the point before (its block index did not move), for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point of the grid, whether the pipeline
    fetched it there or kept it from the point before (its block index did not move), for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point of the grid, whether the pipeline
    fetched it there or kept it from the point before (its block index did not move), for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point of the grid, whether the pipeline
    fetched it there or kept it from the point before (its block index did not move), for any proof data
    whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point of the grid, whether the pipeline
    fetched it there or kept it from the point before (its block index did not move), for any proof data
    whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.KI.R1RunA.lean ====
/-
  The first layer's kernel at a FIRST column tile (`k = 0`): the accumulator is set to zero, then the
  scaled block product is added to it; the output block is left alone.  The body's run on any whole
  staging memrefs, with the stores the accumulator ends with as the witness the run finds.
-/
import proofs.«173056_j36472862278098_1_alg».proof.Proof.KI.R1Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs — the five inputs at their contents, the accumulator at anything (it is overwritten before it is used), the output block's buffer at contents handed back untouched —
    runs to a continuation that is given the inputs as they were, the output block's buffer as it was
    and the accumulator with the pieces `LS` written (last store first).  The conditionals are decided by the case's hypotheses. -/
noncomputable def kernelRun1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) :
    Σ' (LO : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KI.R1RunB.lean ====
/-
  The first layer's kernel at a MIDDLE column tile (`k = 1, 2`): the scaled block product is added to the
  accumulator; the output block is left alone.  The body's run on any whole staging memrefs, with the
  stores the accumulator ends with as the witness the run finds.
-/
import proofs.«173056_j36472862278098_1_alg».proof.Proof.KI.R1Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs — the five inputs at their contents, the accumulator at the contents the point before left, the output block's buffer at contents handed back untouched —
    runs to a continuation that is given the inputs as they were, the output block's buffer as it was
    and the accumulator with the pieces `LS` written (last store first).  The conditionals are decided by the case's hypotheses. -/
noncomputable def kernelRun1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    Σ' (LO : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KI.R1RunC.lean ====
/-
  The first layer's kernel at a LAST column tile (`k = 3`): the scaled block product is added to the
  accumulator, and the accumulator plus the bias row, clamped at zero from below, is stored into the
  output block.  The body's run on any whole staging memrefs, with the stores the accumulator and the
  output block end with as the witness the run finds.
-/
import proofs.«173056_j36472862278098_1_alg».proof.Proof.KI.R1Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs — the five inputs at their contents, the accumulator at the contents the point before left, the output block's buffer at anything —
    runs to a continuation that is given the inputs as they were, the output block's buffer with the pieces `LO` written
    and the accumulator with the pieces `LS` written (last store first).  The conditionals are decided by the case's hypotheses. -/
noncomputable def kernelRun1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KI.R1Frame.lean ====
/-
  The first propagation layer's kernel, region 1 of the program: its proof data and body obligation.

  From the three runs of the body (first, middle and last column tile) this module reads what the
  accumulator holds after every point of the grid — a recursion on the point: a first column tile starts
  the accumulator afresh from the point's input blocks; a middle or last one continues from what the point
  before left — and what the output block holds after a last column tile.  The region's invariant names
  the accumulator's contents after each point; the other scoped buffers and the generator register pass
  through untouched.  With these the body meets its obligation at every point, in each of the three cases.
-/
import proofs.«173056_j36472862278098_1_alg».proof.Proof.KI.R1RunA
import proofs.«173056_j36472862278098_1_alg».proof.Proof.KI.R1RunB
import proofs.«173056_j36472862278098_1_alg».proof.Proof.KI.R1RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At a first column tile the stores into the accumulator cover it. -/
theorem scover1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) (y : S1024x256.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x256.size (by sl_kernel_rfl) y

/-- What a first column tile leaves in the accumulator: its stores read back. -/
def sout1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) : Vec F S1024x256 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

/-- At a middle column tile the store into the accumulator covers it. -/
theorem scover1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 x3 x4 xs).2.1, y ∈ pc.1.set :=
  View.cover_of_tiledL (kernelRun1_B c i arg2 harg2 arg3 harg3 arg4 harg4 arg5 harg5 arg6 harg6 arg7 harg7 arg8 harg8 hc0 hc1 x0 x1 x2 x3 x4 xs).2.1 S1024x256.size (by sl_kernel_rfl) y

/-- What a middle column tile leaves in the accumulator, from what the point before left (`xs`). -/
def sout1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) : Vec F S1024x256 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs).2.1)

/-- At a last column tile the store into the output block covers it, -/
theorem cover1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S1024x256.size (by sl_kernel_rfl) y

/-- and this is what it leaves there. -/
def out1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) : Vec F S1024x256 .f32 :=
  VO1.read (Elt F) (VO1.writes (Elt F) VO1.junk (kernelRun1_C c i arg2 harg2 arg3 harg3 arg4 harg4 arg5 harg5 arg6 harg6 arg7 harg7 arg8 harg8 hc0 hc1 x0 x1 x2 x3 x4 xs).1)

/-- The store into the accumulator covers it as well, -/
theorem scover1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S1024x256.size (by sl_kernel_rfl) y

/-- and this is what it leaves there. -/
def sout1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) : Vec F S1024x256 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1)

/-! ## The same at a point of the grid, on the point's memrefs and input blocks -/

/-- The accumulator after a first column tile `t`. -/
def accA (c : Dev nD) (t : Fin cfg1.N) (h0 : t.val % 4 = 0) (h1 : ¬t.val % 4 = 3) : Vec F S1024x256 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- The accumulator after a middle column tile `t`, over what the point before left. -/
def accB (c : Dev nD) (t : Fin cfg1.N) (h0 : ¬t.val % 4 = 0) (h1 : ¬t.val % 4 = 3) (xs : Vec F S1024x256 .f32) : Vec F S1024x256 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs

/-- The accumulator after a last column tile `t`, over what the point before left. -/
def accC (c : Dev nD) (t : Fin cfg1.N) (h0 : ¬t.val % 4 = 0) (h1 : t.val % 4 = 3) (xs : Vec F S1024x256 .f32) : Vec F S1024x256 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) xs

/-- The output block after a last column tile `t`. -/
def outC (c : Dev nD) (t : Fin cfg1.N) (h0 : ¬t.val % 4 = 0) (h1 : t.val % 4 = 3) (xs : Vec F S1024x256 .f32) : Vec F S1024x256 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) xs

/-! ## The accumulator and the output block after each point -/

/-- THE ACCUMULATION: what the accumulator holds after the body at position `n`.  A first column tile starts
    afresh; any other continues from position `n - 1`. -/
def accAt (c : Dev nD) : (n : ℕ) → n < cfg1.N → Vec F S1024x256 .f32
  | 0, hn => accA V c ⟨0, hn⟩ (Nat.zero_mod _) (show ¬(0 : ℕ) % 4 = 3 by decide)
  | n + 1, hn =>
    if h0 : (n + 1) % 4 = 0 then
      accA V c ⟨n + 1, hn⟩ h0 (show ¬(n + 1) % 4 = 3 by omega)
    else if h1 : (n + 1) % 4 = 3 then
      accC V c ⟨n + 1, hn⟩ h0 h1 (accAt c n (Nat.lt_of_succ_lt hn))
    else
      accB V c ⟨n + 1, hn⟩ h0 h1 (accAt c n (Nat.lt_of_succ_lt hn))

theorem accAt_A (c : Dev nD) (t : Fin cfg1.N) (h0 : t.val % 4 = 0) (h1 : ¬t.val % 4 = 3) :
    accAt V c t.val t.isLt = accA V c t h0 h1 := by
  obtain ⟨n, hn⟩ := t
  cases n with
  | zero => exact rfl
  | succ n => exact (dif_pos h0).trans rfl

theorem accAt_B (c : Dev nD) (t : Fin cfg1.N) (h0 : ¬t.val % 4 = 0) (h1 : ¬t.val % 4 = 3) :
    accAt V c t.val t.isLt = accB V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg1.N) (h0 : ¬t.val % 4 = 0) (h1 : t.val % 4 = 3) :
    accAt V c t.val t.isLt = accC V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block's staging buffer holds after the body at `t`: at a last column tile the stored
    block, over the accumulator the point before left; elsewhere nothing anyone reads (the window is idle and
    not written back there). -/
def outAt (c : Dev nD) (t : Fin cfg1.N) : Vec F S1024x256 .f32 :=
  if h1 : t.val % 4 = 3 then
    outC V c t (fun h0 => by omega) h1 (accAt V c (t.val - 1) (Nat.lt_of_le_of_lt (Nat.sub_le _ _) t.isLt))
  else VO1.read (Elt F) VO1.junk

theorem outAt_C (c : Dev nD) (t : Fin cfg1.N) (h0 : ¬t.val % 4 = 0) (h1 : t.val % 4 = 3) :
    outAt V c t = outC V c t h0 h1 (accAt V c (t.val - 1) (Nat.lt_of_le_of_lt (Nat.sub_le _ _) t.isLt)) := by
  unfold outAt; exact dif_pos h1

/-! ## The invariant -/

/-- Before position `n`: at the region's entry what the launch hands it; afterwards the same with the
    accumulator at what the point before left. -/
def PhiS (c : Dev nD) : (n : ℕ) → n ≤ cfg1.N → sProp 𝕄
  | 0, _ => Pipeline.ΦA spec1 c
  | n + 1, hn => iprop(iprop(iprop(owns (c : Thread nD τ) scM1 fullShare (accAt V c n hn))
      ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1 fullShare (accAt V c n hn))
      ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(iprop(owns (c : Thread nD τ) scM1 fullShare (accAt V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body each input's
    buffer at its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window is never idle. -/
theorem liveAt1_0 : ∀ t : Fin cfg1.N, cfg1.idle 0 (grid1.coords t) = false := fun _ => rfl
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
/-- An input window is never idle. -/
theorem liveAt1_1 : ∀ t : Fin cfg1.N, cfg1.idle 1 (grid1.coords t) = false := fun _ => rfl
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
/-- An input window is never idle. -/
theorem liveAt1_2 : ∀ t : Fin cfg1.N, cfg1.idle 2 (grid1.coords t) = false := fun _ => rfl
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- An input window is never idle. -/
theorem liveAt1_3 : ∀ t : Fin cfg1.N, cfg1.idle 3 (grid1.coords t) = false := fun _ => rfl
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
/-- An input window is never idle. -/
theorem liveAt1_4 : ∀ t : Fin cfg1.N, cfg1.idle 4 (grid1.coords t) = false := fun _ => rfl
theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point.  The inputs' memrefs hold their blocks; the point's position modulo 4 says which
    case it is in; the invariant hands the body the accumulator at what the point before left (at anything
    before the first point) and takes it back at this point's contents; the other scoped buffers and the
    generator register pass through; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hN : t.val < 32 := lt_of_lt_of_eq t.isLt (show cfg1.N = 32 from N_1)
  by_cases h0 : t.val % 4 = 0
  · have h1 : ¬t.val % 4 = 3 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [accAt_A V c t h0 h1]
    unfold accA sout1_A; (try dsimp only)
    by_cases hz : t.val = 0
    · rw [PhiS_castSucc V c t, PhiS_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [accAt_C V c t h0 h1, outAt_C V c t h0 h1]
      unfold accC outC sout1_C out1_C; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [accAt_B V c t h0 h1]
      unfold accB sout1_B; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

/-- The shares are full, by computation. -/
example (c : Dev nD) := (dat1 V c).share_full fun _ => rfl

end Cert.KernelIdeal.Hand

end
-- ==== Proof.KI.R2Runs.lean ====
/-
  The second propagation layer's kernel, what its three control cases share.

  The kernel visits a grid of 8 row tiles by 4 column tiles.  At each point it multiplies a 1024 × 2048 block of
  the adjacency matrix entrywise by a column of row scalings and a row of column scalings, multiplies the result
  with a 2048 × 16 block of features, and adds the product into a 1024 × 16 accumulator that lives beside the
  staged windows and is carried from one column tile to the next.  The accumulator is zeroed first at column
  tile 0, and at column tile 3 the accumulated block plus the bias row is stored into the output window.

  Here: the two branch conditions as propositions over the grid coordinates with their closed forms over the 32
  points; where the output window is idle, not written back, or live; the staging and accumulator memrefs the
  body is called with; the region invariant with the accumulator split off the other scoped buffers; each
  window's block read off its array as the region finds it; and that every input's current staging buffer holds
  that block at every point, whether or not the pipeline fetched it there.
-/
import proofs.«173056_j36472862278098_1_alg».proof.Proof.Gen.KernelIdeal.Launch
import proofs.«173056_j36472862278098_1_alg».proof.Proof.Gen.KernelIdeal.Skeleton
import proofs.«173056_j36472862278098_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point: where the pipeline does not fetch
    it the block index has not moved, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: where the pipeline does not fetch
    it the block index has not moved, and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point: where the pipeline does not fetch
    it the block index has not moved, and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point: where the pipeline does not fetch
    it the block index has not moved, and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point: where the pipeline does not fetch
    it the block index has not moved, and the body leaves the buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's branch conditions -/

/-- The body zeroes its accumulator first exactly when this holds: the column-tile coordinate is 0. -/
abbrev cond2_0 (i : grid2.Coords) : Prop := (Scalar.cmpi .ne (Scalar.extui (Scalar.cmpi .eq (BitVec.ofNat 32 (i 1).val) 0#32)) 0#32) = 1#1
/-- Over the 32 points in row-major order that is every fourth point, starting with the first. -/
theorem hcond2_0 : ∀ t : Fin cfg2.N, cond2_0 (grid2.coords t) ↔ t.val % 4 = 0 :=
  (by decide +kernel : ∀ t : Fin grid2.N, cond2_0 (grid2.coords t) ↔ t.val % 4 = 0)

/-- The body stores the output block exactly when this holds: the column-tile coordinate is 3. -/
abbrev cond2_1 (i : grid2.Coords) : Prop := k2_cond2 i = 1#1
/-- That is every fourth point, starting with the fourth. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Input window 0 is live at every point. -/
theorem liveAt2_0 : ∀ t : Fin cfg2.N, cfg2.idle 0 (grid2.coords t) = false := by decide +kernel
/-- Input window 1 is live at every point. -/
theorem liveAt2_1 : ∀ t : Fin cfg2.N, cfg2.idle 1 (grid2.coords t) = false := by decide +kernel
/-- Input window 2 is live at every point. -/
theorem liveAt2_2 : ∀ t : Fin cfg2.N, cfg2.idle 2 (grid2.coords t) = false := by decide +kernel
/-- Input window 3 is live at every point. -/
theorem liveAt2_3 : ∀ t : Fin cfg2.N, cfg2.idle 3 (grid2.coords t) = false := by decide +kernel
/-- Input window 4 is live at every point. -/
theorem liveAt2_4 : ∀ t : Fin cfg2.N, cfg2.idle 4 (grid2.coords t) = false := by decide +kernel
/-- At column tile 0 the output window is idle: nothing is stored into it there. -/
theorem idleAt2_5_A : ∀ t : Fin cfg2.N, cond2_0 (grid2.coords t) → ¬cond2_1 (grid2.coords t) → cfg2.idle 5 (grid2.coords t) = true := by decide +kernel
/-- At column tile 0 the output window's block is not written back. -/
theorem noFlush2_5_A : ∀ t : Fin cfg2.N, cond2_0 (grid2.coords t) → ¬cond2_1 (grid2.coords t) → (cfg2.win 5).flush t = false := by decide +kernel
/-- At column tiles 1 and 2 the output window is idle. -/
theorem idleAt2_5_B : ∀ t : Fin cfg2.N, ¬cond2_0 (grid2.coords t) → ¬cond2_1 (grid2.coords t) → cfg2.idle 5 (grid2.coords t) = true := by decide +kernel
/-- At column tiles 1 and 2 the output window's block is not written back. -/
theorem noFlush2_5_B : ∀ t : Fin cfg2.N, ¬cond2_0 (grid2.coords t) → ¬cond2_1 (grid2.coords t) → (cfg2.win 5).flush t = false := by decide +kernel
/-- At column tile 3 the output window is live: the body stores its block. -/
theorem liveAt2_5_C : ∀ t : Fin cfg2.N, ¬cond2_0 (grid2.coords t) → cond2_1 (grid2.coords t) → cfg2.idle 5 (grid2.coords t) = false := by decide +kernel

/-! ## The memrefs the body is called with -/

/-- One staging buffer of the output window, as a view: what the body leaves there is stated through it. -/
abbrev VO2_5 : View sig .tc .vmem S1024x16 .f32 := (Memref.whole cc2_stg5_0 : Memref sig .tc .vmem S1024x16 .f32).view
/-- Window 0's current staging memref at point `t`, and that it is a whole buffer. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
/-- Window 1's current staging memref at point `t`, and that it is a whole buffer. -/
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
/-- Window 2's current staging memref at point `t`, and that it is a whole buffer. -/
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
/-- Window 3's current staging memref at point `t`, and that it is a whole buffer. -/
abbrev ms2_3 (t : Fin cfg2.N) : Memref sig .tc .vmem S2048x16 .f32 := win2_3.stage (cfg2.slots t 3)
abbrev hs2_3 (t : Fin cfg2.N) : (ms2_3 t).IsWhole := hstage2_3 ((cfg2.slots t 3).cast nbuf2_3)
/-- Window 4's current staging memref at point `t`, and that it is a whole buffer. -/
abbrev ms2_4 (t : Fin cfg2.N) : Memref sig .tc .vmem S1x16 .f32 := win2_4.stage (cfg2.slots t 4)
abbrev hs2_4 (t : Fin cfg2.N) : (ms2_4 t).IsWhole := hstage2_4 ((cfg2.slots t 4).cast nbuf2_4)
/-- Window 5's current staging memref at point `t`, and that it is a whole buffer. -/
abbrev ms2_5 (t : Fin cfg2.N) : Memref sig .tc .vmem S1024x16 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S1024x16 .f32 := Memref.whole cc2_scratch0
/-- The accumulator as a view: what it holds is stated through it. -/
abbrev VS2_0 : View sig .tc .vmem S1024x16 .f32 := scM2_0.view

/-! ## The region invariant with the accumulator split off -/

/-- The other scoped buffers of the core that are no staging buffer of this region, each at some contents, unopened. -/
abbrev rest2 (c : Dev nD) : sProp 𝕄 :=
  Pipeline.scopedRestBut (Ix := Unit) (Name := ℕ) (U := UR sig nD τ) (Lvl := ℕ) (Val := Elt F) spec2 c [cc2_scratch0]

/-- What the region hands its body besides the windows: the accumulator at some contents, the other scoped
    buffers unopened, and the generator register at some state. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA
  rw [Pipeline.scopedRest_split_of_list spec2 c [cc2_scratch0] (by decide) (by decide)]
  simp only [scM2_0, owns_whole]; try rfl

end Cert.KernelIdeal.Hand

end
-- ==== Proof.KI.R2RunA.lean ====
/-
  The second layer's kernel body at column tile 0.

  The body first stores zeros over the whole accumulator, then loads the adjacency block, the row scalings, the
  column scalings, the accumulator (which now reads as the zeros just stored) and the feature block, and stores
  the accumulator plus the product of the scaled adjacency block with the feature block back over the whole
  accumulator.  The output window is not touched.  The run is found by symbolic execution of the body's memory
  operations; what the accumulator ends with is recorded as the list of stores, last first.
-/
import proofs.«173056_j36472862278098_1_alg».proof.Proof.KI.R2Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at column tile 0 (zero the accumulator, then accumulate): on whole staging memrefs holding the five input blocks, the output's at contents handed back untouched, and the
    accumulator at anything, the body runs to a state with the inputs as they were and the accumulator
    with its stores written.  The store lists are the witness the run finds. -/
noncomputable def kernelRun2_A (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) :
    Σ' (L5 : List (View.Piece (Elt F) S1024x16 .f32)), { LS0 : List (View.Piece (Elt F) S1024x16 .f32) //
      ∀ (xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    rw [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R2RunB.lean ====
/-
  The second layer's kernel body at column tiles 1 and 2.

  The body loads the adjacency block, the row scalings, the column scalings, the accumulator as the point
  before left it, and the feature block, and stores the accumulator plus the product of the scaled adjacency
  block with the feature block back over the whole accumulator.  The output window is not touched.  The run is
  found by symbolic execution of the body's memory operations; what the accumulator ends with is recorded as
  the list of stores, last first.
-/
import proofs.«173056_j36472862278098_1_alg».proof.Proof.KI.R2Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at column tiles 1 and 2 (accumulate): on whole staging memrefs holding the five input blocks, the output's at contents handed back untouched, and the
    accumulator at what the point before left, the body runs to a state with the inputs as they were and the accumulator
    with its stores written.  The store lists are the witness the run finds. -/
noncomputable def kernelRun2_B (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    Σ' (L5 : List (View.Piece (Elt F) S1024x16 .f32)), { LS0 : List (View.Piece (Elt F) S1024x16 .f32) //
      ∀ (xi5 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    rw [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R2RunC.lean ====
/-
  The second layer's kernel body at column tile 3.

  The body accumulates as at the tiles before, then loads the accumulator it has just stored and the bias row,
  and stores their sum (the bias row repeated down the 1024 rows) over the whole output block.  The run is
  found by symbolic execution of the body's memory operations; what the output block and the accumulator end
  with is recorded as the lists of stores, last first.
-/
import proofs.«173056_j36472862278098_1_alg».proof.Proof.KI.R2Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at column tile 3 (accumulate, then store the output block): on whole staging memrefs holding the five input blocks, the output's at anything, and the
    accumulator at what the point before left, the body runs to a state with the inputs as they were, the output block with its stores written and the accumulator
    with its stores written.  The store lists are the witness the run finds. -/
noncomputable def kernelRun2_C (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    Σ' (L5 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨?_, ?_, fun E K => ?run⟩
  case run =>
    rw [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R2Frame.lean ====
/-
  The second propagation layer's kernel: what its accumulator and its output window hold after every grid
  point, and the frame half of the region.

  The 32 points are walked in row-major order, four column tiles per row tile.  After each point the
  accumulator holds what that point's control case stored into it: at column tile 0 the case that zeroes first,
  at column tiles 1 and 2 the plain accumulation over what the point before left, at column tile 3 the same
  followed by the store of the output block.  The contents are defined by recursion on the point, and the region
  invariant tracks them: before the first point the accumulator holds anything, afterwards what the point before
  left.  The output window is idle and not written back except at column tile 3, where the body covers its block.
  From this the body obligation at every point follows by cases on the point, and the invariant is what the
  region is entered with and gives back.
-/
import proofs.«173056_j36472862278098_1_alg».proof.Proof.KI.R2RunA
import proofs.«173056_j36472862278098_1_alg».proof.Proof.KI.R2RunB
import proofs.«173056_j36472862278098_1_alg».proof.Proof.KI.R2RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- In this case nothing is stored into the output window: a placeholder that nothing consults, since the window
    is idle and not written back at these points. -/
def out2_A_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) : Vec F S1024x16 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3 x4).1)

/-- In this case nothing is stored into the output window: a placeholder that nothing consults, since the window
    is idle and not written back at these points. -/
def out2_B_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 x4 xs0).1)

/-- The stores into the accumulator in this case cover it: every store is of the whole 1024 × 16 block. -/
theorem scover2_A_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) (y : S1024x16.Idx) :
    ∃ pc ∈ (kernelRun2_A c i arg2 harg2 arg3 harg3 arg4 harg4 arg5 harg5 arg6 harg6 arg7 harg7 arg8 harg8 hc0 hc1 x0 x1 x2 x3 x4).2.1, y ∈ pc.1.set :=
  View.cover_of_tiledL (kernelRun2_A c i arg2 harg2 arg3 harg3 arg4 harg4 arg5 harg5 arg6 harg6 arg7 harg7 arg8 harg8 hc0 hc1 x0 x1 x2 x3 x4).2.1 S1024x16.size (by sl_kernel_rfl) y

/-- What this case leaves in the accumulator: its stores read back. -/
def sout2_A_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) : Vec F S1024x16 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).2.1)

/-- The stores into the accumulator in this case cover it: every store is of the whole 1024 × 16 block. -/
theorem scover2_B_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) (y : S1024x16.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S1024x16.size (by sl_kernel_rfl) y

/-- What this case leaves in the accumulator: its stores read back. -/
def sout2_B_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).2.1)

/-- The stores into the accumulator in this case cover it: every store is of the whole 1024 × 16 block. -/
theorem scover2_C_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x16.size (by sl_kernel_rfl) y

/-- What this case leaves in the accumulator: its stores read back. -/
def sout2_C_0 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

/-- At column tile 3 the one store into the output window covers its block. -/
theorem cover2_C_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) (y : S1024x16.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x16.size (by sl_kernel_rfl) y

/-- What the body leaves in the output window's staging buffer at column tile 3: its store read back. -/
def out2_C_5 (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) : Vec F S1024x16 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

section
variable (V : (c : Dev nD) → (b : Ref sig .tc) → Buf (Elt F) ((c : Thread nD τ).loc b))

/-! ## What the output window and the accumulator hold after each point -/

/-- The accumulation.  After the body at position `n`: first what the output window's staging buffer holds, then
    what the accumulator holds — the case the point is in, run on the point's memrefs and input blocks, over what
    the point before left in the accumulator.  No point is in both the first and the last column tile. -/
def outsAt2 (c : Dev nD) : (n : ℕ) → n < cfg2.N → Vec F S1024x16 .f32 × Vec F S1024x16 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- At a point of column tile 0: the zeroing case's contents. -/
theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- At a point of column tiles 1 and 2: the accumulating case's contents, over what the point before left. -/
theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of column tile 3: the storing case's contents, over what the point before left. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents tracked -/

/-- Before position `n`: at the first point what the region is entered with (the accumulator at anything);
    afterwards the accumulator at what the point before left, the other scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ rest2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ rest2 (F := F) c) ∗ (∃ r, prngReg c r)) := by
  cases n with
  | zero => exact absurd rfl hz
  | succ n => rfl

/-! ## The region's proof data -/

/-- On core `c`: the arrays as the region finds them; after the body at point `t` each input's buffer at its
    block and the output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point.  The inputs' memrefs hold their blocks; the point's position modulo 4 says which case it
    is in; the invariant hands the body the accumulator at what the point before left (at anything at the first
    point) and takes it back at this point's contents; the output window is handed back untouched where it is
    idle and at its covered block where it is stored; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the region was entered with: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end

end Cert.KernelIdeal.Hand

end
-- ==== Proof.KI.RunInst.lean ====
/-
  The run of the whole program at the three regions' actual halves.

  The run is proved once for any three region halves; here the halves are the degree kernel's, the first
  layer's and the second layer's, and the statements are restated over them: what the regions leave (`outs` at
  its three entries, each as the region's own data read after the last grid point, the data taken at the
  boundary valuation the region is entered from), the run with the result array named (`run_main`) and the
  frame claim (`frame`).
-/
import proofs.«173056_j36472862278098_1_alg».proof.Proof.KI.Run
import proofs.«173056_j36472862278098_1_alg».proof.Proof.KI.R0Frame
import proofs.«173056_j36472862278098_1_alg».proof.Proof.KI.R1Frame
import proofs.«173056_j36472862278098_1_alg».proof.Proof.KI.R2Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

/-- The degree kernel's half. -/
def half0 : Half0 F :=
  ⟨fun V c => dat0 V c, A_eq0, fun _ _ _ => rfl, fun _ _ _ => rfl, fun _ _ => rfl, body_obligation0, hin0, hout0⟩
/-- The first layer's half. -/
def half1 : Half1 F :=
  ⟨fun V c => dat1 V c, A_eq1, fun _ _ _ => rfl, fun _ _ _ => rfl, fun _ _ => rfl, body_obligation1, hin1, hout1⟩
/-- The second layer's half. -/
def half2 : Half2 F :=
  ⟨fun V c => dat2 V c, A_eq2, fun _ _ _ => rfl, fun _ _ _ => rfl, fun _ _ => rfl, body_obligation2, hin2, hout2⟩

variable (m : (ℓ : Loc nD τ sig) → Buf (Elt F) ℓ)

/-! ## What the regions leave, over the regions' own data -/

/-- The degree column after the degree kernel: its data at the valuation after the first host stretch. -/
theorem outs_main_v35 (c : Dev nD) :
    outs half0 half1 half2 m 2 main_v35 c = (dat0 (fun c b => Gen.V1 m c b) c).arrAt 1 cfg0.N :=
  outs_v35 half0 half1 half2 m c

/-- The first layer's output: its data at the valuation before it, which already holds the degree column. -/
theorem outs_main_v45 (c : Dev nD) :
    outs half0 half1 half2 m 6 main_v45 c
      = (dat1 (fun c b => Gen.V5 m (outs half0 half1 half2 m) c b) c).arrAt 5 cfg1.N := by
  have e : (fun (c : Dev nD) (b : Ref sig .tc) => Gen.V5 m (outs half0 half1 half2 m) c b) = ent1 half0 m :=
    funext fun c => funext fun b => congrFun (V5_outs half0 half1 half2 m c) _
  rw [e]; exact outs_v45 half0 half1 half2 m c

/-- The second layer's output: its data at the valuation before it, which already holds the first layer's. -/
theorem outs_main_v48 (c : Dev nD) :
    outs half0 half1 half2 m 8 main_v48 c
      = (dat2 (fun c b => Gen.V7 m (outs half0 half1 half2 m) c b) c).arrAt 5 cfg2.N := by
  have e : (fun (c : Dev nD) (b : Ref sig .tc) => Gen.V7 m (outs half0 half1 half2 m) c b) = ent2 half0 half1 m :=
    funext fun c => funext fun b => congrFun (V7_outs half0 half1 half2 m c) _
  rw [e]; exact outs_v48 half0 half1 half2 m c

/-! ## The run and the frame -/

/-- From any launch memory with zero counters the program terminates; the result array ends holding the last
    boundary valuation's value, each argument array what it was launched with. -/
theorem run_main (ρ : Dev nD → PrngReg) :
    θ_run defs (onTc (τ := τ) (main (F := F))) ⟨m, fun _ => 0, ρ⟩ (fun r => ∀ c : Dev nD,
      r.2.mem ((c.tc : Thread nD τ).loc main_v49) = Gen.V9 m (outs half0 half1 half2 m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of half0 half1 half2 m ρ

/-- The frame claim: the program terminates and leaves its seven argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of half0 half1 half2 m ρ

end Cert.KernelIdeal.Hand

end
-- ==== Proof.RefRunH.lean ====
/-
  The reference program's run, with its result said as a value.

  The reference is a straight line of 77 host operations.  Run from any memory, it ends with every buffer holding the
  fold of the operations' results over the launch contents.  This module reads that fold at the result buffer WITHOUT
  ever forming the one long composed term: the line is cut into seven pieces (the index columns and the zero matrix;
  the adjacency matrix; the degrees and their guarded inverse square roots; the twice-scaled adjacency; the first
  layer; the second layer; the closing log-softmax), each piece is read against arbitrary contents as one stage
  function of its inputs, and the stages are chained.  The outcome: the result buffer holds the reference's value of
  its seven arguments, and the arguments are unchanged.
-/
import proofs.«173056_j36472862278098_1_alg».proof.Proof.RefRead
import Idealize.ShloMosaic.Lib.StableHlo.Run

noncomputable section

namespace Cert.RefSide

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Running one line after another is running their concatenation. -/
theorem after_append (A B : List (HloOp τ sig (Elt F))) (V : Valuation τ sig (Elt F)) : after (A ++ B) V = after B (after A V) := by
  induction A generalizing V with
  | nil => rfl
  | cons op A ih => exact ih _

/-! ## The program as a line of operations -/

/-- The reference's 77 host operations in program order; an outlined function's operations stand where it is called. -/
abbrev ops : List (HloOp τ sig (Elt F)) :=
  [ nullary main_cst (constant S_ .f32 0x00000000#32),
    unary main_cst main_v0 (broadcastInDim S8192x8192 ![] bcast_S_S8192x8192 : (⟨S_, .f32⟩ : BufTy).Contents (Elt F) → (⟨S8192x8192, .f32⟩ : BufTy).Contents (Elt F)),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    unary main_arg1 main_v3 ((extractStridedSlice S1x262144 ![1, 0] · slices_S2x262144_S1x262144_1_0) : (⟨S2x262144, .i32⟩ : BufTy).Contents (Elt F) → (⟨S1x262144, .i32⟩ : BufTy).Contents (Elt F)),
    reshape main_v3 main_v4 rfl shapeCasts_S1x262144_S262144,
    nullary main_c (constantI S_ 32 0#32),
    unary main_c main_v5 (broadcastInDim S262144 ![] bcast_S_S262144 : (⟨S_, .i32⟩ : BufTy).Contents (Elt F) → (⟨S262144, .i32⟩ : BufTy).Contents (Elt F)),
    binary main_v2 main_v5 main_v6 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v7 (broadcastInDim S262144 ![] bcast_S_S262144 : (⟨S_, .i32⟩ : BufTy).Contents (Elt F) → (⟨S262144, .i32⟩ : BufTy).Contents (Elt F)),
    binary main_v2 main_v7 main_v8 (addi : (⟨S262144, .i32⟩ : BufTy).Contents (Elt F) → (⟨S262144, .i32⟩ : BufTy).Contents (Elt F) → (⟨S262144, .i32⟩ : BufTy).Contents (Elt F)),
    ternary main_v6 main_v8 main_v2 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_1 (constantI S_ 32 0#32),
    unary main_c_1 main_v10 (broadcastInDim S262144 ![] bcast_S_S262144 : (⟨S_, .i32⟩ : BufTy).Contents (Elt F) → (⟨S262144, .i32⟩ : BufTy).Contents (Elt F)),
    binary main_v4 main_v10 main_v11 (cmpi .slt : (⟨S262144, .i32⟩ : BufTy).Contents (Elt F) → (⟨S262144, .i32⟩ : BufTy).Contents (Elt F) → (⟨S262144, .i1⟩ : BufTy).Contents (Elt F)),
    nullary main_c_2 (constantI S_ 32 8192#32),
    unary main_c_2 main_v12 (broadcastInDim S262144 ![] bcast_S_S262144 : (⟨S_, .i32⟩ : BufTy).Contents (Elt F) → (⟨S262144, .i32⟩ : BufTy).Contents (Elt F)),
    binary main_v4 main_v12 main_v13 (addi : (⟨S262144, .i32⟩ : BufTy).Contents (Elt F) → (⟨S262144, .i32⟩ : BufTy).Contents (Elt F) → (⟨S262144, .i32⟩ : BufTy).Contents (Elt F)),
    ternary main_v11 main_v13 main_v4 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v9 main_v15 (broadcastInDim S262144x1 ![0] bcast_S262144_S262144x1_0 : (⟨S262144, .i32⟩ : BufTy).Contents (Elt F) → (⟨S262144x1, .i32⟩ : BufTy).Contents (Elt F)),
    unary main_v14 main_v16 (broadcastInDim S262144x1 ![0] bcast_S262144_S262144x1_0 : (⟨S262144, .i32⟩ : BufTy).Contents (Elt F) → (⟨S262144x1, .i32⟩ : BufTy).Contents (Elt F)),
    binary main_v15 main_v16 main_v17 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v0 main_v17 main_arg2 main_v18 ((fun x i u => Host.scatterAdd scatter_S8192x8192_S262144x2_S262144_n_01_01_1 x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    nullary main_v19 (iotaInDim S8192x8192 32 0),
    nullary main_v20 (iotaInDim S8192x8192 32 1),
    nullary main_c_3 (constantI S_ 32 0#32),
    unary main_c_3 main_v21 (broadcastInDim S8192x8192 ![] bcast_S_S8192x8192 : (⟨S_, .i32⟩ : BufTy).Contents (Elt F) → (⟨S8192x8192, .i32⟩ : BufTy).Contents (Elt F)),
    binary main_v19 main_v21 main_v22 (addi : (⟨S8192x8192, .i32⟩ : BufTy).Contents (Elt F) → (⟨S8192x8192, .i32⟩ : BufTy).Contents (Elt F) → (⟨S8192x8192, .i32⟩ : BufTy).Contents (Elt F)),
    binary main_v22 main_v20 main_v23 (cmpi .eq : (⟨S8192x8192, .i32⟩ : BufTy).Contents (Elt F) → (⟨S8192x8192, .i32⟩ : BufTy).Contents (Elt F) → (⟨S8192x8192, .i1⟩ : BufTy).Contents (Elt F)),
    unary main_v23 main_v24 (uitofp .f32 : (⟨S8192x8192, .i1⟩ : BufTy).Contents (Elt F) → (⟨S8192x8192, .f32⟩ : BufTy).Contents (Elt F)),
    binary main_v18 main_v24 main_v25 (addf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v25 main_cst_4 main_v26 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_5 (constant S_ .f32 0x00000000#32),
    unary main_cst_5 main_v27 (broadcastInDim S8192 ![] bcast_S_S8192 : (⟨S_, .f32⟩ : BufTy).Contents (Elt F) → (⟨S8192, .f32⟩ : BufTy).Contents (Elt F)),
    binary main_v26 main_v27 main_v28 (cmpf .ogt : (⟨S8192, .f32⟩ : BufTy).Contents (Elt F) → (⟨S8192, .f32⟩ : BufTy).Contents (Elt F) → (⟨S8192, .i1⟩ : BufTy).Contents (Elt F)),
    nullary main_cst_6 (constant S_ .f32 0xBF000000#32),
    unary main_cst_6 main_v29 (broadcastInDim S8192 ![] bcast_S_S8192 : (⟨S_, .f32⟩ : BufTy).Contents (Elt F) → (⟨S8192, .f32⟩ : BufTy).Contents (Elt F)),
    binary main_v26 main_v29 main_v30 (Host.powf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    unary main_cst_7 main_v31 (broadcastInDim S8192 ![] bcast_S_S8192 : (⟨S_, .f32⟩ : BufTy).Contents (Elt F) → (⟨S8192, .f32⟩ : BufTy).Contents (Elt F)),
    TRef.ternary (TRef.of (T := ⟨S8192, .i1⟩) main_v28) (TRef.of (T := ⟨S8192, .f32⟩) main_v30) (TRef.of (T := ⟨S8192, .f32⟩) main_v31) (TRef.of (T := ⟨S8192, .f32⟩) main_v32) select,
    unary main_v32 main_v33 (broadcastInDim S8192x1 ![0] bcast_S8192_S8192x1_0 : (⟨S8192, .f32⟩ : BufTy).Contents (Elt F) → (⟨S8192x1, .f32⟩ : BufTy).Contents (Elt F)),
    unary main_v33 main_v34 (broadcastInDim S8192x8192 ![0, 1] bcast_S8192x1_S8192x8192_0_1 : (⟨S8192x1, .f32⟩ : BufTy).Contents (Elt F) → (⟨S8192x8192, .f32⟩ : BufTy).Contents (Elt F)),
    binary main_v34 main_v25 main_v35 (mulf : (⟨S8192x8192, .f32⟩ : BufTy).Contents (Elt F) → (⟨S8192x8192, .f32⟩ : BufTy).Contents (Elt F) → (⟨S8192x8192, .f32⟩ : BufTy).Contents (Elt F)),
    unary main_v32 main_v36 (broadcastInDim S1x8192 ![1] bcast_S8192_S1x8192_1 : (⟨S8192, .f32⟩ : BufTy).Contents (Elt F) → (⟨S1x8192, .f32⟩ : BufTy).Contents (Elt F)),
    unary main_v36 main_v37 (broadcastInDim S8192x8192 ![0, 1] bcast_S1x8192_S8192x8192_0_1 : (⟨S1x8192, .f32⟩ : BufTy).Contents (Elt F) → (⟨S8192x8192, .f32⟩ : BufTy).Contents (Elt F)),
    binary main_v35 main_v37 main_v38 (mulf : (⟨S8192x8192, .f32⟩ : BufTy).Contents (Elt F) → (⟨S8192x8192, .f32⟩ : BufTy).Contents (Elt F) → (⟨S8192x8192, .f32⟩ : BufTy).Contents (Elt F)),
    binary main_arg0 main_arg3 main_v39 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    binary main_v38 main_v39 main_v40 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_arg4 main_v41 (broadcastInDim S1x256 ![1] bcast_S256_S1x256_1 : (⟨S256, .f32⟩ : BufTy).Contents (Elt F) → (⟨S1x256, .f32⟩ : BufTy).Contents (Elt F)),
    unary main_v41 main_v42 (broadcastInDim S8192x256 ![0, 1] bcast_S1x256_S8192x256_0_1 : (⟨S1x256, .f32⟩ : BufTy).Contents (Elt F) → (⟨S8192x256, .f32⟩ : BufTy).Contents (Elt F)),
    binary main_v40 main_v42 main_v43 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v43) (TRef.of (T := ⟨S8192x256, .f32⟩) main_call1_v0) (TRef.of (T := ⟨S8192x256, .f32⟩) main_v44) maximumf,
    binary main_v44 main_arg5 main_v45 ((fun l r => Host.dotGeneral dot_S8192x256_S256x16_S8192x16_1_0_0_1_n_n none l r) : (⟨S8192x256, .f32⟩ : BufTy).Contents (Elt F) → (⟨S256x16, .f32⟩ : BufTy).Contents (Elt F) → (⟨S8192x16, .f32⟩ : BufTy).Contents (Elt F)),
    binary main_v38 main_v45 main_v46 ((fun l r => Host.dotGeneral dot_S8192x8192_S8192x16_S8192x16_1_0_0_1_n_n none l r) : (⟨S8192x8192, .f32⟩ : BufTy).Contents (Elt F) → (⟨S8192x16, .f32⟩ : BufTy).Contents (Elt F) → (⟨S8192x16, .f32⟩ : BufTy).Contents (Elt F)),
    unary main_arg6 main_v47 (broadcastInDim S1x16 ![1] bcast_S16_S1x16_1 : (⟨S16, .f32⟩ : BufTy).Contents (Elt F) → (⟨S1x16, .f32⟩ : BufTy).Contents (Elt F)),
    unary main_v47 main_v48 (broadcastInDim S8192x16 ![0, 1] bcast_S1x16_S8192x16_0_1 : (⟨S1x16, .f32⟩ : BufTy).Contents (Elt F) → (⟨S8192x16, .f32⟩ : BufTy).Contents (Elt F)),
    binary main_v46 main_v48 main_v49 (addf : (⟨S8192x16, .f32⟩ : BufTy).Contents (Elt F) → (⟨S8192x16, .f32⟩ : BufTy).Contents (Elt F) → (⟨S8192x16, .f32⟩ : BufTy).Contents (Elt F)),
    TRef.nullary (TRef.of (T := ⟨S_, .f32⟩) main_call2_cst) (constant S_ .f32 0xFF800000#32),
    TRef.binary (TRef.of (T := ⟨S8192x16, .f32⟩) main_v49) (TRef.of (T := ⟨S_, .f32⟩) main_call2_cst) (TRef.of (T := ⟨S8192, .f32⟩) main_call2_v0) (fun x v => Host.reduce FloatOps.maximumf x v reducesTo_S8192x16_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x16, .f32⟩) main_call2_v4) (broadcastInDim S8192x16 ![0, 1] bcast_S8192x1_S8192x16_0_1),
    TRef.binary (TRef.of (T := ⟨S8192x16, .f32⟩) main_v49) (TRef.of (T := ⟨S8192x16, .f32⟩) main_call2_v4) (TRef.of (T := ⟨S8192x16, .f32⟩) main_call2_v5) subf,
    TRef.unary (TRef.of (T := ⟨S8192x16, .f32⟩) main_call2_v5) (TRef.of (T := ⟨S8192x16, .f32⟩) main_call2_v6) Host.exp,
    TRef.nullary (TRef.of (T := ⟨S_, .f32⟩) main_call2_cst_1) (constant S_ .f32 0x00000000#32),
    TRef.binary (TRef.of (T := ⟨S8192x16, .f32⟩) main_call2_v6) (TRef.of (T := ⟨S_, .f32⟩) main_call2_cst_1) (TRef.of (T := ⟨S8192, .f32⟩) main_call2_v7) (fun x v => Host.reduceAdd x v reducesTo_S8192x16_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x16, .f32⟩) main_call2_v10) (broadcastInDim S8192x16 ![0, 1] bcast_S8192x1_S8192x16_0_1),
    TRef.binary (TRef.of (T := ⟨S8192x16, .f32⟩) main_call2_v5) (TRef.of (T := ⟨S8192x16, .f32⟩) main_call2_v10) (TRef.of (T := ⟨S8192x16, .f32⟩) main_v50) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., ternary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The line cut into seven pieces

Each piece is read against ARBITRARY buffer contents `W`: its result buffer holds the piece's stage function of what
`W` holds at the piece's inputs, and every buffer a later piece still reads is left as it was.  No step looks at more
than one piece, so no step meets a term longer than one stage. -/

abbrev opsA : List (HloOp τ sig (Elt F)) :=
  [ nullary main_cst (constant S_ .f32 0x00000000#32),
    unary main_cst main_v0 (broadcastInDim S8192x8192 ![] bcast_S_S8192x8192 : (⟨S_, .f32⟩ : BufTy).Contents (Elt F) → (⟨S8192x8192, .f32⟩ : BufTy).Contents (Elt F)),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    unary main_arg1 main_v3 ((extractStridedSlice S1x262144 ![1, 0] · slices_S2x262144_S1x262144_1_0) : (⟨S2x262144, .i32⟩ : BufTy).Contents (Elt F) → (⟨S1x262144, .i32⟩ : BufTy).Contents (Elt F)),
    reshape main_v3 main_v4 rfl shapeCasts_S1x262144_S262144,
    nullary main_c (constantI S_ 32 0#32),
    unary main_c main_v5 (broadcastInDim S262144 ![] bcast_S_S262144 : (⟨S_, .i32⟩ : BufTy).Contents (Elt F) → (⟨S262144, .i32⟩ : BufTy).Contents (Elt F)),
    binary main_v2 main_v5 main_v6 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v7 (broadcastInDim S262144 ![] bcast_S_S262144 : (⟨S_, .i32⟩ : BufTy).Contents (Elt F) → (⟨S262144, .i32⟩ : BufTy).Contents (Elt F)),
    binary main_v2 main_v7 main_v8 (addi : (⟨S262144, .i32⟩ : BufTy).Contents (Elt F) → (⟨S262144, .i32⟩ : BufTy).Contents (Elt F) → (⟨S262144, .i32⟩ : BufTy).Contents (Elt F)),
    ternary main_v6 main_v8 main_v2 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_1 (constantI S_ 32 0#32),
    unary main_c_1 main_v10 (broadcastInDim S262144 ![] bcast_S_S262144 : (⟨S_, .i32⟩ : BufTy).Contents (Elt F) → (⟨S262144, .i32⟩ : BufTy).Contents (Elt F)),
    binary main_v4 main_v10 main_v11 (cmpi .slt : (⟨S262144, .i32⟩ : BufTy).Contents (Elt F) → (⟨S262144, .i32⟩ : BufTy).Contents (Elt F) → (⟨S262144, .i1⟩ : BufTy).Contents (Elt F)),
    nullary main_c_2 (constantI S_ 32 8192#32),
    unary main_c_2 main_v12 (broadcastInDim S262144 ![] bcast_S_S262144 : (⟨S_, .i32⟩ : BufTy).Contents (Elt F) → (⟨S262144, .i32⟩ : BufTy).Contents (Elt F)),
    binary main_v4 main_v12 main_v13 (addi : (⟨S262144, .i32⟩ : BufTy).Contents (Elt F) → (⟨S262144, .i32⟩ : BufTy).Contents (Elt F) → (⟨S262144, .i32⟩ : BufTy).Contents (Elt F)),
    ternary main_v11 main_v13 main_v4 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v9 main_v15 (broadcastInDim S262144x1 ![0] bcast_S262144_S262144x1_0 : (⟨S262144, .i32⟩ : BufTy).Contents (Elt F) → (⟨S262144x1, .i32⟩ : BufTy).Contents (Elt F)),
    unary main_v14 main_v16 (broadcastInDim S262144x1 ![0] bcast_S262144_S262144x1_0 : (⟨S262144, .i32⟩ : BufTy).Contents (Elt F) → (⟨S262144x1, .i32⟩ : BufTy).Contents (Elt F)) ]

abbrev opsB : List (HloOp τ sig (Elt F)) :=
  [ binary main_v15 main_v16 main_v17 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v0 main_v17 main_arg2 main_v18 ((fun x i u => Host.scatterAdd scatter_S8192x8192_S262144x2_S262144_n_01_01_1 x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    nullary main_v19 (iotaInDim S8192x8192 32 0),
    nullary main_v20 (iotaInDim S8192x8192 32 1),
    nullary main_c_3 (constantI S_ 32 0#32),
    unary main_c_3 main_v21 (broadcastInDim S8192x8192 ![] bcast_S_S8192x8192 : (⟨S_, .i32⟩ : BufTy).Contents (Elt F) → (⟨S8192x8192, .i32⟩ : BufTy).Contents (Elt F)),
    binary main_v19 main_v21 main_v22 (addi : (⟨S8192x8192, .i32⟩ : BufTy).Contents (Elt F) → (⟨S8192x8192, .i32⟩ : BufTy).Contents (Elt F) → (⟨S8192x8192, .i32⟩ : BufTy).Contents (Elt F)),
    binary main_v22 main_v20 main_v23 (cmpi .eq : (⟨S8192x8192, .i32⟩ : BufTy).Contents (Elt F) → (⟨S8192x8192, .i32⟩ : BufTy).Contents (Elt F) → (⟨S8192x8192, .i1⟩ : BufTy).Contents (Elt F)),
    unary main_v23 main_v24 (uitofp .f32 : (⟨S8192x8192, .i1⟩ : BufTy).Contents (Elt F) → (⟨S8192x8192, .f32⟩ : BufTy).Contents (Elt F)),
    binary main_v18 main_v24 main_v25 (addf : (⟨S8192x8192, .f32⟩ : BufTy).Contents (Elt F) → (⟨S8192x8192, .f32⟩ : BufTy).Contents (Elt F) → (⟨S8192x8192, .f32⟩ : BufTy).Contents (Elt F)) ]

abbrev opsC : List (HloOp τ sig (Elt F)) :=
  [ nullary main_cst_4 (constant S_ .f32 0x00000000#32),
    binary main_v25 main_cst_4 main_v26 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_5 (constant S_ .f32 0x00000000#32),
    unary main_cst_5 main_v27 (broadcastInDim S8192 ![] bcast_S_S8192 : (⟨S_, .f32⟩ : BufTy).Contents (Elt F) → (⟨S8192, .f32⟩ : BufTy).Contents (Elt F)),
    binary main_v26 main_v27 main_v28 (cmpf .ogt : (⟨S8192, .f32⟩ : BufTy).Contents (Elt F) → (⟨S8192, .f32⟩ : BufTy).Contents (Elt F) → (⟨S8192, .i1⟩ : BufTy).Contents (Elt F)),
    nullary main_cst_6 (constant S_ .f32 0xBF000000#32),
    unary main_cst_6 main_v29 (broadcastInDim S8192 ![] bcast_S_S8192 : (⟨S_, .f32⟩ : BufTy).Contents (Elt F) → (⟨S8192, .f32⟩ : BufTy).Contents (Elt F)),
    binary main_v26 main_v29 main_v30 (Host.powf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    unary main_cst_7 main_v31 (broadcastInDim S8192 ![] bcast_S_S8192 : (⟨S_, .f32⟩ : BufTy).Contents (Elt F) → (⟨S8192, .f32⟩ : BufTy).Contents (Elt F)),
    TRef.ternary (TRef.of (T := ⟨S8192, .i1⟩) main_v28) (TRef.of (T := ⟨S8192, .f32⟩) main_v30) (TRef.of (T := ⟨S8192, .f32⟩) main_v31) (TRef.of (T := ⟨S8192, .f32⟩) main_v32) select ]

abbrev opsD : List (HloOp τ sig (Elt F)) :=
  [ unary main_v32 main_v33 (broadcastInDim S8192x1 ![0] bcast_S8192_S8192x1_0 : (⟨S8192, .f32⟩ : BufTy).Contents (Elt F) → (⟨S8192x1, .f32⟩ : BufTy).Contents (Elt F)),
    unary main_v33 main_v34 (broadcastInDim S8192x8192 ![0, 1] bcast_S8192x1_S8192x8192_0_1 : (⟨S8192x1, .f32⟩ : BufTy).Contents (Elt F) → (⟨S8192x8192, .f32⟩ : BufTy).Contents (Elt F)),
    binary main_v34 main_v25 main_v35 (mulf : (⟨S8192x8192, .f32⟩ : BufTy).Contents (Elt F) → (⟨S8192x8192, .f32⟩ : BufTy).Contents (Elt F) → (⟨S8192x8192, .f32⟩ : BufTy).Contents (Elt F)),
    unary main_v32 main_v36 (broadcastInDim S1x8192 ![1] bcast_S8192_S1x8192_1 : (⟨S8192, .f32⟩ : BufTy).Contents (Elt F) → (⟨S1x8192, .f32⟩ : BufTy).Contents (Elt F)),
    unary main_v36 main_v37 (broadcastInDim S8192x8192 ![0, 1] bcast_S1x8192_S8192x8192_0_1 : (⟨S1x8192, .f32⟩ : BufTy).Contents (Elt F) → (⟨S8192x8192, .f32⟩ : BufTy).Contents (Elt F)),
    binary main_v35 main_v37 main_v38 (mulf : (⟨S8192x8192, .f32⟩ : BufTy).Contents (Elt F) → (⟨S8192x8192, .f32⟩ : BufTy).Contents (Elt F) → (⟨S8192x8192, .f32⟩ : BufTy).Contents (Elt F)) ]

abbrev opsE : List (HloOp τ sig (Elt F)) :=
  [ binary main_arg0 main_arg3 main_v39 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    binary main_v38 main_v39 main_v40 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    unary main_arg4 main_v41 (broadcastInDim S1x256 ![1] bcast_S256_S1x256_1 : (⟨S256, .f32⟩ : BufTy).Contents (Elt F) → (⟨S1x256, .f32⟩ : BufTy).Contents (Elt F)),
    unary main_v41 main_v42 (broadcastInDim S8192x256 ![0, 1] bcast_S1x256_S8192x256_0_1 : (⟨S1x256, .f32⟩ : BufTy).Contents (Elt F) → (⟨S8192x256, .f32⟩ : BufTy).Contents (Elt F)),
    binary main_v40 main_v42 main_v43 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v43) (TRef.of (T := ⟨S8192x256, .f32⟩) main_call1_v0) (TRef.of (T := ⟨S8192x256, .f32⟩) main_v44) maximumf ]

abbrev opsF : List (HloOp τ sig (Elt F)) :=
  [ binary main_v44 main_arg5 main_v45 ((fun l r => Host.dotGeneral dot_S8192x256_S256x16_S8192x16_1_0_0_1_n_n none l r) : (⟨S8192x256, .f32⟩ : BufTy).Contents (Elt F) → (⟨S256x16, .f32⟩ : BufTy).Contents (Elt F) → (⟨S8192x16, .f32⟩ : BufTy).Contents (Elt F)),
    binary main_v38 main_v45 main_v46 ((fun l r => Host.dotGeneral dot_S8192x8192_S8192x16_S8192x16_1_0_0_1_n_n none l r) : (⟨S8192x8192, .f32⟩ : BufTy).Contents (Elt F) → (⟨S8192x16, .f32⟩ : BufTy).Contents (Elt F) → (⟨S8192x16, .f32⟩ : BufTy).Contents (Elt F)),
    unary main_arg6 main_v47 (broadcastInDim S1x16 ![1] bcast_S16_S1x16_1 : (⟨S16, .f32⟩ : BufTy).Contents (Elt F) → (⟨S1x16, .f32⟩ : BufTy).Contents (Elt F)),
    unary main_v47 main_v48 (broadcastInDim S8192x16 ![0, 1] bcast_S1x16_S8192x16_0_1 : (⟨S1x16, .f32⟩ : BufTy).Contents (Elt F) → (⟨S8192x16, .f32⟩ : BufTy).Contents (Elt F)),
    binary main_v46 main_v48 main_v49 (addf : (⟨S8192x16, .f32⟩ : BufTy).Contents (Elt F) → (⟨S8192x16, .f32⟩ : BufTy).Contents (Elt F) → (⟨S8192x16, .f32⟩ : BufTy).Contents (Elt F)) ]

abbrev opsG : List (HloOp τ sig (Elt F)) :=
  [ TRef.nullary (TRef.of (T := ⟨S_, .f32⟩) main_call2_cst) (constant S_ .f32 0xFF800000#32),
    TRef.binary (TRef.of (T := ⟨S8192x16, .f32⟩) main_v49) (TRef.of (T := ⟨S_, .f32⟩) main_call2_cst) (TRef.of (T := ⟨S8192, .f32⟩) main_call2_v0) (fun x v => Host.reduce FloatOps.maximumf x v reducesTo_S8192x16_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x16, .f32⟩) main_call2_v4) (broadcastInDim S8192x16 ![0, 1] bcast_S8192x1_S8192x16_0_1),
    TRef.binary (TRef.of (T := ⟨S8192x16, .f32⟩) main_v49) (TRef.of (T := ⟨S8192x16, .f32⟩) main_call2_v4) (TRef.of (T := ⟨S8192x16, .f32⟩) main_call2_v5) subf,
    TRef.unary (TRef.of (T := ⟨S8192x16, .f32⟩) main_call2_v5) (TRef.of (T := ⟨S8192x16, .f32⟩) main_call2_v6) Host.exp,
    TRef.nullary (TRef.of (T := ⟨S_, .f32⟩) main_call2_cst_1) (constant S_ .f32 0x00000000#32),
    TRef.binary (TRef.of (T := ⟨S8192x16, .f32⟩) main_call2_v6) (TRef.of (T := ⟨S_, .f32⟩) main_call2_cst_1) (TRef.of (T := ⟨S8192, .f32⟩) main_call2_v7) (fun x v => Host.reduceAdd x v reducesTo_S8192x16_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x16, .f32⟩) main_call2_v10) (broadcastInDim S8192x16 ![0, 1] bcast_S8192x1_S8192x16_0_1),
    TRef.binary (TRef.of (T := ⟨S8192x16, .f32⟩) main_call2_v5) (TRef.of (T := ⟨S8192x16, .f32⟩) main_call2_v10) (TRef.of (T := ⟨S8192x16, .f32⟩) main_v50) subf ]

/-! ### Segment A: the zero matrix and the two index columns -/
theorem segA_v0 (W : Valuation τ sig (Elt F)) : after opsA W (Proc.devRef .tc main_v0) = val_main_v0 (F := F) := by
  after_results_simp <;> rfl
theorem segA_v15 (W : Valuation τ sig (Elt F)) : after opsA W (Proc.devRef .tc main_v15) = val_main_v15 (F := F) (W (Proc.devRef .tc main_arg1)) := by
  after_results_simp <;> rfl
theorem segA_v16 (W : Valuation τ sig (Elt F)) : after opsA W (Proc.devRef .tc main_v16) = val_main_v16 (F := F) (W (Proc.devRef .tc main_arg1)) := by
  after_results_simp <;> rfl
theorem keepA_arg0 (W : Valuation τ sig (Elt F)) : after opsA W (Proc.devRef .tc main_arg0) = W (Proc.devRef .tc main_arg0) := by
  after_results_simp <;> rfl
theorem keepA_arg2 (W : Valuation τ sig (Elt F)) : after opsA W (Proc.devRef .tc main_arg2) = W (Proc.devRef .tc main_arg2) := by
  after_results_simp <;> rfl
theorem keepA_arg3 (W : Valuation τ sig (Elt F)) : after opsA W (Proc.devRef .tc main_arg3) = W (Proc.devRef .tc main_arg3) := by
  after_results_simp <;> rfl
theorem keepA_arg4 (W : Valuation τ sig (Elt F)) : after opsA W (Proc.devRef .tc main_arg4) = W (Proc.devRef .tc main_arg4) := by
  after_results_simp <;> rfl
theorem keepA_arg5 (W : Valuation τ sig (Elt F)) : after opsA W (Proc.devRef .tc main_arg5) = W (Proc.devRef .tc main_arg5) := by
  after_results_simp <;> rfl
theorem keepA_arg6 (W : Valuation τ sig (Elt F)) : after opsA W (Proc.devRef .tc main_arg6) = W (Proc.devRef .tc main_arg6) := by
  after_results_simp <;> rfl

/-! ### Segment B: the adjacency matrix -/
theorem segB_v25 (W : Valuation τ sig (Elt F)) (x1 : (⟨S2x262144, .i32⟩ : BufTy).Contents (Elt F)) (x2 : (⟨S262144, .f32⟩ : BufTy).Contents (Elt F))
    (h0 : W (Proc.devRef .tc main_v0) = val_main_v0 (F := F)) (h15 : W (Proc.devRef .tc main_v15) = val_main_v15 (F := F) x1)
    (h16 : W (Proc.devRef .tc main_v16) = val_main_v16 (F := F) x1) (h2 : W (Proc.devRef .tc main_arg2) = x2) :
    after opsB W (Proc.devRef .tc main_v25) = val_main_v25 (F := F) x1 x2 := by
  after_results_simp
  rw [h0, h15, h16, h2]
  rfl
theorem keepB_arg0 (W : Valuation τ sig (Elt F)) : after opsB W (Proc.devRef .tc main_arg0) = W (Proc.devRef .tc main_arg0) := by
  after_results_simp <;> rfl
theorem keepB_arg3 (W : Valuation τ sig (Elt F)) : after opsB W (Proc.devRef .tc main_arg3) = W (Proc.devRef .tc main_arg3) := by
  after_results_simp <;> rfl
theorem keepB_arg4 (W : Valuation τ sig (Elt F)) : after opsB W (Proc.devRef .tc main_arg4) = W (Proc.devRef .tc main_arg4) := by
  after_results_simp <;> rfl
theorem keepB_arg5 (W : Valuation τ sig (Elt F)) : after opsB W (Proc.devRef .tc main_arg5) = W (Proc.devRef .tc main_arg5) := by
  after_results_simp <;> rfl
theorem keepB_arg6 (W : Valuation τ sig (Elt F)) : after opsB W (Proc.devRef .tc main_arg6) = W (Proc.devRef .tc main_arg6) := by
  after_results_simp <;> rfl

/-! ### Segment C: the degrees and their guarded inverse square roots -/
theorem segC_v32 (W : Valuation τ sig (Elt F)) (x1 : (⟨S2x262144, .i32⟩ : BufTy).Contents (Elt F)) (x2 : (⟨S262144, .f32⟩ : BufTy).Contents (Elt F))
    (h25 : W (Proc.devRef .tc main_v25) = val_main_v25 (F := F) x1 x2) :
    after opsC W (Proc.devRef .tc main_v32) = val_main_v32 (F := F) x1 x2 := by
  after_results_simp
  rw [h25]
  rfl
theorem keepC_v25 (W : Valuation τ sig (Elt F)) : after opsC W (Proc.devRef .tc main_v25) = W (Proc.devRef .tc main_v25) := by
  after_results_simp <;> rfl
theorem keepC_arg0 (W : Valuation τ sig (Elt F)) : after opsC W (Proc.devRef .tc main_arg0) = W (Proc.devRef .tc main_arg0) := by
  after_results_simp <;> rfl
theorem keepC_arg3 (W : Valuation τ sig (Elt F)) : after opsC W (Proc.devRef .tc main_arg3) = W (Proc.devRef .tc main_arg3) := by
  after_results_simp <;> rfl
theorem keepC_arg4 (W : Valuation τ sig (Elt F)) : after opsC W (Proc.devRef .tc main_arg4) = W (Proc.devRef .tc main_arg4) := by
  after_results_simp <;> rfl
theorem keepC_arg5 (W : Valuation τ sig (Elt F)) : after opsC W (Proc.devRef .tc main_arg5) = W (Proc.devRef .tc main_arg5) := by
  after_results_simp <;> rfl
theorem keepC_arg6 (W : Valuation τ sig (Elt F)) : after opsC W (Proc.devRef .tc main_arg6) = W (Proc.devRef .tc main_arg6) := by
  after_results_simp <;> rfl

/-! ### Segment D: the adjacency scaled on both sides -/
theorem segD_v38 (W : Valuation τ sig (Elt F)) (x1 : (⟨S2x262144, .i32⟩ : BufTy).Contents (Elt F)) (x2 : (⟨S262144, .f32⟩ : BufTy).Contents (Elt F))
    (h25 : W (Proc.devRef .tc main_v25) = val_main_v25 (F := F) x1 x2) (h32 : W (Proc.devRef .tc main_v32) = val_main_v32 (F := F) x1 x2) :
    after opsD W (Proc.devRef .tc main_v38) = val_main_v38 (F := F) x1 x2 := by
  after_results_simp
  rw [h25, h32]
  rfl
theorem keepD_arg0 (W : Valuation τ sig (Elt F)) : after opsD W (Proc.devRef .tc main_arg0) = W (Proc.devRef .tc main_arg0) := by
  after_results_simp <;> rfl
theorem keepD_arg3 (W : Valuation τ sig (Elt F)) : after opsD W (Proc.devRef .tc main_arg3) = W (Proc.devRef .tc main_arg3) := by
  after_results_simp <;> rfl
theorem keepD_arg4 (W : Valuation τ sig (Elt F)) : after opsD W (Proc.devRef .tc main_arg4) = W (Proc.devRef .tc main_arg4) := by
  after_results_simp <;> rfl
theorem keepD_arg5 (W : Valuation τ sig (Elt F)) : after opsD W (Proc.devRef .tc main_arg5) = W (Proc.devRef .tc main_arg5) := by
  after_results_simp <;> rfl
theorem keepD_arg6 (W : Valuation τ sig (Elt F)) : after opsD W (Proc.devRef .tc main_arg6) = W (Proc.devRef .tc main_arg6) := by
  after_results_simp <;> rfl

/-! ### Segment E: the first layer -/
theorem segE_v44 (W : Valuation τ sig (Elt F)) (x0 : (⟨S8192x128, .f32⟩ : BufTy).Contents (Elt F)) (x1 : (⟨S2x262144, .i32⟩ : BufTy).Contents (Elt F)) (x2 : (⟨S262144, .f32⟩ : BufTy).Contents (Elt F)) (x3 : (⟨S128x256, .f32⟩ : BufTy).Contents (Elt F)) (x4 : (⟨S256, .f32⟩ : BufTy).Contents (Elt F))
    (h38 : W (Proc.devRef .tc main_v38) = val_main_v38 (F := F) x1 x2) (h0 : W (Proc.devRef .tc main_arg0) = x0) (h3 : W (Proc.devRef .tc main_arg3) = x3)
    (h4 : W (Proc.devRef .tc main_arg4) = x4) :
    after opsE W (Proc.devRef .tc main_v44) = val_main_v44 (F := F) x0 x1 x2 x3 x4 := by
  after_results_simp
  rw [h38, h0, h3, h4]
  rfl
theorem keepE_v38 (W : Valuation τ sig (Elt F)) : after opsE W (Proc.devRef .tc main_v38) = W (Proc.devRef .tc main_v38) := by
  after_results_simp <;> rfl
theorem keepE_arg5 (W : Valuation τ sig (Elt F)) : after opsE W (Proc.devRef .tc main_arg5) = W (Proc.devRef .tc main_arg5) := by
  after_results_simp <;> rfl
theorem keepE_arg6 (W : Valuation τ sig (Elt F)) : after opsE W (Proc.devRef .tc main_arg6) = W (Proc.devRef .tc main_arg6) := by
  after_results_simp <;> rfl

/-! ### Segment F: the second layer -/
theorem segF_v49 (W : Valuation τ sig (Elt F)) (x0 : (⟨S8192x128, .f32⟩ : BufTy).Contents (Elt F)) (x1 : (⟨S2x262144, .i32⟩ : BufTy).Contents (Elt F)) (x2 : (⟨S262144, .f32⟩ : BufTy).Contents (Elt F)) (x3 : (⟨S128x256, .f32⟩ : BufTy).Contents (Elt F)) (x4 : (⟨S256, .f32⟩ : BufTy).Contents (Elt F)) (x5 : (⟨S256x16, .f32⟩ : BufTy).Contents (Elt F)) (x6 : (⟨S16, .f32⟩ : BufTy).Contents (Elt F))
    (h38 : W (Proc.devRef .tc main_v38) = val_main_v38 (F := F) x1 x2) (h44 : W (Proc.devRef .tc main_v44) = val_main_v44 (F := F) x0 x1 x2 x3 x4)
    (h5 : W (Proc.devRef .tc main_arg5) = x5) (h6 : W (Proc.devRef .tc main_arg6) = x6) :
    after opsF W (Proc.devRef .tc main_v49) = val_main_v49 (F := F) x0 x1 x2 x3 x4 x5 x6 := by
  after_results_simp
  rw [h38, h44, h5, h6]
  rfl

/-! ### Segment G: the closing log-softmax -/
theorem segG_v50 (W : Valuation τ sig (Elt F)) (x0 : (⟨S8192x128, .f32⟩ : BufTy).Contents (Elt F)) (x1 : (⟨S2x262144, .i32⟩ : BufTy).Contents (Elt F)) (x2 : (⟨S262144, .f32⟩ : BufTy).Contents (Elt F)) (x3 : (⟨S128x256, .f32⟩ : BufTy).Contents (Elt F)) (x4 : (⟨S256, .f32⟩ : BufTy).Contents (Elt F)) (x5 : (⟨S256x16, .f32⟩ : BufTy).Contents (Elt F)) (x6 : (⟨S16, .f32⟩ : BufTy).Contents (Elt F))
    (h49 : W (Proc.devRef .tc main_v49) = val_main_v49 (F := F) x0 x1 x2 x3 x4 x5 x6) :
    after opsG W (Proc.devRef .tc main_v50) = val_main_v50 (F := F) x0 x1 x2 x3 x4 x5 x6 := by
  after_results_simp
  rw [h49]
  dsimp only [TRef.toBuf, TRef.ofBuf, cast_eq]
  rfl

/-! ### The seven segments in a row -/

/-- The result buffer after the whole line, from any contents `V`: the stage functions composed, at `V`'s arguments. -/
theorem after_segments_v50 (V : Valuation τ sig (Elt F)) :
    after (opsA ++ (opsB ++ (opsC ++ (opsD ++ (opsE ++ (opsF ++ opsG)))))) V (Proc.devRef .tc main_v50)
      = val_main_v50 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_append, after_append, after_append, after_append, after_append, after_append]
  generalize hA : after opsA V = VA
  generalize hB : after opsB VA = VB
  generalize hC : after opsC VB = VC
  generalize hD : after opsD VC = VD
  generalize hE : after opsE VD = VE
  generalize hF : after opsF VE = VF
  -- the arguments, carried along
  have a0A : VA (Proc.devRef .tc main_arg0) = V (Proc.devRef .tc main_arg0) := hA ▸ keepA_arg0 V
  have a2A : VA (Proc.devRef .tc main_arg2) = V (Proc.devRef .tc main_arg2) := hA ▸ keepA_arg2 V
  have a3A : VA (Proc.devRef .tc main_arg3) = V (Proc.devRef .tc main_arg3) := hA ▸ keepA_arg3 V
  have a4A : VA (Proc.devRef .tc main_arg4) = V (Proc.devRef .tc main_arg4) := hA ▸ keepA_arg4 V
  have a5A : VA (Proc.devRef .tc main_arg5) = V (Proc.devRef .tc main_arg5) := hA ▸ keepA_arg5 V
  have a6A : VA (Proc.devRef .tc main_arg6) = V (Proc.devRef .tc main_arg6) := hA ▸ keepA_arg6 V
  have a0B : VB (Proc.devRef .tc main_arg0) = V (Proc.devRef .tc main_arg0) := (hB ▸ keepB_arg0 VA).trans a0A
  have a3B : VB (Proc.devRef .tc main_arg3) = V (Proc.devRef .tc main_arg3) := (hB ▸ keepB_arg3 VA).trans a3A
  have a4B : VB (Proc.devRef .tc main_arg4) = V (Proc.devRef .tc main_arg4) := (hB ▸ keepB_arg4 VA).trans a4A
  have a5B : VB (Proc.devRef .tc main_arg5) = V (Proc.devRef .tc main_arg5) := (hB ▸ keepB_arg5 VA).trans a5A
  have a6B : VB (Proc.devRef .tc main_arg6) = V (Proc.devRef .tc main_arg6) := (hB ▸ keepB_arg6 VA).trans a6A
  have a0C : VC (Proc.devRef .tc main_arg0) = V (Proc.devRef .tc main_arg0) := (hC ▸ keepC_arg0 VB).trans a0B
  have a3C : VC (Proc.devRef .tc main_arg3) = V (Proc.devRef .tc main_arg3) := (hC ▸ keepC_arg3 VB).trans a3B
  have a4C : VC (Proc.devRef .tc main_arg4) = V (Proc.devRef .tc main_arg4) := (hC ▸ keepC_arg4 VB).trans a4B
  have a5C : VC (Proc.devRef .tc main_arg5) = V (Proc.devRef .tc main_arg5) := (hC ▸ keepC_arg5 VB).trans a5B
  have a6C : VC (Proc.devRef .tc main_arg6) = V (Proc.devRef .tc main_arg6) := (hC ▸ keepC_arg6 VB).trans a6B
  have a0D : VD (Proc.devRef .tc main_arg0) = V (Proc.devRef .tc main_arg0) := (hD ▸ keepD_arg0 VC).trans a0C
  have a3D : VD (Proc.devRef .tc main_arg3) = V (Proc.devRef .tc main_arg3) := (hD ▸ keepD_arg3 VC).trans a3C
  have a4D : VD (Proc.devRef .tc main_arg4) = V (Proc.devRef .tc main_arg4) := (hD ▸ keepD_arg4 VC).trans a4C
  have a5D : VD (Proc.devRef .tc main_arg5) = V (Proc.devRef .tc main_arg5) := (hD ▸ keepD_arg5 VC).trans a5C
  have a6D : VD (Proc.devRef .tc main_arg6) = V (Proc.devRef .tc main_arg6) := (hD ▸ keepD_arg6 VC).trans a6C
  have a5E : VE (Proc.devRef .tc main_arg5) = V (Proc.devRef .tc main_arg5) := (hE ▸ keepE_arg5 VD).trans a5D
  have a6E : VE (Proc.devRef .tc main_arg6) = V (Proc.devRef .tc main_arg6) := (hE ▸ keepE_arg6 VD).trans a6D
  -- the stages
  have v25B : VB (Proc.devRef .tc main_v25) = val_main_v25 (F := F) (V (Proc.devRef .tc main_arg1)) (V (Proc.devRef .tc main_arg2)) :=
    hB ▸ segB_v25 VA _ _ (hA ▸ segA_v0 V) (hA ▸ segA_v15 V) (hA ▸ segA_v16 V) a2A
  have v25C : VC (Proc.devRef .tc main_v25) = val_main_v25 (F := F) (V (Proc.devRef .tc main_arg1)) (V (Proc.devRef .tc main_arg2)) :=
    (hC ▸ keepC_v25 VB).trans v25B
  have v32C : VC (Proc.devRef .tc main_v32) = val_main_v32 (F := F) (V (Proc.devRef .tc main_arg1)) (V (Proc.devRef .tc main_arg2)) :=
    hC ▸ segC_v32 VB _ _ v25B
  have v38D : VD (Proc.devRef .tc main_v38) = val_main_v38 (F := F) (V (Proc.devRef .tc main_arg1)) (V (Proc.devRef .tc main_arg2)) :=
    hD ▸ segD_v38 VC _ _ v25C v32C
  have v38E : VE (Proc.devRef .tc main_v38) = val_main_v38 (F := F) (V (Proc.devRef .tc main_arg1)) (V (Proc.devRef .tc main_arg2)) :=
    (hE ▸ keepE_v38 VD).trans v38D
  have v44E : VE (Proc.devRef .tc main_v44) = val_main_v44 (F := F) (V (Proc.devRef .tc main_arg0)) (V (Proc.devRef .tc main_arg1)) (V (Proc.devRef .tc main_arg2)) (V (Proc.devRef .tc main_arg3)) (V (Proc.devRef .tc main_arg4)) :=
    hE ▸ segE_v44 VD _ _ _ _ _ v38D a0D a3D a4D
  have v49F : VF (Proc.devRef .tc main_v49) = val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
    hF ▸ segF_v49 VE _ _ _ _ _ _ _ v38E v44E a5E a6E
  exact segG_v50 VF _ _ _ _ _ _ _ v49F

/-- The seven pieces in a row are the whole line. -/
theorem ops_split : (ops : List (HloOp τ sig (Elt F))) = opsA ++ (opsB ++ (opsC ++ (opsD ++ (opsE ++ (opsF ++ opsG))))) := rfl

/-- The result buffer after the whole line, from any contents `V`: the reference's value at `V`'s seven arguments. -/
theorem after_ops_v50 (V : Valuation τ sig (Elt F)) :
    after ops V (Proc.devRef .tc main_v50)
      = val_main_v50 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_split]
  exact after_segments_v50 V

/-! ## The run -/

set_option maxRecDepth 8192 in
set_option maxHeartbeats 4000000 in
/-- On every device, from any memory with zero counters: every weakly fair execution of the reference terminates with
    the result buffer at the reference's value of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v50).trans (after_ops_v50 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.RefSide

end
-- ==== Proof.Spec.lean ====
/-
  The mathematics both programs compute, stated once over extended reals and literal extents.

  A graph of 8192 nodes is given by a dense weighted adjacency matrix `A` (edge weights summed into their
  entries, a one added on the diagonal).  The degree of node `r` is the sum of row `r`; `dinv` sends a
  degree `d` to `d ^ (-1/2)` when `d > 0` and to `0` otherwise.  One propagation step multiplies the
  symmetrically scaled adjacency `dinv(r) · A(r,k) · dinv(k)` with a feature matrix and adds a bias row;
  the first layer clamps at zero from below.  The last lines (a log-softmax over each row) are the same in both
  programs and are never opened.

  The kernel accumulates every sum over the 8192 columns as four partial sums over tiles of 2048 columns;
  `sum_tiles` regroups them into the one sum.  It also forms `(A · d_r) · d_k` where the reference forms
  `(d_r · A) · d_k`; multiplication of extended reals commutes, so the two entries are one (`scaled_comm`).
  Neither law needs the entries to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with literal extents. -/
abbrev Mat (a b : Nat) : Type := (⟨2, ![a, b]⟩ : Shape).Idx → EReal

/-- Column `q` of tile `t`: the kernel walks the 8192 columns as four tiles of 2048. -/
def col (t : Fin 4) (q : Fin 2048) : Fin 8192 := ⟨t.val * 2048 + q.val, by have := t.isLt; have := q.isLt; omega⟩

/-- The sum of `f` over the columns of tile `t`. -/
def tile {M : Type} [AddCommMonoid M] (f : Fin 8192 → M) (t : Fin 4) : M := ∑ q : Fin 2048, f (col t q)

/-- Four tile sums added left to right are the sum over all 8192 columns. -/
theorem sum_tiles {M : Type} [AddCommMonoid M] (f : Fin 8192 → M) :
    ((tile f 0 + tile f 1) + tile f 2) + tile f 3 = ∑ k : Fin 8192, f k := by
  have e : (∑ k : Fin 8192, f k) = ∑ p : Fin 4 × Fin 2048, f (col p.1 p.2) := by
    refine (Fintype.sum_equiv (finProdFinEquiv (m := 4) (n := 2048)) (fun p => f (col p.1 p.2)) (fun k => f k) ?_).symm
    intro p
    refine congrArg f (Fin.ext ?_)
    show p.1.val * 2048 + p.2.val = p.2.val + 2048 * p.1.val
    omega
  rw [e, Fintype.sum_prod_type, Fin.sum_univ_four]
  rfl

/-- The degree of node `r`: the sum of row `r` of the adjacency matrix. -/
def deg (A : Mat 8192 8192) (r : Fin 8192) : EReal := ∑ k : Fin 8192, A (ix2 r k)

/-- `d ↦ d ^ (-1/2)` where `d > 0`, else `0`: the comparison, the power and the choice exactly as both
    programs print them (the zero words and the exponent word `-0.5` are kept as patterns). -/
def dinv (d : EReal) : EReal :=
  Scalar.select (Ideal.cmp .ogt d (Ideal.ofBits .f32 0x00000000#32))
    (Ideal.pow d (Ideal.ofBits .f32 0xBF000000#32)) (Ideal.ofBits .f32 0x00000000#32)

/-- One entry of the scaled adjacency as the kernel forms it: `(A(r,k) · d_r) · d_k`. -/
def scaled (A : Mat 8192 8192) (DR : Mat 8192 1) (DC : Mat 1 8192) (r k : Fin 8192) : EReal :=
  (A (ix2 r k) * DR (ix2 r 0)) * DC (ix2 0 k)

/-- The same entry as the reference forms it: `(d_r · A(r,k)) · d_k`. -/
theorem scaled_comm (A : Mat 8192 8192) (DR : Mat 8192 1) (DC : Mat 1 8192) (r k : Fin 8192) :
    (DR (ix2 r 0) * A (ix2 r k)) * DC (ix2 0 k) = scaled A DR DC r k := by
  unfold scaled; rw [mul_comm (DR _) (A _)]

/-- One propagation step at row `r`, column `j`: the scaled adjacency's row against column `j` of the
    features, plus the bias. -/
def agg {C : Nat} (A : Mat 8192 8192) (DR : Mat 8192 1) (DC : Mat 1 8192) (X : Mat 8192 C) (B : Mat 1 C)
    (r : Fin 8192) (j : Fin C) : EReal :=
  (∑ k : Fin 8192, scaled A DR DC r k * X (ix2 k j)) + B (ix2 0 j)

/-- The first layer: a propagation step clamped at zero from below. -/
def layer1 (A : Mat 8192 8192) (DR : Mat 8192 1) (DC : Mat 1 8192) (X : Mat 8192 256) (B : Mat 1 256)
    (r : Fin 8192) (j : Fin 256) : EReal :=
  max (agg A DR DC X B r j) 0

/-- The second layer: a propagation step. -/
def layer2 (A : Mat 8192 8192) (DR : Mat 8192 1) (DC : Mat 1 8192) (X : Mat 8192 16) (B : Mat 1 16)
    (r : Fin 8192) (j : Fin 16) : EReal :=
  agg A DR DC X B r j

end Cert.Spec

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«173056_j36472862278098_1_alg».proof.Proof.LibKeepdims
import proofs.«173056_j36472862278098_1_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.KI.R0Value.lean ====
/-
  The degree kernel's value: after the call, entry r of the output array is the degree of node r, the sum of
  row r of the adjacency matrix.

  Each case of the body stores into the accumulator "what it held, plus the row sums of the input block"
  (case A: zero, plus the row sums).  So after the point (i, k) the accumulator's entry r is the sum of the
  first k + 1 tile sums of row i·1024 + r, added left to right, a tile sum being the sum of 2048 consecutive
  entries of the row.  At k = 3 the body copies the accumulator into the output block, which the pipeline
  writes back as rows i·1024 … i·1024 + 1023 of the output array; the four tile sums added left to right are
  the sum over all 8192 columns.  The eight points with k = 3 cover the output array.
-/
import proofs.«173056_j36472862278098_1_alg».proof.Proof.KI.R0Frame
import proofs.«173056_j36472862278098_1_alg».proof.Proof.Spec
import proofs.«173056_j36472862278098_1_alg».proof.Proof.LibRowReduce
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.Tactic Idealize.SL.Sem
open Idealize.ShloMosaic.Pipeline (Dat)
open Idealize.ShloMosaic.ValueIdx
open Cert.KernelIdeal.Gen Cert.KernelIdeal.Hand Cert.Spec

/-! ## What each case's stores leave, at any float instance -/

section AnyInstance

variable {F : FTy → Type} [FloatOps F]
variable (V : (c : Dev nD) → (b : Ref sig .tc) → Buf (Elt F) ((c : Thread nD τ).loc b))

theorem zeros0 : (![0, 0] : Fin 2 → Nat) = fun _ => 0 := funext fun a => by fin_cases a <;> rfl

/-- Case B leaves in the accumulator its one store's value: what the accumulator held, plus the block's row sums. -/
theorem sout0_B_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero zeros0]
  simp only [View.readAt_eq_ld, harg2.read_unread, harg4.read_unread, View.ld_unit_zero (S := S1024x2048) zeros0,
    View.ld_unit_zero (S := S1024x1) zeros0]

/-- Case A leaves its last store's value: the zero block it stored first and read back, plus the block's row sums. -/
theorem sout0_A_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    sout0_A_0 c i arg2 harg2 arg3 harg3 arg4 harg4 hc0 hc1 x0 = k0_pay2 (k0_pay1 (F := F)) x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1024x1) zeros0, View.readCov_unit_zero (S := S1024x1) _ zeros0]
  simp only [View.readAt_eq_ld, harg2.read_unread, View.ld_unit_zero (S := S1024x2048) zeros0]

/-- Case C leaves in the accumulator the same value as case B, -/
theorem sout0_C_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero zeros0]
  simp only [View.readAt_eq_ld, harg2.read_unread, harg4.read_unread, View.ld_unit_zero (S := S1024x2048) zeros0,
    View.ld_unit_zero (S := S1024x1) zeros0]

/-- and in the output block the accumulator read back after that store: the same value again. -/
theorem out0_C_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    out0_C_1 c i arg2 harg2 arg3 harg3 arg4 harg4 hc0 hc1 x0 xs0 = k0_pay2 xs0 x0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero zeros0, View.readCov_unit_zero (S := S1024x1) _ zeros0]
  simp only [View.readAt_eq_ld, harg2.read_unread, harg4.read_unread, View.ld_unit_zero (S := S1024x2048) zeros0,
    View.ld_unit_zero (S := S1024x1) zeros0]

set_option maxHeartbeats 1000000 in
/-- The accumulator after a point of case A. -/
theorem acc0_A (c : Dev nD) (t : Fin cfg0.N) (h0 : t.val % 4 = 0) (h1 : ¬t.val % 4 = 3) :
    (outsAt0 V c t.val t.isLt).2 = k0_pay2 (k0_pay1 (F := F)) (iblk0 V c 0 t) := by
  rw [outsAt0_A V c t h0 h1]
  dsimp only
  exact sout0_A_eq c _ _ _ _ _ _ _ _ _ _

set_option maxHeartbeats 1000000 in
/-- The accumulator after a point of case B. -/
theorem acc0_B (c : Dev nD) (t : Fin cfg0.N) (h0 : ¬t.val % 4 = 0) (h1 : ¬t.val % 4 = 3) :
    (outsAt0 V c t.val t.isLt).2
      = k0_pay2 (outsAt0 V c (t.val - 1) (Nat.lt_of_le_of_lt (Nat.sub_le _ _) t.isLt)).2 (iblk0 V c 0 t) := by
  rw [outsAt0_B V c t h0 h1]
  dsimp only
  exact sout0_B_eq c _ _ _ _ _ _ _ _ _ _ _

set_option maxHeartbeats 1000000 in
/-- The accumulator after a point of case C. -/
theorem acc0_C (c : Dev nD) (t : Fin cfg0.N) (h0 : ¬t.val % 4 = 0) (h1 : t.val % 4 = 3) :
    (outsAt0 V c t.val t.isLt).2
      = k0_pay2 (outsAt0 V c (t.val - 1) (Nat.lt_of_le_of_lt (Nat.sub_le _ _) t.isLt)).2 (iblk0 V c 0 t) := by
  rw [outsAt0_C V c t h0 h1]
  dsimp only
  exact sout0_C_eq c _ _ _ _ _ _ _ _ _ _ _

set_option maxHeartbeats 1000000 in
/-- At a point of case C the output block ends holding what the accumulator ends holding. -/
theorem out0_eq_acc (c : Dev nD) (t : Fin cfg0.N) (h0 : ¬t.val % 4 = 0) (h1 : t.val % 4 = 3) :
    (outsAt0 V c t.val t.isLt).1 = (outsAt0 V c t.val t.isLt).2 := by
  rw [outsAt0_C V c t h0 h1]
  dsimp only
  rw [out0_C_eq, sout0_C_eq]

end AnyInstance

/-! ## The stored values over the extended reals -/

/-- The zero block reads zero everywhere. -/
theorem pay1_apply0 (r : Fin 1024) : (k0_pay1 (F := Ideal) (ix2 r (0 : Fin 1)) : EReal) = 0 := by
  unfold k0_pay1
  refine (congrFun (shapeCast_self _ _) (ix2 r (0 : Fin 1))).trans ?_
  exact Ideal.ofBits_zero_f32

/-- The stored block at row `r`: the accumulator's entry plus the sum of the input block's row `r`. -/
theorem pay2_apply0 (v3 : Vec Ideal S1024x1 .f32) (v4 : Vec Ideal S1024x2048 .f32) (r : Fin 1024) :
    (k0_pay2 (F := Ideal) v3 v4 (ix2 r (0 : Fin 1)) : EReal)
      = (v3 (ix2 r (0 : Fin 1)) : EReal) + ∑ q : Fin 2048, (v4 (ix2 r q) : EReal) := by
  unfold k0_pay2
  refine (congrFun (shapeCast_self _ _) (ix2 r (0 : Fin 1))).trans ?_
  refine congrArg (fun z : EReal => (v3 (ix2 r (0 : Fin 1)) : EReal) + z) ?_
  refine (Cert.Keepdims.shapeCast_a_a1_apply _ _ r 0).trans ?_
  refine (Cert.RowReduce.rowSum_apply _ _ _ _ _ r).trans ?_
  exact Finset.sum_congr rfl fun q _ => congrFun (shapeCast_self v4 _) (ix2 r q)

/-! ## Which rows and columns a point's blocks are -/

variable (V : (c : Dev nD) → (b : Ref sig .tc) → Buf (Elt Ideal) ((c : Thread nD τ).loc b))

/-- Point `t` of the 32, in row-major order, is row tile `t / 4` and column tile `t % 4`; the output's block index
    follows the row tile only.  Decided over the grid. -/
theorem idx0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- Row `r` of the row tile of position `n`, as a row of the whole matrix. -/
def row0 (n : ℕ) (hn : n < cfg0.N) (r : Fin 1024) : Fin 8192 :=
  ⟨n / 4 * 1024 + r.val, by have : n < 32 := lt_of_lt_of_eq hn (show cfg0.N = 32 from N_0); have := r.isLt; omega⟩

/-- The column tile of position `n`. -/
def tile0 (n : ℕ) : Fin 4 := ⟨n % 4, Nat.mod_lt _ (by decide)⟩

/-- The input block at point `t`, entry (r, q): the matrix at row `r` of the row tile, column `q` of the column tile. -/
theorem iblk0_apply (c : Dev nD) (t : Fin cfg0.N) (r : Fin 1024) (q : Fin 2048) :
    ((iblk0 V c 0 t : Vec Ideal S1024x2048 .f32) (ix2 r q) : EReal)
      = V c main_v34 (ix2 (row0 t.val t.isLt r) (col (tile0 t.val) q)) := by
  obtain ⟨e0, e1, -, -⟩ := idx0 t
  unfold iblk0
  rw [View.read_apply]
  show V c main_v34 _ = V c main_v34 _
  congr 1
  funext a
  apply Fin.ext
  match a with
  | ⟨0, _⟩ => show win0_0.index t (0 : Fin 2) * 1024 + 1 * r.val = t.val / 4 * 1024 + r.val; rw [e0]; omega
  | ⟨1, _⟩ => show win0_0.index t (1 : Fin 2) * 2048 + 1 * q.val = t.val % 4 * 2048 + q.val; rw [e1]; omega

/-! ## The running sum -/

/-- The first `k + 1` tile sums of `f`, added left to right. -/
def psum0 (f : Fin 8192 → EReal) : ℕ → EReal
  | 0 => tile f (tile0 0)
  | k + 1 => psum0 f k + tile f (tile0 (k + 1))

/-- All four are the whole sum. -/
theorem psum0_three (f : Fin 8192 → EReal) : psum0 f 3 = ∑ k : Fin 8192, f k :=
  (sum_tiles f).symm ▸ rfl

/-- Row `r` of the matrix as a function of the column. -/
abbrev rowFn0 (c : Dev nD) (n : ℕ) (hn : n < cfg0.N) (r : Fin 1024) : Fin 8192 → EReal :=
  fun k => V c main_v34 (ix2 (row0 n hn r) k)

/-- The stored block at a point, entry `r`: the accumulator's entry plus the tile sum of the matrix row. -/
theorem step0 (c : Dev nD) (t : Fin cfg0.N) (r : Fin 1024) (v3 : Vec Ideal S1024x1 .f32) :
    (k0_pay2 (F := Ideal) v3 (iblk0 V c 0 t) (ix2 r (0 : Fin 1)) : EReal)
      = (v3 (ix2 r (0 : Fin 1)) : EReal) + tile (rowFn0 V c t.val t.isLt r) (tile0 t.val) :=
  (pay2_apply0 v3 (iblk0 V c 0 t) r).trans
    (congrArg (fun z : EReal => (v3 (ix2 r (0 : Fin 1)) : EReal) + z)
      (Finset.sum_congr rfl fun q _ => iblk0_apply V c t r q))

/-- THE INVARIANT.  After position `n` = (i, k) the accumulator's entry `r` is the sum of the first `k + 1` tile
    sums of row i·1024 + r: by induction on the position, the case read off its remainder modulo four. -/
theorem acc0_eq (c : Dev nD) : ∀ (n : ℕ) (hn : n < cfg0.N) (r : Fin 1024),
    ((outsAt0 (F := Ideal) V c n hn).2 (ix2 r (0 : Fin 1)) : EReal) = psum0 (rowFn0 V c n hn r) (n % 4) := by
  intro n
  induction n using Nat.strong_induction_on with
  | _ n ih =>
    intro hn r
    have hN : n < 32 := lt_of_lt_of_eq hn (show cfg0.N = 32 from N_0)
    by_cases h0 : n % 4 = 0
    · have h1 : ¬ n % 4 = 3 := by omega
      refine (congrFun (acc0_A V c ⟨n, hn⟩ h0 h1) (ix2 r (0 : Fin 1))).trans ?_
      refine (step0 V c ⟨n, hn⟩ r _).trans ?_
      have ht : tile0 n = tile0 0 := Fin.ext h0
      rw [pay1_apply0 r, zero_add, h0]
      show tile (rowFn0 V c n hn r) (tile0 n) = tile (rowFn0 V c n hn r) (tile0 0)
      rw [ht]
    · have hpos : n - 1 < n := by omega
      have hq : (n - 1) / 4 = n / 4 := by omega
      have hm : n % 4 = (n - 1) % 4 + 1 := by omega
      have hrow : rowFn0 V c (n - 1) (Nat.lt_of_le_of_lt (Nat.sub_le _ _) hn) r = rowFn0 V c n hn r := by
        funext k; unfold rowFn0 row0; simp only [hq]
      have step : ((outsAt0 (F := Ideal) V c n hn).2 (ix2 r (0 : Fin 1)) : EReal)
          = ((outsAt0 (F := Ideal) V c (n - 1) (Nat.lt_of_le_of_lt (Nat.sub_le _ _) hn)).2 (ix2 r (0 : Fin 1)) : EReal)
            + tile (rowFn0 V c n hn r) (tile0 n) := by
        by_cases h1 : n % 4 = 3
        · exact (congrFun (acc0_C V c ⟨n, hn⟩ h0 h1) (ix2 r (0 : Fin 1))).trans (step0 V c ⟨n, hn⟩ r _)
        · exact (congrFun (acc0_B V c ⟨n, hn⟩ h0 h1) (ix2 r (0 : Fin 1))).trans (step0 V c ⟨n, hn⟩ r _)
      have ht : tile0 ((n - 1) % 4 + 1) = tile0 n := Fin.ext (by show ((n - 1) % 4 + 1) % 4 = n % 4; omega)
      rw [step, ih (n - 1) hpos _ r, hrow, hm]
      show _ = psum0 (rowFn0 V c n hn r) ((n - 1) % 4) + tile (rowFn0 V c n hn r) (tile0 ((n - 1) % 4 + 1))
      rw [ht]

/-! ## The output array -/

/-- The degrees as contents of the output array: entry (r, 0) is the degree of node r. -/
def degs0 (c : Dev nD) : Buf (Elt Ideal) ((c : Thread nD τ).loc main_v35) :=
  fun y => deg (V c main_v34) (y 0)

/-- The output block after a point with k = 3, entry `r`: the four tile sums of the matrix row, which is the
    row's whole sum, the degree. -/
theorem outC0_apply (c : Dev nD) (t : Fin cfg0.N) (h3 : t.val % 4 = 3) (r : Fin 1024) :
    ((outsAt0 (F := Ideal) V c t.val t.isLt).1 (ix2 r (0 : Fin 1)) : EReal)
      = deg (V c main_v34) (row0 t.val t.isLt r) := by
  have h0 : ¬ t.val % 4 = 0 := by omega
  rw [out0_eq_acc (F := Ideal) V c t h0 h3, acc0_eq V c t.val t.isLt r, h3, psum0_three]
  rfl

set_option maxHeartbeats 400000 in
/-- A block of 1024 rows handed to the pipeline at point `t` is the block the pipeline reads back from an array
    `G`, as soon as its entry `r` is `G`'s entry at row `r` of the point's row tile: the block's index `(r, 0)` sits
    at row (row tile) · 1024 + r of the array. -/
theorem cut_eq_read0 (t : Fin cfg0.N) (X : Vec Ideal S1024x1 .f32) (G : S8192x1.Idx → EReal)
    (h : ∀ r : Fin 1024, (X (ix2 r (0 : Fin 1)) : EReal) = G (ix2 (row0 t.val t.isLt r) (0 : Fin 1))) :
    (cfg0.win 1).cut (grid0.coords t) X = ((cfg0.win 1).blk t).view.read (Elt Ideal) G := by
  obtain ⟨-, -, e2, e3⟩ := idx0 t
  funext j
  have hj0 : (j 0).val < 1024 := (j 0).isLt
  have hj1 : (j 1).val < 1 := (j 1).isLt
  have hx : (cfg0.win 1).xinj (grid0.coords t) j = ix2 (⟨(j 0).val, hj0⟩ : Fin 1024) (0 : Fin 1) := by
    funext a; apply Fin.ext
    match a with
    | ⟨0, _⟩ => rfl
    | ⟨1, _⟩ => show (j 1).val = 0; omega
  have he : ((cfg0.win 1).blk t).view.emb j = ix2 (row0 t.val t.isLt ⟨(j 0).val, hj0⟩) (0 : Fin 1) := by
    funext a; apply Fin.ext
    match a with
    | ⟨0, _⟩ => show win0_1.index t (0 : Fin 2) * 1024 + 1 * (j 0).val = t.val / 4 * 1024 + (j 0).val; rw [e2]; omega
    | ⟨1, _⟩ => show win0_1.index t (1 : Fin 2) * 1 + 1 * (j 1).val = 0; rw [e3]; omega
  show (X ((cfg0.win 1).xinj (grid0.coords t) j) : EReal) = G (((cfg0.win 1).blk t).view.emb j)
  rw [hx, he]
  exact h _

set_option maxHeartbeats 400000 in
/-- Every entry of the output array lies in the block of a point with k = 3: row y is in row tile y / 1024. -/
theorem cover0 (y : S8192x1.Idx) :
    ∃ t : Fin cfg0.N, (cfg0.win 1).flush t = true ∧ y ∈ ((cfg0.win 1).blk t).view.set := by
  have hy : (y 0).val < 8192 := (y 0).isLt
  have hy1 : (y 1).val < 1 := (y 1).isLt
  have hlt : (y 0).val / 1024 * 4 + 3 < cfg0.N := by rw [show cfg0.N = 32 from N_0]; omega
  refine ⟨⟨(y 0).val / 1024 * 4 + 3, hlt⟩, (flush0_1 _).mpr (by show ((y 0).val / 1024 * 4 + 3) % 4 = 3; omega), ?_⟩
  obtain ⟨-, -, e2, e3⟩ := idx0 ⟨(y 0).val / 1024 * 4 + 3, hlt⟩
  show y ∈ ((View.whole main_v35).slice (win0_1.rect ⟨(y 0).val / 1024 * 4 + 3, hlt⟩)).set
  rw [View.set_slice_whole, Rect.mem_set_unit]
  intro a
  match a with
  | ⟨0, _⟩ =>
    show win0_1.index ⟨(y 0).val / 1024 * 4 + 3, hlt⟩ (0 : Fin 2) * 1024 ≤ (y 0).val
      ∧ (y 0).val < win0_1.index ⟨(y 0).val / 1024 * 4 + 3, hlt⟩ (0 : Fin 2) * 1024 + 1024
    rw [e2]; dsimp only; omega
  | ⟨1, _⟩ =>
    show win0_1.index ⟨(y 0).val / 1024 * 4 + 3, hlt⟩ (1 : Fin 2) * 1 ≤ (y 1).val
      ∧ (y 1).val < win0_1.index ⟨(y 0).val / 1024 * 4 + 3, hlt⟩ (1 : Fin 2) * 1 + 1
    rw [e3]; omega

set_option maxHeartbeats 400000 in
/-- What a point with k = 3 writes back is its block of the degrees. -/
theorem flushed0_eq (c : Dev nD) (t : Fin cfg0.N) (hf : (cfg0.win 1).flush t = true) :
    (dat0 (F := Ideal) V c).flushed 1 t = ((cfg0.win 1).blk t).view.read (Elt Ideal) (degs0 V c) := by
  have h3 : t.val % 4 = 3 := (flush0_1 t).mp hf
  show (cfg0.win 1).cut (grid0.coords t) ((dat0 (F := Ideal) V c).after 1 t) = _
  rw [after0_1 (F := Ideal) V c t]
  exact cut_eq_read0 t _ (degs0 V c) (outC0_apply V c t h3)

set_option maxHeartbeats 400000 in
/-- The eight points with k = 3 cover the output array, so it ends holding the degrees. -/
theorem final0_all (c : Dev nD) : (dat0 (F := Ideal) V c).arrAt 1 cfg0.N = degs0 V c :=
  (dat0 (F := Ideal) V c).arrAt_eq_of_cover 1 (degs0 V c) (flushed0_eq V c) cover0

/-- After the call, entry (r, 0) of the output array is the degree of node r. -/
theorem final0 (c : Dev nD) (r : Fin 8192) :
    (dat0 (F := Ideal) V c).arrAt 1 cfg0.N (ix2 r (0 : Fin 1)) = Spec.deg (V c main_v34) r :=
  congrFun (final0_all V c) (ix2 r (0 : Fin 1))

end Cert.KernelIdeal.HandValue

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.KI.R1Value.lean ====
/-
  The first propagation layer's kernel, region 1 of the program: what its output array holds afterwards.

  Over the extended reals the kernel's arithmetic is exact: narrowing a value to a shorter format changes
  nothing, and the matrix unit's block product into a zero accumulator is the plain sum of products.  So
  after the body at point `(i, k)` the accumulator holds, at row `r` and column `j`, the sum over the
  column tiles `0 … k` of
      ∑ q, ((A(R, c) · d(R)) · d'(c)) · X(c, j),      R = 1024·i + r,  c = 2048·k' + q,
  a recursion on the point (the first column tile starts from zero, the others add to what the point
  before left).  At `k = 3` the output block receives that sum plus the bias, clamped at zero from below;
  the four tile sums added left to right are the sum over all 8192 columns, so the block holds the layer's
  entries of rows `1024·i … 1024·i + 1023`.  The eight blocks written back tile the output array.
-/
import proofs.«173056_j36472862278098_1_alg».proof.Proof.KI.R1Frame
import proofs.«173056_j36472862278098_1_alg».proof.Proof.Spec
import proofs.«173056_j36472862278098_1_alg».proof.Proof.LibDenseLayer
import Idealize.ShloMosaic.Lib.Pipeline.Value
import Idealize.ShloMosaic.Lib.ValueLayout

set_option maxRecDepth 16384

noncomputable section

namespace Cert.KernelIdeal.HandValue

open Cert.KernelIdeal.Gen Cert.KernelIdeal.Hand
open Cert.Spec
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The stores each case ends with, as payloads of the input blocks (at any float semantics) -/

section Pieces

variable {F : FTy → Type} [FloatOps F]

theorem hz : (![0, 0] : Fin 2 → Nat) = fun _ => 0 := funext fun a => by fin_cases a <;> rfl

/-- At a middle column tile the accumulator ends with the block product added to what it held. -/
theorem sout_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    sout1_B c i arg2 harg2 arg3 harg3 arg4 harg4 arg5 harg5 arg6 harg6 arg7 harg7 arg8 harg8 hc0 hc1 x0 x1 x2 x3 x4 xs = k1_pay2 x0 x1 x2 xs x3 := by
  unfold sout1_B
  rw [View.read_writes_eq_canon _ _ _ (scover1_B c i arg2 harg2 arg3 harg3 arg4 harg4 arg5 harg5 arg6 harg6 arg7 harg7 arg8 harg8 hc0 hc1 x0 x1 x2 x3 x4 xs)]
  unfold kernelRun1_B
  dsimp only
  rw [View.canon_unit_zero hz]
  simp only [View.readAt_eq_ld, harg2.read_unread, harg3.read_unread, harg4.read_unread, harg5.read_unread, harg8.read_unread,
    View.ld_unit_zero (S := S1024x2048) hz, View.ld_unit_zero (S := S1024x1) hz, View.ld_unit_zero (S := S1x2048) hz,
    View.ld_unit_zero (S := S2048x256) hz, View.ld_unit_zero (S := S1024x256) hz]

/-- At a first column tile the accumulator is zeroed, read back, and ends with the block product added to zero. -/
theorem sout_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x2048 .f32) (x1 : Vec F S1024x1 .f32) (x2 : Vec F S1x2048 .f32) (x3 : Vec F S2048x256 .f32) (x4 : Vec F S1x256 .f32) :
    sout1_A c i arg2 harg2 arg3 harg3 arg4 harg4 arg5 harg5 arg6 harg6 arg7 harg7 arg8 harg8 hc0 hc1 x0 x1 x2 x3 x4 = k1_pay2 x0 x1 x2 (k1_pay1 (F := F)) x3 := by
  unfold sout1_A
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread,
    View.ld_unit_zero (S := S1024x2048) hz, View.ld_unit_zero (S := S1024x1) hz, View.ld_unit_zero (S := S1x2048) hz,
    View.ld_unit_zero (S := S2048x256) hz]

/-- At a last column tile the accumulator ends as at a middle one, -/
theorem sout_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    sout1_C c i arg2 harg2 arg3 harg3 arg4 harg4 arg5 harg5 arg6 harg6 arg7 harg7 arg8 harg8 hc0 hc1 x0 x1 x2 x3 x4 xs = k1_pay2 x0 x1 x2 xs x3 := by
  unfold sout1_C
  rw [View.read_writes_eq_canon _ _ _ (scover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero hz]
  simp only [View.readAt_eq_ld, harg2.read_unread, harg3.read_unread, harg4.read_unread, harg5.read_unread, harg8.read_unread,
    View.ld_unit_zero (S := S1024x2048) hz, View.ld_unit_zero (S := S1024x1) hz, View.ld_unit_zero (S := S1x2048) hz,
    View.ld_unit_zero (S := S2048x256) hz, View.ld_unit_zero (S := S1024x256) hz]

/-- and the output block receives the bias-and-clamp of the accumulator just stored. -/
theorem out_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x2048 .f32) (x1 : Vec F S1024x1 .f32) (x2 : Vec F S1x2048 .f32) (x3 : Vec F S2048x256 .f32) (x4 : Vec F S1x256 .f32) (xs : Vec F S1024x256 .f32) :
    out1_C c i arg2 harg2 arg3 harg3 arg4 harg4 arg5 harg5 arg6 harg6 arg7 harg7 arg8 harg8 hc0 hc1 x0 x1 x2 x3 x4 xs = k1_pay3 (k1_pay2 x0 x1 x2 xs x3) x4 := by
  unfold out1_C
  rw [View.read_writes_eq_canon _ _ _ (cover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero hz, View.readCov_unit_zero (S := S1024x256) _ hz]
  simp only [View.readAt_eq_ld, harg2.read_unread, harg3.read_unread, harg4.read_unread, harg5.read_unread, harg6.read_unread, harg8.read_unread,
    View.ld_unit_zero (S := S1024x2048) hz, View.ld_unit_zero (S := S1024x1) hz, View.ld_unit_zero (S := S1x2048) hz,
    View.ld_unit_zero (S := S2048x256) hz, View.ld_unit_zero (S := S1024x256) hz, View.ld_unit_zero (S := S1x256) hz]

end Pieces

/-! ## The payloads read at an entry, over the extended reals -/

/-- A column of 1024 entries spread across 2048 columns reads its row's entry everywhere. -/
theorem colB (v : Vec Ideal S1024x1 .f32) (h : S1024x1.Broadcasts S1024x2048) (r : Fin 1024) (q : Fin 2048) :
    broadcastTo S1024x2048 v h (ix2 r q) = v (ix2 r (0 : Fin 1)) :=
  broadcastTo_apply v h (ix2 r q) (ix2 r (0 : Fin 1)) fun ax => by
    match ax with
    | ⟨0, _⟩ => rfl
    | ⟨1, _⟩ => rfl

/-- One column tile's contribution to entry `(r, j)` of the block product, from the point's four blocks:
    the adjacency block scaled by the row factors and the column factors, against the feature block. -/
def term (x0 : Vec Ideal S1024x2048 .f32) (x1 : Vec Ideal S1024x1 .f32) (x2 : Vec Ideal S1x2048 .f32) (x3 : Vec Ideal S2048x256 .f32)
    (r : Fin 1024) (j : Fin 256) : EReal :=
  ∑ q : Fin 2048, ((x0 (ix2 r q) * x1 (ix2 r (0 : Fin 1))) * x2 (ix2 (0 : Fin 1) q)) * x3 (ix2 q j)

/-- The block the accumulator is reset to is zero. -/
theorem pay1_apply (r : Fin 1024) (j : Fin 256) : k1_pay1 (F := Ideal) (ix2 r j) = 0 := by
  unfold k1_pay1
  simp only [shapeCast_self]
  exact Ideal.ofBits_zero_f32

/-- The accumulating store: what the accumulator held plus the tile's contribution.  Narrowing the operands to
    the shorter format is the identity here, and the product into a zero accumulator is the sum of products. -/
theorem pay2_apply (x0 : Vec Ideal S1024x2048 .f32) (x1 : Vec Ideal S1024x1 .f32) (x2 : Vec Ideal S1x2048 .f32) (xs : Vec Ideal S1024x256 .f32) (x3 : Vec Ideal S2048x256 .f32)
    (r : Fin 1024) (j : Fin 256) :
    k1_pay2 (F := Ideal) x0 x1 x2 xs x3 (ix2 r j) = xs (ix2 r j) + term x0 x1 x2 x3 r j := by
  unfold k1_pay2
  simp only [shapeCast_self]
  refine congrArg (xs (ix2 r j) + ·) ?_
  refine (Cert.DenseLayer.matmul_rows_cols dot_S1024x2048_S2048x256_S1024x256_1_0_0_1_n_n rfl rfl (fun _ _ => rfl) (fun _ _ => rfl) (fun _ _ => rfl) (fun _ _ => rfl) none _ _ r j).trans ?_
  unfold term
  refine Finset.sum_congr rfl fun q _ => ?_
  refine congrArg (· * x3 (ix2 q j)) ?_
  show (x0 (ix2 r q) * broadcastTo S1024x2048 x1 _ (ix2 r q)) * broadcastTo S1024x2048 x2 _ (ix2 r q) = _
  rw [colB, broadcastTo_1b_ab_apply]

/-- The output store: the accumulator plus the bias row, clamped at zero from below. -/
theorem pay3_apply (v26 : Vec Ideal S1024x256 .f32) (v27 : Vec Ideal S1x256 .f32) (r : Fin 1024) (j : Fin 256) :
    k1_pay3 (F := Ideal) v26 v27 (ix2 r j) = max (v26 (ix2 r j) + v27 (ix2 (0 : Fin 1) j)) 0 := by
  unfold k1_pay3
  simp only [shapeCast_self]
  show max (v26 (ix2 r j) + broadcastTo S1024x256 v27 _ (ix2 r j)) (Ideal.ofBits .f32 0x00000000#32) = _
  rw [broadcastTo_1b_ab_apply, Ideal.ofBits_zero_f32]

/-! ## The blocks, read off the arrays -/

variable (V : (c : Dev nD) → (b : Ref sig .tc) → Buf (Elt Ideal) ((c : Thread nD τ).loc b))

/-- Which block each window is on at point `t`: the row tile is `t / 4`, the column tile `t % 4`. -/
theorem idx1 : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = t.val % 4 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-- The row of the arrays that row `r` of point `t`'s blocks is. -/
def rowAt (t : Fin cfg1.N) (r : Fin 1024) : Fin 8192 :=
  ⟨t.val / 4 * 1024 + r.val, by have := t.isLt; have hN : cfg1.N = 32 := N_1; have := r.isLt; omega⟩

/-- The column tile of point `t`. -/
def kt (t : Fin cfg1.N) : Fin 4 := ⟨t.val % 4, Nat.mod_lt _ (by decide)⟩

theorem blk0 (c : Dev nD) (t : Fin cfg1.N) (r : Fin 1024) (q : Fin 2048) :
    (iblk1 V c 0 t : Vec Ideal S1024x2048 .f32) (ix2 r q) = V c main_v34 (ix2 (rowAt t r) (col (kt t) q)) := by
  obtain ⟨e0, e1, -⟩ := idx1 t
  unfold iblk1
  rw [View.read_apply]
  refine congrArg (V c main_v34) (funext fun a => Fin.ext ?_)
  match a with
  | ⟨0, _⟩ => show win1_0.index t (0 : Fin 2) * 1024 + 1 * r.val = t.val / 4 * 1024 + r.val; rw [e0]; omega
  | ⟨1, _⟩ => show win1_0.index t (1 : Fin 2) * 2048 + 1 * q.val = t.val % 4 * 2048 + q.val; rw [e1]; omega

theorem blk1 (c : Dev nD) (t : Fin cfg1.N) (r : Fin 1024) :
    (iblk1 V c 1 t : Vec Ideal S1024x1 .f32) (ix2 r (0 : Fin 1)) = V c main_v41 (ix2 (rowAt t r) (0 : Fin 1)) := by
  obtain ⟨-, -, e0, e1, -⟩ := idx1 t
  unfold iblk1
  rw [View.read_apply]
  refine congrArg (V c main_v41) (funext fun a => Fin.ext ?_)
  match a with
  | ⟨0, _⟩ => show win1_1.index t (0 : Fin 2) * 1024 + 1 * r.val = t.val / 4 * 1024 + r.val; rw [e0]; omega
  | ⟨1, _⟩ => show win1_1.index t (1 : Fin 2) * 1 + 1 * 0 = 0; rw [e1]

theorem blk2 (c : Dev nD) (t : Fin cfg1.N) (q : Fin 2048) :
    (iblk1 V c 2 t : Vec Ideal S1x2048 .f32) (ix2 (0 : Fin 1) q) = V c main_v42 (ix2 (0 : Fin 1) (col (kt t) q)) := by
  obtain ⟨-, -, -, -, e0, e1, -⟩ := idx1 t
  unfold iblk1
  rw [View.read_apply]
  refine congrArg (V c main_v42) (funext fun a => Fin.ext ?_)
  match a with
  | ⟨0, _⟩ => show win1_2.index t (0 : Fin 2) * 1 + 1 * 0 = 0; rw [e0]
  | ⟨1, _⟩ => show win1_2.index t (1 : Fin 2) * 2048 + 1 * q.val = t.val % 4 * 2048 + q.val; rw [e1]; omega

theorem blk3 (c : Dev nD) (t : Fin cfg1.N) (q : Fin 2048) (j : Fin 256) :
    (iblk1 V c 3 t : Vec Ideal S2048x256 .f32) (ix2 q j) = V c main_v43 (ix2 (col (kt t) q) j) := by
  obtain ⟨-, -, -, -, -, -, e0, e1, -⟩ := idx1 t
  unfold iblk1
  rw [View.read_apply]
  refine congrArg (V c main_v43) (funext fun a => Fin.ext ?_)
  match a with
  | ⟨0, _⟩ => show win1_3.index t (0 : Fin 2) * 2048 + 1 * q.val = t.val % 4 * 2048 + q.val; rw [e0]; omega
  | ⟨1, _⟩ => show win1_3.index t (1 : Fin 2) * 256 + 1 * j.val = j.val; rw [e1]; omega

theorem blk4 (c : Dev nD) (t : Fin cfg1.N) (j : Fin 256) :
    (iblk1 V c 4 t : Vec Ideal S1x256 .f32) (ix2 (0 : Fin 1) j) = V c main_v44 (ix2 (0 : Fin 1) j) := by
  obtain ⟨-, -, -, -, -, -, -, -, e0, e1, -⟩ := idx1 t
  unfold iblk1
  rw [View.read_apply]
  refine congrArg (V c main_v44) (funext fun a => Fin.ext ?_)
  match a with
  | ⟨0, _⟩ => show win1_4.index t (0 : Fin 2) * 1 + 1 * 0 = 0; rw [e0]
  | ⟨1, _⟩ => show win1_4.index t (1 : Fin 2) * 256 + 1 * j.val = j.val; rw [e1]; omega

/-! ## The tile sums -/

/-- Column tile `k`'s part of the propagation sum at row `R`, column `j`. -/
def T (c : Dev nD) (R : Fin 8192) (j : Fin 256) (k : Fin 4) : EReal :=
  tile (fun kk => scaled (V c main_v34) (V c main_v41) (V c main_v42) R kk * V c main_v43 (ix2 kk j)) k

/-- The same with the tile given as a number (read modulo 4). -/
def Tn (c : Dev nD) (R : Fin 8192) (j : Fin 256) (m : ℕ) : EReal := T V c R j ⟨m % 4, Nat.mod_lt _ (by decide)⟩

/-- A point's contribution, computed from its blocks, is its column tile's part of the sum at its row. -/
theorem term_blocks (c : Dev nD) (t : Fin cfg1.N) (r : Fin 1024) (j : Fin 256) :
    term (iblk1 V c 0 t) (iblk1 V c 1 t) (iblk1 V c 2 t) (iblk1 V c 3 t) r j = T V c (rowAt t r) j (kt t) := by
  unfold term T tile scaled
  refine Finset.sum_congr rfl fun q _ => ?_
  rw [blk0 V c t r q, blk1 V c t r, blk2 V c t q, blk3 V c t q j]

/-! ## The accumulator after each point -/

theorem accA_apply (c : Dev nD) (t : Fin cfg1.N) (h0 : t.val % 4 = 0) (h1 : ¬t.val % 4 = 3) (r : Fin 1024) (j : Fin 256) :
    accA V c t h0 h1 (ix2 r j) = T V c (rowAt t r) j (kt t) := by
  unfold accA
  refine (congrFun (sout_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) (ix2 r j)).trans ?_
  refine (pay2_apply (iblk1 V c 0 t) (iblk1 V c 1 t) (iblk1 V c 2 t) (k1_pay1 (F := Ideal)) (iblk1 V c 3 t) r j).trans ?_
  rw [pay1_apply, zero_add]
  exact term_blocks V c t r j

theorem accB_apply (c : Dev nD) (t : Fin cfg1.N) (h0 : ¬t.val % 4 = 0) (h1 : ¬t.val % 4 = 3) (xs : Vec Ideal S1024x256 .f32) (r : Fin 1024) (j : Fin 256) :
    accB V c t h0 h1 xs (ix2 r j) = xs (ix2 r j) + T V c (rowAt t r) j (kt t) := by
  unfold accB
  refine (congrFun (sout_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs) (ix2 r j)).trans ?_
  refine (pay2_apply (iblk1 V c 0 t) (iblk1 V c 1 t) (iblk1 V c 2 t) xs (iblk1 V c 3 t) r j).trans ?_
  exact congrArg (xs (ix2 r j) + ·) (term_blocks V c t r j)

theorem accC_apply (c : Dev nD) (t : Fin cfg1.N) (h0 : ¬t.val % 4 = 0) (h1 : t.val % 4 = 3) (xs : Vec Ideal S1024x256 .f32) (r : Fin 1024) (j : Fin 256) :
    accC V c t h0 h1 xs (ix2 r j) = xs (ix2 r j) + T V c (rowAt t r) j (kt t) := by
  unfold accC
  refine (congrFun (sout_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) xs) (ix2 r j)).trans ?_
  refine (pay2_apply (iblk1 V c 0 t) (iblk1 V c 1 t) (iblk1 V c 2 t) xs (iblk1 V c 3 t) r j).trans ?_
  exact congrArg (xs (ix2 r j) + ·) (term_blocks V c t r j)

theorem outC_apply (c : Dev nD) (t : Fin cfg1.N) (h0 : ¬t.val % 4 = 0) (h1 : t.val % 4 = 3) (xs : Vec Ideal S1024x256 .f32) (r : Fin 1024) (j : Fin 256) :
    outC V c t h0 h1 xs (ix2 r j) = max ((xs (ix2 r j) + T V c (rowAt t r) j (kt t)) + V c main_v44 (ix2 (0 : Fin 1) j)) 0 := by
  unfold outC
  refine (congrFun (out_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) xs) (ix2 r j)).trans ?_
  refine (pay3_apply (k1_pay2 (F := Ideal) (iblk1 V c 0 t) (iblk1 V c 1 t) (iblk1 V c 2 t) xs (iblk1 V c 3 t)) (iblk1 V c 4 t) r j).trans ?_
  rw [pay2_apply, term_blocks, blk4]

/-- THE RUNNING SUM.  After position `n` the accumulator holds, at row `r` and column `j`, the parts of the
    propagation sum of the column tiles `0 … n % 4`, at the row of position `n`. -/
theorem acc_eq (c : Dev nD) : ∀ (n : ℕ) (hn : n < cfg1.N) (r : Fin 1024) (j : Fin 256),
    accAt V c n hn (ix2 r j) = ∑ m ∈ Finset.range (n % 4 + 1), Tn V c (rowAt ⟨n, hn⟩ r) j m := by
  intro n
  induction n with
  | zero =>
    intro hn r j
    refine (congrFun (accAt_A V c ⟨0, hn⟩ (Nat.zero_mod 4) (show ¬(0 : ℕ) % 4 = 3 by decide)) (ix2 r j)).trans ?_
    rw [accA_apply]
    simp only [Nat.zero_mod, zero_add, Finset.sum_range_one]
    rfl
  | succ n ih =>
    intro hn r j
    have hN : n + 1 < 32 := lt_of_lt_of_eq hn N_1
    by_cases h0 : (n + 1) % 4 = 0
    · have h1 : ¬(n + 1) % 4 = 3 := by omega
      refine (congrFun (accAt_A V c ⟨n + 1, hn⟩ h0 h1) (ix2 r j)).trans ?_
      rw [accA_apply, h0]
      simp only [zero_add, Finset.sum_range_one]
      exact congrArg (T V c _ j) (Fin.ext (by show (n + 1) % 4 = 0 % 4; omega))
    · have e4 : (n + 1) % 4 = n % 4 + 1 := by omega
      have hrow : rowAt ⟨n + 1, hn⟩ r = rowAt ⟨n, Nat.lt_of_succ_lt hn⟩ r :=
        Fin.ext (by show (n + 1) / 4 * 1024 + r.val = n / 4 * 1024 + r.val; omega)
      have hk : T V c (rowAt ⟨n, Nat.lt_of_succ_lt hn⟩ r) j (kt ⟨n + 1, hn⟩) = Tn V c (rowAt ⟨n, Nat.lt_of_succ_lt hn⟩ r) j (n % 4 + 1) :=
        congrArg (T V c _ j) (Fin.ext (by show (n + 1) % 4 = (n % 4 + 1) % 4; omega))
      by_cases h1 : (n + 1) % 4 = 3
      · refine (congrFun (accAt_C V c ⟨n + 1, hn⟩ h0 h1) (ix2 r j)).trans ?_
        rw [accC_apply, hrow, hk, e4, Finset.sum_range_succ]
        exact congrArg (· + _) (ih (Nat.lt_of_succ_lt hn) r j)
      · refine (congrFun (accAt_B V c ⟨n + 1, hn⟩ h0 h1) (ix2 r j)).trans ?_
        rw [accB_apply, hrow, hk, e4, Finset.sum_range_succ]
        exact congrArg (· + _) (ih (Nat.lt_of_succ_lt hn) r j)

/-! ## The output block at a last column tile, and the output array -/

/-- At a last column tile the output block holds the layer's entries of its rows: the four tile parts added
    left to right are the sum over all 8192 columns. -/
theorem out_apply (c : Dev nD) (t : Fin cfg1.N) (h1 : t.val % 4 = 3) (r : Fin 1024) (j : Fin 256) :
    outAt V c t (ix2 r j) = layer1 (V c main_v34) (V c main_v41) (V c main_v42) (V c main_v43) (V c main_v44) (rowAt t r) j := by
  have h0 : ¬t.val % 4 = 0 := by omega
  have hN : t.val < 32 := lt_of_lt_of_eq t.isLt N_1
  have e3 : (t.val - 1) % 4 + 1 = 3 := by omega
  have hrow : rowAt ⟨t.val - 1, Nat.lt_of_le_of_lt (Nat.sub_le _ _) t.isLt⟩ r = rowAt t r :=
    Fin.ext (by show (t.val - 1) / 4 * 1024 + r.val = t.val / 4 * 1024 + r.val; omega)
  have hk : kt t = 3 := Fin.ext h1
  rw [outAt_C V c t h0 h1, outC_apply, acc_eq, e3, hrow, hk]
  unfold layer1 agg
  simp only [Finset.sum_range_succ, Finset.sum_range_zero, zero_add]
  refine congrArg (fun y => max (y + V c main_v44 (ix2 (0 : Fin 1) j)) 0) ?_
  exact sum_tiles (fun kk => scaled (V c main_v34) (V c main_v41) (V c main_v42) (rowAt t r) kk * V c main_v43 (ix2 kk j))

/-- The layer's output as an array. -/
def G1 (c : Dev nD) : S8192x256.Idx → EReal := fun i =>
  layer1 (V c main_v34) (V c main_v41) (V c main_v42) (V c main_v43) (V c main_v44) ⟨(i 0).val, (i 0).isLt⟩ ⟨(i 1).val, (i 1).isLt⟩

/-- What a last column tile writes back is its block of that array. -/
theorem flushed1 (c : Dev nD) (t : Fin cfg1.N) (hf : (cfg1.win 5).flush t = true) :
    (dat1 V c).flushed 5 t = ((cfg1.win 5).blk t).view.read (Elt Ideal) (G1 V c) := by
  have h1 : t.val % 4 = 3 := (flush1_5 t).mp hf
  obtain ⟨-, -, -, -, -, -, -, -, -, -, e0, e1⟩ := idx1 t
  show (cfg1.win 5).cut (grid1.coords t) ((dat1 V c).after 5 t) = _
  rw [after1_5]
  funext jj
  obtain ⟨r, j, rfl⟩ : ∃ (r : Fin 1024) (j : Fin 256), jj = ix2 r j := ⟨jj 0, jj 1, eq_ix2 (n0 := 1024) (n1 := 256) jj⟩
  rw [View.read_apply]
  refine (out_apply V c t h1 r j).trans ?_
  unfold G1
  refine congrArg₂ (layer1 (V c main_v34) (V c main_v41) (V c main_v42) (V c main_v43) (V c main_v44)) (Fin.ext ?_) (Fin.ext ?_)
  · show t.val / 4 * 1024 + r.val = win1_5.index t (0 : Fin 2) * 1024 + 1 * r.val; rw [e0]; omega
  · show j.val = win1_5.index t (1 : Fin 2) * 256 + 1 * j.val; rw [e1]; omega

/-- Every row tile has its last column tile, where its block is written back. -/
theorem onto1 : ∀ q0 : Fin 8, ∃ t : Fin cfg1.N, (cfg1.win 5).flush t = true ∧ win1_5.index t (0 : Fin 2) = q0.val ∧ win1_5.index t (1 : Fin 2) = 0 :=
  (by decide +kernel : ∀ q0 : Fin 8, ∃ t : Fin grid1.N, win1_5.flush t = true ∧ win1_5.index t (0 : Fin 2) = q0.val ∧ win1_5.index t (1 : Fin 2) = 0)

/-- After the region the output array holds the first layer. -/
theorem final1 (c : Dev nD) (r : Fin 8192) (j : Fin 256) :
    (dat1 (F := Ideal) V c).arrAt 5 cfg1.N (ix2 r j) = layer1 (V c main_v34) (V c main_v41) (V c main_v42) (V c main_v43) (V c main_v44) r j := by
  have h := (dat1 V c).arrAt_eq_of_cover 5 (G1 V c) (flushed1 V c) (fun i => by
    have hi0 : (i 0).val < 8192 := (i 0).isLt
    have hi1 : (i 1).val < 256 := (i 1).isLt
    obtain ⟨t, hf, e0, e1⟩ := onto1 ⟨(i 0).val / 1024, by omega⟩
    refine ⟨t, hf, ?_⟩
    show i ∈ ((View.whole main_v45).slice (win1_5.rect t)).set
    rw [View.set_slice_whole, Rect.mem_set_unit]
    intro a
    match a with
    | ⟨0, _⟩ => show win1_5.index t (0 : Fin 2) * 1024 ≤ (i 0).val ∧ (i 0).val < win1_5.index t (0 : Fin 2) * 1024 + 1024; rw [e0]; show (i 0).val / 1024 * 1024 ≤ (i 0).val ∧ (i 0).val < (i 0).val / 1024 * 1024 + 1024; omega
    | ⟨1, _⟩ => show win1_5.index t (1 : Fin 2) * 256 ≤ (i 1).val ∧ (i 1).val < win1_5.index t (1 : Fin 2) * 256 + 256; rw [e1]; omega)
  rw [h]
  rfl

end Cert.KernelIdeal.HandValue

end
-- ==== Proof.KI.R2Value.lean ====
/-
  The second propagation layer's kernel over the extended reals: what its output array holds after the region.

  At every grid point the body adds, to the accumulator's entry (r, j), the sum over the 2048 columns q of the
  point's column tile of  ((A(r,q) · d_r) · d_q) · X(q, j)  — the adjacency block scaled by the row's and the
  column's factors, times the feature block: over the extended reals a narrowing to bf16 changes nothing and a
  matrix product into a zero accumulator is the plain sum.  The accumulator starts from zero at column tile 0,
  so after column tile 3 it holds the four tile sums added left to right, and the output block is that plus the
  bias entry of column j.  A block's entry sits in its array at block index times block size plus the entry's
  own coordinate, so the four tile sums are the sums over columns 0–2047, …, 6144–8191 of row i·1024 + r, and
  regrouped they are the one sum over all 8192 columns: the second layer's propagation step.  The output blocks
  at the eight points of column tile 3 tile the output array.
-/
import proofs.«173056_j36472862278098_1_alg».proof.Proof.KI.R2Frame
import proofs.«173056_j36472862278098_1_alg».proof.Proof.Spec
import proofs.«173056_j36472862278098_1_alg».proof.Proof.LibDenseLayer
import Idealize.ShloMosaic.Lib.Pipeline.Value
import Idealize.ShloMosaic.Lib.ValueLayout
import Idealize.ShloMosaic.Lib.Tactic

set_option maxRecDepth 16384

noncomputable section

namespace Cert.KernelIdeal.HandValue

open Cert.KernelIdeal.Gen Cert.KernelIdeal.Hand Cert.Spec
open Idealize.ShloMosaic Idealize.ShloMosaic.TcCoe Idealize.ShloMosaic.Tactic Idealize.ShloMosaic.ValueIdx
open Idealize.SL.Sem
open Idealize.ShloMosaic.Pipeline (Dat)

namespace R2

/-! ## What the stores found by the runs are -/

section Pieces
variable {F : FTy → Type} [FloatOps F]

/-- Every access of the body is at offset (0, 0) of its buffer. -/
theorem hz2 : (![0, 0] : Fin 2 → Nat) = fun _ => 0 := funext fun a => by fin_cases a <;> rfl

/-- At column tiles 1 and 2 the accumulator ends with its one store's payload, every load reading a whole buffer. -/
theorem sout2_B_eq (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    sout2_B_0 c i arg2 harg2 arg3 harg3 arg4 harg4 arg5 harg5 arg6 harg6 arg7 harg7 arg8 harg8 hc0 hc1 x0 x1 x2 x3 x4 xs0 = k2_pay2 x0 x1 x2 xs0 x3 := by
  unfold sout2_B_0
  rw [View.read_writes_eq_canon _ _ _ (scover2_B_0 c i arg2 harg2 arg3 harg3 arg4 harg4 arg5 harg5 arg6 harg6 arg7 harg7 arg8 harg8 hc0 hc1 x0 x1 x2 x3 x4 xs0)]
  unfold kernelRun2_B
  dsimp only
  sl_unfold_words
  rw [View.canon_unit_zero (S := S1024x16) hz2]
  simp only [View.readAt_eq_ld, harg2.read_unread, harg3.read_unread, harg4.read_unread, harg5.read_unread, harg6.read_unread, harg8.read_unread,
    View.ld_unit_zero (S := S1024x2048) hz2, View.ld_unit_zero (S := S1024x1) hz2, View.ld_unit_zero (S := S1x2048) hz2,
    View.ld_unit_zero (S := S2048x16) hz2, View.ld_unit_zero (S := S1x16) hz2, View.ld_unit_zero (S := S1024x16) hz2]

/-- At column tile 3 the accumulator ends with the same payload. -/
theorem sout2_C_eq (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    sout2_C_0 c i arg2 harg2 arg3 harg3 arg4 harg4 arg5 harg5 arg6 harg6 arg7 harg7 arg8 harg8 hc0 hc1 x0 x1 x2 x3 x4 xs0 = k2_pay2 x0 x1 x2 xs0 x3 := by
  unfold sout2_C_0
  rw [View.read_writes_eq_canon _ _ _ (scover2_C_0 c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x16) hz2]
  simp only [View.readAt_eq_ld, harg2.read_unread, harg3.read_unread, harg4.read_unread, harg5.read_unread, harg6.read_unread, harg8.read_unread,
    View.ld_unit_zero (S := S1024x2048) hz2, View.ld_unit_zero (S := S1024x1) hz2, View.ld_unit_zero (S := S1x2048) hz2,
    View.ld_unit_zero (S := S2048x16) hz2, View.ld_unit_zero (S := S1x16) hz2, View.ld_unit_zero (S := S1024x16) hz2]

/-- At column tile 3 the output block ends with the accumulator just stored, read back, plus the bias row. -/
theorem out2_C_eq (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x2048 .f32) (x1 : Vec F S1024x1 .f32) (x2 : Vec F S1x2048 .f32) (x3 : Vec F S2048x16 .f32) (x4 : Vec F S1x16 .f32) (xs0 : Vec F S1024x16 .f32) :
    out2_C_5 c i arg2 harg2 arg3 harg3 arg4 harg4 arg5 harg5 arg6 harg6 arg7 harg7 arg8 harg8 hc0 hc1 x0 x1 x2 x3 x4 xs0 = k2_pay3 (k2_pay2 x0 x1 x2 xs0 x3) x4 := by
  unfold out2_C_5
  rw [View.read_writes_eq_canon _ _ _ (cover2_C_5 c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x16) hz2, View.readCov_unit_zero (S := S1024x16) _ hz2]
  simp only [View.readAt_eq_ld, harg2.read_unread, harg3.read_unread, harg4.read_unread, harg5.read_unread, harg6.read_unread, harg8.read_unread,
    View.ld_unit_zero (S := S1024x2048) hz2, View.ld_unit_zero (S := S1024x1) hz2, View.ld_unit_zero (S := S1x2048) hz2,
    View.ld_unit_zero (S := S2048x16) hz2, View.ld_unit_zero (S := S1x16) hz2, View.ld_unit_zero (S := S1024x16) hz2]

/-- At column tile 0 the accumulator ends with the payload over the zeros stored first and read back. -/
theorem sout2_A_eq (c : Dev nD) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x16 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x2048 .f32) (x1 : Vec F S1024x1 .f32) (x2 : Vec F S1x2048 .f32) (x3 : Vec F S2048x16 .f32) (x4 : Vec F S1x16 .f32) :
    sout2_A_0 c i arg2 harg2 arg3 harg3 arg4 harg4 arg5 harg5 arg6 harg6 arg7 harg7 arg8 harg8 hc0 hc1 x0 x1 x2 x3 x4 = k2_pay2 x0 x1 x2 (k2_pay1 (F := F)) x3 := by
  unfold sout2_A_0
  rw [View.read_writes_eq_canon _ _ _ (scover2_A_0 c i arg2 harg2 arg3 harg3 arg4 harg4 arg5 harg5 arg6 harg6 arg7 harg7 arg8 harg8 hc0 hc1 x0 x1 x2 x3 x4)]
  unfold kernelRun2_A
  dsimp only
  sl_unfold_words
  rw [View.canon_cons_unit_zero (S := S1024x16) hz2, View.readCov_unit_zero (S := S1024x16) _ hz2]
  simp only [View.readAt_eq_ld, harg2.read_unread, harg3.read_unread, harg4.read_unread, harg5.read_unread, harg6.read_unread,
    View.ld_unit_zero (S := S1024x2048) hz2, View.ld_unit_zero (S := S1024x1) hz2, View.ld_unit_zero (S := S1x2048) hz2,
    View.ld_unit_zero (S := S2048x16) hz2, View.ld_unit_zero (S := S1x16) hz2, View.ld_unit_zero (S := S1024x16) hz2]

end Pieces

/-! ## The payloads at an entry, over the extended reals -/

section Payloads

/-- A column of 1024 entries repeated along 2048 columns reads, at (p, q), the column's entry p. -/
theorem colBcast2 (v : Vec Ideal S1024x1 .f32) (p : Fin 1024) (q : Fin 2048) :
    broadcastTo S1024x2048 v broadcasts_S1024x1_S1024x2048 (ix2 p q) = v (ix2 p (0 : Fin 1)) := by
  refine broadcastTo_apply v broadcasts_S1024x1_S1024x2048 (ix2 p q) (ix2 p (0 : Fin 1)) fun ax => ?_
  match ax with
  | ⟨0, _⟩ =>
    show p.val = if (1024 : ℕ) = 1 then 0 else p.val
    rw [if_neg (by decide)]
  | ⟨1, _⟩ => rfl

abbrev D2 := dot_S1024x2048_S2048x16_S1024x16_1_0_0_1_n_n

theorem D2_rank : D2.contr.rank = 1 := by decide
theorem D2_size : D2.contr.size ⟨0, by decide⟩ = 2048 := by decide
theorem D2_l0 (i : S1024x16.Idx) (q : D2.contr.Idx) : (D2.lhsIdx i q 0).val = (i 0).val := by
  simp [DotDims.lhsIdx, D2, dot_S1024x2048_S2048x16_S1024x16_1_0_0_1_n_n]; rfl
theorem D2_l1 (i : S1024x16.Idx) (q : D2.contr.Idx) : (D2.lhsIdx i q 1).val = (q ⟨0, by decide⟩).val := by
  simp [DotDims.lhsIdx, D2, dot_S1024x2048_S2048x16_S1024x16_1_0_0_1_n_n]; rfl
theorem D2_r0 (i : S1024x16.Idx) (q : D2.contr.Idx) : (D2.rhsIdx i q 0).val = (q ⟨0, by decide⟩).val := by
  simp [DotDims.rhsIdx, D2, dot_S1024x2048_S2048x16_S1024x16_1_0_0_1_n_n]; rfl
theorem D2_r1 (i : S1024x16.Idx) (q : D2.contr.Idx) : (D2.rhsIdx i q 1).val = (i 1).val := by
  simp [DotDims.rhsIdx, D2, dot_S1024x2048_S2048x16_S1024x16_1_0_0_1_n_n]; rfl

/-- The zeroing store's payload is zero at every entry. -/
theorem pay1_apply (r : Fin 1024) (j : Fin 16) : k2_pay1 (F := Ideal) (ix2 r j) = 0 := by
  unfold k2_pay1
  rw [shapeCast_self]
  exact Ideal.ofBits_zero_f32

/-- The accumulating store's payload at entry (r, j): the accumulator's entry plus the sum over the tile's 2048
    columns of the scaled adjacency entry times the feature entry. -/
theorem pay2_apply (x0 : Vec Ideal S1024x2048 .f32) (x1 : Vec Ideal S1024x1 .f32) (x2 : Vec Ideal S1x2048 .f32)
    (acc : Vec Ideal S1024x16 .f32) (x3 : Vec Ideal S2048x16 .f32) (r : Fin 1024) (j : Fin 16) :
    k2_pay2 (F := Ideal) x0 x1 x2 acc x3 (ix2 r j)
      = acc (ix2 r j) + ∑ q : Fin 2048, ((x0 (ix2 r q) * x1 (ix2 r (0 : Fin 1))) * x2 (ix2 (0 : Fin 1) q)) * x3 (ix2 q j) := by
  unfold k2_pay2
  simp only [shapeCast_self]
  change acc (ix2 r j) + _ = _
  refine congrArg (acc (ix2 r j) + ·) ?_
  refine (Cert.DenseLayer.matmul_rows_cols D2 D2_rank D2_size D2_l0 D2_l1 D2_r0 D2_r1 none _ _ r j).trans ?_
  refine Finset.sum_congr rfl fun q _ => ?_
  change ((x0 (ix2 r q) * broadcastTo S1024x2048 x1 broadcasts_S1024x1_S1024x2048 (ix2 r q))
      * broadcastTo S1024x2048 x2 broadcasts_S1x2048_S1024x2048 (ix2 r q)) * x3 (ix2 q j) = _
  rw [colBcast2, broadcastTo_1b_ab_apply]

/-- The output store's payload at entry (r, j): the accumulator's entry plus the bias row's entry j. -/
theorem pay3_apply (acc : Vec Ideal S1024x16 .f32) (b : Vec Ideal S1x16 .f32) (r : Fin 1024) (j : Fin 16) :
    k2_pay3 (F := Ideal) acc b (ix2 r j) = acc (ix2 r j) + b (ix2 (0 : Fin 1) j) := by
  unfold k2_pay3
  simp only [shapeCast_self]
  change acc (ix2 r j) + broadcastTo S1024x16 b broadcasts_S1x16_S1024x16 (ix2 r j) = _
  rw [broadcastTo_1b_ab_apply]

end Payloads

/-! ## A block's entry in its array -/

section Blocks

/-- The 32 points are walked row tile by row tile: point `t` is row tile `t / 4`, column tile `t % 4`.  Each
    window's block index at point `t`, from its index map. -/
theorem idx2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem idx2_1 : ∀ t : Fin cfg2.N, win2_1.index t 0 = t.val / 4 ∧ win2_1.index t 1 = 0 :=
  (by decide +kernel : ∀ t : Fin grid2.N, win2_1.index t 0 = t.val / 4 ∧ win2_1.index t 1 = 0)
theorem idx2_2 : ∀ t : Fin cfg2.N, win2_2.index t 0 = 0 ∧ win2_2.index t 1 = t.val % 4 :=
  (by decide +kernel : ∀ t : Fin grid2.N, win2_2.index t 0 = 0 ∧ win2_2.index t 1 = t.val % 4)
theorem idx2_3 : ∀ t : Fin cfg2.N, win2_3.index t 0 = t.val % 4 ∧ win2_3.index t 1 = 0 :=
  (by decide +kernel : ∀ t : Fin grid2.N, win2_3.index t 0 = t.val % 4 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)
theorem idx2_5 : ∀ t : Fin cfg2.N, win2_5.index t 0 = t.val / 4 ∧ win2_5.index t 1 = 0 :=
  (by decide +kernel : ∀ t : Fin grid2.N, win2_5.index t 0 = t.val / 4 ∧ win2_5.index t 1 = 0)

/-- Row `r` of the row tile of point `t`, as a row of the whole matrix. -/
def rowAt (t : Fin cfg2.N) (r : Fin 1024) : Fin 8192 :=
  ⟨t.val / 4 * 1024 + r.val, by have h := t.isLt; have hN : cfg2.N = 32 := N_2; have := r.isLt; omega⟩
/-- The column tile of point `t`. -/
def tileAt (t : Fin cfg2.N) : Fin 4 := ⟨t.val % 4, Nat.mod_lt _ (by decide)⟩

variable (V : (c : Dev nD) → (b : Ref sig .tc) → Buf (Elt Ideal) ((c : Thread nD τ).loc b))

/-- The adjacency block's entry (r, q) at point `t` is the matrix's entry at the tile's row and column. -/
theorem blk2_0 (c : Dev nD) (t : Fin cfg2.N) (r : Fin 1024) (q : Fin 2048) :
    (iblk2 V c 0 t : Vec Ideal S1024x2048 .f32) (ix2 r q) = V c main_v34 (ix2 (rowAt t r) (col (tileAt t) q)) := by
  unfold iblk2
  change V c main_v34 _ = V c main_v34 _
  refine congrArg (V c main_v34) (funext fun a => Fin.ext ?_)
  match a with
  | ⟨0, _⟩ => change win2_0.index t 0 * 1024 + 1 * r.val = t.val / 4 * 1024 + r.val; rw [(idx2_0 t).1]; omega
  | ⟨1, _⟩ => change win2_0.index t 1 * 2048 + 1 * q.val = t.val % 4 * 2048 + q.val; rw [(idx2_0 t).2]; omega

/-- The row scalings' block entry (r, 0) is the scaling of the tile's row. -/
theorem blk2_1 (c : Dev nD) (t : Fin cfg2.N) (r : Fin 1024) :
    (iblk2 V c 1 t : Vec Ideal S1024x1 .f32) (ix2 r (0 : Fin 1)) = V c main_v41 (ix2 (rowAt t r) (0 : Fin 1)) := by
  unfold iblk2
  change V c main_v41 _ = V c main_v41 _
  refine congrArg (V c main_v41) (funext fun a => Fin.ext ?_)
  match a with
  | ⟨0, _⟩ => change win2_1.index t 0 * 1024 + 1 * r.val = t.val / 4 * 1024 + r.val; rw [(idx2_1 t).1]; omega
  | ⟨1, _⟩ => change win2_1.index t 1 * 1 + 1 * 0 = 0; rw [(idx2_1 t).2]

/-- The column scalings' block entry (0, q) is the scaling of the tile's column. -/
theorem blk2_2 (c : Dev nD) (t : Fin cfg2.N) (q : Fin 2048) :
    (iblk2 V c 2 t : Vec Ideal S1x2048 .f32) (ix2 (0 : Fin 1) q) = V c main_v42 (ix2 (0 : Fin 1) (col (tileAt t) q)) := by
  unfold iblk2
  change V c main_v42 _ = V c main_v42 _
  refine congrArg (V c main_v42) (funext fun a => Fin.ext ?_)
  match a with
  | ⟨0, _⟩ => change win2_2.index t 0 * 1 + 1 * 0 = 0; rw [(idx2_2 t).1]
  | ⟨1, _⟩ => change win2_2.index t 1 * 2048 + 1 * q.val = t.val % 4 * 2048 + q.val; rw [(idx2_2 t).2]; omega

/-- The feature block's entry (q, j) is the features' entry at the tile's column as a row. -/
theorem blk2_3 (c : Dev nD) (t : Fin cfg2.N) (q : Fin 2048) (j : Fin 16) :
    (iblk2 V c 3 t : Vec Ideal S2048x16 .f32) (ix2 q j) = V c main_v46 (ix2 (col (tileAt t) q) j) := by
  unfold iblk2
  change V c main_v46 _ = V c main_v46 _
  refine congrArg (V c main_v46) (funext fun a => Fin.ext ?_)
  match a with
  | ⟨0, _⟩ => change win2_3.index t 0 * 2048 + 1 * q.val = t.val % 4 * 2048 + q.val; rw [(idx2_3 t).1]; omega
  | ⟨1, _⟩ => change win2_3.index t 1 * 16 + 1 * j.val = j.val; rw [(idx2_3 t).2]; omega

/-- The bias block is the whole bias row. -/
theorem blk2_4 (c : Dev nD) (t : Fin cfg2.N) (j : Fin 16) :
    (iblk2 V c 4 t : Vec Ideal S1x16 .f32) (ix2 (0 : Fin 1) j) = V c main_v47 (ix2 (0 : Fin 1) j) := by
  unfold iblk2
  change V c main_v47 _ = V c main_v47 _
  refine congrArg (V c main_v47) (funext fun a => Fin.ext ?_)
  match a with
  | ⟨0, _⟩ => change win2_4.index t 0 * 1 + 1 * 0 = 0; rw [(idx2_4 t).1]
  | ⟨1, _⟩ => change win2_4.index t 1 * 16 + 1 * j.val = j.val; rw [(idx2_4 t).2]; omega

end Blocks

/-! ## The accumulator after every point -/

section Invariant

variable (V : (c : Dev nD) → (b : Ref sig .tc) → Buf (Elt Ideal) ((c : Thread nD τ).loc b))

/-- The five input blocks at point `t`, at their literal shapes. -/
abbrev b2_0 (c : Dev nD) (t : Fin cfg2.N) : Vec Ideal S1024x2048 .f32 := iblk2 V c 0 t
abbrev b2_1 (c : Dev nD) (t : Fin cfg2.N) : Vec Ideal S1024x1 .f32 := iblk2 V c 1 t
abbrev b2_2 (c : Dev nD) (t : Fin cfg2.N) : Vec Ideal S1x2048 .f32 := iblk2 V c 2 t
abbrev b2_3 (c : Dev nD) (t : Fin cfg2.N) : Vec Ideal S2048x16 .f32 := iblk2 V c 3 t

/-- One summand of the propagation step at row `R` and output column `j`: the scaled adjacency entry at
    column `κ` times the feature entry at row `κ`. -/
abbrev summand (c : Dev nD) (R : Fin 8192) (j : Fin 16) (κ : Fin 8192) : EReal :=
  scaled (V c main_v34) (V c main_v41) (V c main_v42) R κ * (V c main_v46 : Mat 8192 16) (ix2 κ j)

/-- What point `t` adds to the accumulator's entry (r, j): the summands over the point's column tile. -/
def T2 (c : Dev nD) (t : Fin cfg2.N) (r : Fin 1024) (j : Fin 16) : EReal :=
  tile (summand V c (rowAt t r) j) (tileAt t)

/-- The block form of that sum, as the payload states it, is the tile sum. -/
theorem term_eq (c : Dev nD) (t : Fin cfg2.N) (r : Fin 1024) (j : Fin 16) :
    (∑ q : Fin 2048, ((b2_0 V c t (ix2 r q) * b2_1 V c t (ix2 r (0 : Fin 1))) * b2_2 V c t (ix2 (0 : Fin 1) q)) * b2_3 V c t (ix2 q j))
      = T2 V c t r j := by
  unfold T2 tile summand scaled
  refine Finset.sum_congr rfl fun q _ => ?_
  rw [show b2_0 V c t (ix2 r q) = _ from blk2_0 V c t r q, show b2_1 V c t (ix2 r (0 : Fin 1)) = _ from blk2_1 V c t r,
    show b2_2 V c t (ix2 (0 : Fin 1) q) = _ from blk2_2 V c t q, show b2_3 V c t (ix2 q j) = _ from blk2_3 V c t q j]

/-- The accumulator's entry (r, j) after point `n`, in closed form: at column tile 0 zero plus the point's
    term, afterwards the point before's value plus the point's term. -/
def acc2 (c : Dev nD) (r : Fin 1024) (j : Fin 16) : (n : ℕ) → n < cfg2.N → EReal
  | 0, h => 0 + T2 V c ⟨0, h⟩ r j
  | n + 1, h => if (n + 1) % 4 = 0 then 0 + T2 V c ⟨n + 1, h⟩ r j
      else acc2 c r j n (Nat.lt_of_succ_lt h) + T2 V c ⟨n + 1, h⟩ r j

theorem acc2_reset (c : Dev nD) (r : Fin 1024) (j : Fin 16) (n : ℕ) (h : n < cfg2.N) (h0 : n % 4 = 0) :
    acc2 V c r j n h = 0 + T2 V c ⟨n, h⟩ r j := by
  cases n with
  | zero => rfl
  | succ n => exact if_pos h0

theorem acc2_step (c : Dev nD) (r : Fin 1024) (j : Fin 16) (n : ℕ) (h : n + 1 < cfg2.N) (h0 : ¬(n + 1) % 4 = 0) :
    acc2 V c r j (n + 1) h = acc2 V c r j n (Nat.lt_of_succ_lt h) + T2 V c ⟨n + 1, h⟩ r j := if_neg h0

/-- What the runs leave in the accumulator is that closed form, by induction on the point. -/
theorem scratch_eq (c : Dev nD) (r : Fin 1024) (j : Fin 16) :
    ∀ (n : ℕ) (h : n < cfg2.N), (outsAt2 V c n h).2 (ix2 r j) = acc2 V c r j n h
  | 0, h => by
    have h0 : (⟨0, h⟩ : Fin cfg2.N).val % 4 = 0 := rfl
    have h1 : ¬(⟨0, h⟩ : Fin cfg2.N).val % 4 = 3 := by show ¬0 % 4 = 3; decide
    refine (congrFun (congrArg Prod.snd (outsAt2_A V c ⟨0, h⟩ h0 h1)) (ix2 r j)).trans ?_
    dsimp only
    refine (congrFun (sout2_A_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) ((hcond2_0 ⟨0, h⟩).mpr h0) (fun hh => h1 ((hcond2_1 ⟨0, h⟩).mp hh)) (iblk2 V c 0 ⟨0, h⟩) (iblk2 V c 1 ⟨0, h⟩) (iblk2 V c 2 ⟨0, h⟩) (iblk2 V c 3 ⟨0, h⟩) (iblk2 V c 4 ⟨0, h⟩)) (ix2 r j)).trans ?_
    refine (pay2_apply _ _ _ _ _ r j).trans ?_
    rw [pay1_apply, term_eq]
    rfl
  | n + 1, h => by
    by_cases h0 : (⟨n + 1, h⟩ : Fin cfg2.N).val % 4 = 0
    · have h1 : ¬(⟨n + 1, h⟩ : Fin cfg2.N).val % 4 = 3 := by dsimp only at h0 ⊢; omega
      refine (congrFun (congrArg Prod.snd (outsAt2_A V c ⟨n + 1, h⟩ h0 h1)) (ix2 r j)).trans ?_
      dsimp only
      refine (congrFun (sout2_A_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) ((hcond2_0 ⟨n + 1, h⟩).mpr h0) (fun hh => h1 ((hcond2_1 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)) (ix2 r j)).trans ?_
      refine (pay2_apply _ _ _ _ _ r j).trans ?_
      rw [pay1_apply, term_eq]
      exact (acc2_reset V c r j (n + 1) h h0).symm
    · by_cases h1 : (⟨n + 1, h⟩ : Fin cfg2.N).val % 4 = 3
      · refine (congrFun (congrArg Prod.snd (outsAt2_C V c ⟨n + 1, h⟩ h0 h1)) (ix2 r j)).trans ?_
        dsimp only
        refine (congrFun (sout2_C_eq (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) scM2_0 (Memref.isWhole_whole _) (fun hh => h0 ((hcond2_0 (⟨n + 1, h⟩ : Fin cfg2.N)).mp hh)) ((hcond2_1 (⟨n + 1, h⟩ : Fin cfg2.N)).mpr h1) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2) (ix2 r j)).trans ?_
        refine (pay2_apply _ _ _ _ _ r j).trans ?_
        rw [term_eq]
        change (outsAt2 V c n _).2 (ix2 r j) + _ = _
        rw [scratch_eq c r j n (Nat.lt_of_succ_lt h)]
        exact (acc2_step V c r j n h h0).symm
      · refine (congrFun (congrArg Prod.snd (outsAt2_B V c ⟨n + 1, h⟩ h0 h1)) (ix2 r j)).trans ?_
        dsimp only
        refine (congrFun (sout2_B_eq (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) scM2_0 (Memref.isWhole_whole _) (fun hh => h0 ((hcond2_0 (⟨n + 1, h⟩ : Fin cfg2.N)).mp hh)) (fun hh => h1 ((hcond2_1 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2) (ix2 r j)).trans ?_
        refine (pay2_apply _ _ _ _ _ r j).trans ?_
        rw [term_eq]
        change (outsAt2 V c n _).2 (ix2 r j) + _ = _
        rw [scratch_eq c r j n (Nat.lt_of_succ_lt h)]
        exact (acc2_step V c r j n h h0).symm

end Invariant

/-! ## The output block at column tile 3, and the output array -/

section Final

variable (V : (c : Dev nD) → (b : Ref sig .tc) → Buf (Elt Ideal) ((c : Thread nD τ).loc b))

/-- A point's term, named by the matrix row and the column tile it works on. -/
theorem T2_at (c : Dev nD) (r : Fin 1024) (j : Fin 16) (m : ℕ) (hm : m < cfg2.N) (R : Fin 8192) (k : Fin 4)
    (hR : m / 4 * 1024 + r.val = R.val) (hk : m % 4 = k.val) :
    T2 V c ⟨m, hm⟩ r j = tile (summand V c R j) k := by
  unfold T2
  have e1 : rowAt ⟨m, hm⟩ r = R := Fin.ext hR
  have e2 : tileAt ⟨m, hm⟩ = k := Fin.ext hk
  rw [e1, e2]

/-- After the fourth column tile of a row tile the accumulator's entry is the whole sum over the 8192 columns: the
    four tile sums, added left to right from zero, regrouped. -/
theorem acc2_four (c : Dev nD) (r : Fin 1024) (j : Fin 16) (n : ℕ) (h3 : n + 3 < cfg2.N) (hn : n % 4 = 0) (R : Fin 8192)
    (hR : n / 4 * 1024 + r.val = R.val) :
    acc2 V c r j (n + 3) h3 = ∑ κ : Fin 8192, summand V c R j κ := by
  have e3 : acc2 V c r j (n + 3) h3 = acc2 V c r j (n + 2) (by omega) + T2 V c ⟨n + 3, h3⟩ r j :=
    acc2_step V c r j (n + 2) h3 (by omega)
  have e2 : acc2 V c r j (n + 2) (by omega) = acc2 V c r j (n + 1) (by omega) + T2 V c ⟨n + 2, by omega⟩ r j :=
    acc2_step V c r j (n + 1) (by omega) (by omega)
  have e1 : acc2 V c r j (n + 1) (by omega) = acc2 V c r j n (by omega) + T2 V c ⟨n + 1, by omega⟩ r j :=
    acc2_step V c r j n (by omega) (by omega)
  have e0 : acc2 V c r j n (by omega) = 0 + T2 V c ⟨n, by omega⟩ r j := acc2_reset V c r j n (by omega) hn
  rw [e3, e2, e1, e0, zero_add,
    T2_at V c r j n (by omega) R 0 (by omega) (by simpa using hn),
    T2_at V c r j (n + 1) (by omega) R 1 (by omega) (by show (n + 1) % 4 = 1; omega),
    T2_at V c r j (n + 2) (by omega) R 2 (by omega) (by show (n + 2) % 4 = 2; omega),
    T2_at V c r j (n + 3) h3 R 3 (by omega) (by show (n + 3) % 4 = 3; omega)]
  exact sum_tiles _

/-- At a point of column tile 3 the output block's entry is the accumulator's entry there plus the bias entry. -/
theorem out_acc (c : Dev nD) (t : Fin cfg2.N) (h0 : ¬t.val % 4 = 0) (h1 : t.val % 4 = 3) (r : Fin 1024) (j : Fin 16) :
    (outsAt2 V c t.val t.isLt).1 (ix2 r j)
      = (outsAt2 V c t.val t.isLt).2 (ix2 r j) + (V c main_v47 : Mat 1 16) (ix2 (0 : Fin 1) j) := by
  have e : (outsAt2 V c t.val t.isLt).2 (ix2 r j)
      = k2_pay2 (F := Ideal) (iblk2 V c 0 t) (iblk2 V c 1 t) (iblk2 V c 2 t) (outsAt2 V c (t.val - 1) (Nat.lt_of_le_of_lt (Nat.sub_le _ _) t.isLt)).2 (iblk2 V c 3 t) (ix2 r j) := by
    refine (congrFun (congrArg Prod.snd (outsAt2_C V c t h0 h1)) (ix2 r j)).trans ?_
    dsimp only
    exact congrFun (sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) (ix2 r j)
  refine (congrFun (congrArg Prod.fst (outsAt2_C V c t h0 h1)) (ix2 r j)).trans ?_
  dsimp only
  refine (congrFun (out2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) (ix2 r j)).trans ?_
  refine (pay3_apply _ _ r j).trans ?_
  rw [blk2_4, e]

/-- At a point of column tile 3 the accumulator's entry is the whole sum at the tile's row. -/
theorem acc2_last (c : Dev nD) (r : Fin 1024) (j : Fin 16) (t : Fin cfg2.N) (h1 : t.val % 4 = 3) :
    acc2 V c r j t.val t.isLt = ∑ κ : Fin 8192, summand V c (rowAt t r) j κ := by
  obtain ⟨tv, ht⟩ := t
  dsimp only at h1
  obtain ⟨n, rfl⟩ : ∃ n, tv = n + 3 := ⟨tv - 3, by omega⟩
  exact acc2_four V c r j n ht (by omega) (rowAt ⟨n + 3, ht⟩ r)
    (by show n / 4 * 1024 + r.val = (n + 3) / 4 * 1024 + r.val; omega)

/-- The output block's entry (r, j) at a point of column tile 3: the second layer's propagation step at the
    tile's row. -/
theorem out_entry (c : Dev nD) (t : Fin cfg2.N) (h1 : t.val % 4 = 3) (r : Fin 1024) (j : Fin 16) :
    (outsAt2 V c t.val t.isLt).1 (ix2 r j)
      = layer2 (V c main_v34) (V c main_v41) (V c main_v42) (V c main_v46) (V c main_v47) (rowAt t r) j := by
  rw [out_acc V c t (by omega) h1 r j, scratch_eq V c r j t.val t.isLt, acc2_last V c r j t h1]
  rfl

end Final

/-! ## From the blocks to the array -/

section Array

variable (V : (c : Dev nD) → (b : Ref sig .tc) → Buf (Elt Ideal) ((c : Thread nD τ).loc b))

/-- The second layer's output, entry by entry, from the arrays the region finds. -/
def G2 (c : Dev nD) : S8192x16.Idx → Elt Ideal .f32 := fun i =>
  layer2 (V c main_v34) (V c main_v41) (V c main_v42) (V c main_v46) (V c main_v47) (i 0) (i 1)

/-- What a point of column tile 3 writes back is its block of that array: block entry (r, j) sits at row
    (row tile) · 1024 + r, column j. -/
theorem flushed2_eq (c : Dev nD) (t : Fin cfg2.N) (hf : (cfg2.win 5).flush t = true) :
    (dat2 V c).flushed 5 t = ((cfg2.win 5).blk t).view.read (Elt Ideal) (G2 V c) := by
  have h3 : t.val % 4 = 3 := (flush2_5 t).mp hf
  show (cfg2.win 5).cut (grid2.coords t) ((dat2 V c).after 5 t) = _
  rw [after2_5]
  refine funext fun (y : S1024x16.Idx) => ?_
  obtain ⟨r, j, rfl⟩ : ∃ (r : Fin 1024) (j : Fin 16), y = ix2 r j := ⟨y 0, y 1, eq_ix2 y⟩
  change (outsAt2 V c t.val t.isLt).1 (ix2 r j) = G2 V c (((cfg2.win 5).blk t).view.emb (ix2 r j))
  rw [out_entry V c t h3 r j]
  unfold G2
  have e : ((cfg2.win 5).blk t).view.emb (ix2 r j) = ix2 (rowAt t r) j := by
    funext a; apply Fin.ext
    match a with
    | ⟨0, _⟩ => change win2_5.index t 0 * 1024 + 1 * r.val = t.val / 4 * 1024 + r.val; rw [(idx2_5 t).1]; omega
    | ⟨1, _⟩ => change win2_5.index t 1 * 16 + 1 * j.val = j.val; rw [(idx2_5 t).2]; omega
  rw [e]

/-- An entry of the output array is in point `t`'s block iff each coordinate is in the block's range. -/
theorem mem_blk2_5 (t : Fin cfg2.N) (i : S8192x16.Idx) :
    i ∈ ((cfg2.win 5).blk t).view.set ↔ ∀ a : Fin 2, win2_5.index t a * S1024x16.size a ≤ (i a).val
      ∧ (i a).val < win2_5.index t a * S1024x16.size a + S1024x16.size a := by
  show i ∈ ((View.whole main_v48).slice (win2_5.rect t)).set ↔ _
  rw [View.set_slice_whole, Rect.mem_set_unit]
  exact Iff.rfl

/-- Every entry of the output array is in the block written back at column tile 3 of its row tile. -/
theorem cover2_5 (i : S8192x16.Idx) :
    ∃ t : Fin cfg2.N, (cfg2.win 5).flush t = true ∧ i ∈ ((cfg2.win 5).blk t).view.set := by
  have hi0 : (i 0).val < 8192 := (i 0).isLt
  have hi1 : (i 1).val < 16 := (i 1).isLt
  have hN : cfg2.N = 32 := N_2
  have ht : (i 0).val / 1024 * 4 + 3 < cfg2.N := by omega
  refine ⟨⟨(i 0).val / 1024 * 4 + 3, ht⟩, (flush2_5 _).mpr (by show ((i 0).val / 1024 * 4 + 3) % 4 = 3; omega), ?_⟩
  rw [mem_blk2_5]
  obtain ⟨e0, e1⟩ := idx2_5 ⟨(i 0).val / 1024 * 4 + 3, ht⟩
  intro a
  match a with
  | ⟨0, _⟩ =>
    show win2_5.index ⟨(i 0).val / 1024 * 4 + 3, ht⟩ 0 * 1024 ≤ (i 0).val
      ∧ (i 0).val < win2_5.index ⟨(i 0).val / 1024 * 4 + 3, ht⟩ 0 * 1024 + 1024
    rw [e0]
    show ((i 0).val / 1024 * 4 + 3) / 4 * 1024 ≤ (i 0).val ∧ (i 0).val < ((i 0).val / 1024 * 4 + 3) / 4 * 1024 + 1024
    omega
  | ⟨1, _⟩ =>
    show win2_5.index ⟨(i 0).val / 1024 * 4 + 3, ht⟩ 1 * 16 ≤ (i 1).val
      ∧ (i 1).val < win2_5.index ⟨(i 0).val / 1024 * 4 + 3, ht⟩ 1 * 16 + 16
    rw [e1]
    omega

/-- After the region the output array holds the second layer's propagation step, entry by entry. -/
theorem final (c : Dev nD) (r : Fin 8192) (j : Fin 16) :
    (dat2 (F := Ideal) V c).arrAt 5 cfg2.N (ix2 r j)
      = Spec.layer2 (V c main_v34) (V c main_v41) (V c main_v42) (V c main_v46) (V c main_v47) r j :=
  congrFun ((dat2 V c).arrAt_eq_of_cover 5 (G2 V c) (flushed2_eq V c) (cover2_5)) (ix2 r j)

end Array

end R2

/-- After the second layer's region the output array holds, at every entry (r, j), the propagation step of the
    arrays the region was entered with: the sum over all 8192 columns κ of the scaled adjacency entry (r, κ) times
    the feature entry (κ, j), plus the bias entry j. -/
theorem final2 (V : (c : Dev nD) → (b : Ref sig .tc) → Buf (Elt Ideal) ((c : Thread nD τ).loc b)) (c : Dev nD)
    (r : Fin 8192) (j : Fin 16) :
    (dat2 (F := Ideal) V c).arrAt 5 cfg2.N (ix2 r j)
      = Spec.layer2 (V c main_v34) (V c main_v41) (V c main_v42) (V c main_v46) (V c main_v47) r j :=
  R2.final V c r j

end Cert.KernelIdeal.HandValue

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibColRow.lean ====
/-
  A column `[a, 1]` cast to a row `[1, a]`, read at an index given by coordinates: both shapes list the same `a`
  entries in the same row-major order, so the row's entry `i` is the column's entry `i`, whatever the unit coordinates.
  An instance of the library's general lemma (a shape cast reads the operand at the index with the same row-major
  position) with the coordinates' arithmetic discharged.
-/
import Idealize.ShloMosaic.Lib.Pipeline.Value
import Idealize.ShloMosaic.Lib.ValueIdx

namespace Cert.ColRow

open Idealize.ShloMosaic Idealize.ShloMosaic.ValueIdx

variable {α : Type}

/-- A column `[a, 1]` cast to a row `[1, a]` reads, at `(u, i)`, the column at `(i, u')`: the row-major position of
    `(u, i)` in `[1, a]` is `0 · a + i`, that of `(i, u')` in `[a, 1]` is `i · 1 + 0`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.mul_one, Nat.add_zero, Nat.zero_mul, Nat.zero_add])

end Cert.ColRow
-- ==== Proof.KI.HostMid.lean ====
/-
  The host lines between the kernel's three regions, read at an index over the extended reals.

  After the first region has left the degrees in a column, the host turns each degree `d` into `d ^ (-1/2)` where
  `d > 0` and `0` elsewhere (a comparison against zero, a power, a choice), lays the same column out as a row,
  multiplies the input features by the first weight matrix and lays the first bias out as a row.  After the second
  region it multiplies that region's output by the second weight matrix and lays the second bias out as a row.

  Each array a later region reads is given here entry by entry, as a function of the program's arguments and of what
  the earlier regions left in their output arrays; the adjacency matrix is untouched by all of these lines.
-/
import proofs.«173056_j36472862278098_1_alg».proof.Proof.Gen.KernelIdeal.Regions
import proofs.«173056_j36472862278098_1_alg».proof.Proof.Spec
import proofs.«173056_j36472862278098_1_alg».proof.Proof.LibSageLayer
import proofs.«173056_j36472862278098_1_alg».proof.Proof.LibColRow

noncomputable section

namespace Cert.KernelIdeal.HostSide

open Cert.KernelIdeal Cert.KernelIdeal.Gen Cert.Spec
open Idealize.ShloMosaic Idealize.ShloMosaic.TcCoe Idealize.ShloMosaic.ValueIdx Idealize.SL.Sem Idealize.ShloMosaic.StableHlo

/-! ## The inverse square roots of the degrees -/

/-- The column of inverse square roots the host forms from a column of degrees: the comparison against the zero
    splat, the power with the splat of `-0.5`, and the choice between the power and zero. -/
def dinvCol (d : FVec Ideal S8192x1 .f32) : FVec Ideal S8192x1 .f32 :=
  select
    (cmpf .ogt d (broadcastInDim S8192x1 ![] bcast_S_S8192x1 (constant (F := Ideal) S_ .f32 0x00000000#32)))
    (Host.powf d (broadcastInDim S8192x1 ![] bcast_S_S8192x1 (constant (F := Ideal) S_ .f32 0xBF000000#32)))
    (broadcastInDim S8192x1 ![] bcast_S_S8192x1 (constant (F := Ideal) S_ .f32 0x00000000#32))

/-- Entry by entry the column is `Spec.dinv` of the degree: every operation acts on one entry, and a splat reads
    its word everywhere. -/
theorem dinvCol_apply (d : FVec Ideal S8192x1 .f32) (i : S8192x1.Idx) : dinvCol d i = Spec.dinv (d i) := rfl

/-- Entry `(r, j)` of a matrix product: row `r` of the left factor against column `j` of the right one. -/
def matProd {A K B : ℕ} (L : Spec.Mat A K) (R : Spec.Mat K B) (r : Fin A) (j : Fin B) : EReal :=
  ∑ q : Fin K, L (ix2 r q) * R (ix2 q j)

theorem matProd_def {A K B : ℕ} (L : Spec.Mat A K) (R : Spec.Mat K B) (r : Fin A) (j : Fin B) :
    matProd L R r j = ∑ q : Fin K, L (ix2 r q) * R (ix2 q j) := rfl

/-- A vector `[n]` laid out as a row `[1, n]` reads, at `(u, j)`, the vector's entry `j`: both list the same `n`
    entries in the same order. -/
theorem row_of_vec_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

variable (m : (ℓ : Loc nD τ sig) → Buf (Elt Ideal) ℓ) (outs : Outs (F := Ideal))

/-- After the first region the degree array holds what that region left there. -/
theorem V2_v35 (c : Dev nD) : V2 m outs c main_v35 = outs 2 main_v35 c := by
  dsimp only [V2]
  exact Function.update_self _ _ _

set_option maxRecDepth 8192 in
/-- The scaling column after the choice is `dinvCol` of the degrees. -/
theorem V4_v41 (c : Dev nD) :
    (V4 m outs c main_v41 : S8192x1.Idx → EReal) = dinvCol (outs 2 main_v35 c) := by
  have e : (V4 m outs c main_v41 : S8192x1.Idx → EReal) = dinvCol (V2 m outs c main_v35) := by
    dsimp only [V4, V3]
    generalize V2 m outs c = W
    unfold dinvCol
    after_results
    rfl
  rw [e, V2_v35]

/-- The scaling column when the second region starts: entry `r` is `dinv` of the degree of row `r`. -/
theorem V5_v41_apply (c : Dev nD) (r : Fin 8192) :
    (V5 m outs c main_v41 : S8192x1.Idx → EReal) (ix2 r 0)
      = Spec.dinv ((outs 2 main_v35 c : S8192x1.Idx → EReal) (ix2 r 0)) := by
  rw [V5_of m outs c main_v41 (by decide), V4_v41, dinvCol_apply]

/-- The scaling row when the second region starts: the same numbers laid out along a row, so entry `k` is `dinv`
    of the degree of row `k` (a column and a row of equal length list their entries in the same order). -/
theorem V5_v42_apply (c : Dev nD) (k : Fin 8192) :
    (V5 m outs c main_v42 : S1x8192.Idx → EReal) (ix2 0 k)
      = Spec.dinv ((outs 2 main_v35 c : S8192x1.Idx → EReal) (ix2 k 0)) := by
  have e : (V5 m outs c main_v42 : S1x8192.Idx → EReal)
      = shapeCast S1x8192 (V4 m outs c main_v41 : S8192x1.Idx → EReal) shapeCasts_S8192x1_S1x8192 := by
    dsimp only [V5]
    generalize V4 m outs c = W
    after_results
    rfl
  rw [e, Cert.ColRow.shapeCast_a1_1a_apply _ _ 0 k 0, V4_v41, dinvCol_apply]

/-! ## The two feature products and the bias rows -/

theorem dot1_l0 (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide),
    dif_pos (show (0 : Fin S8192x128.rank) ∈ dot_S8192x128_S128x256_S8192x256_1_0_0_1_n_n.lhsNonContracting by decide)]
  rfl
theorem dot1_r1 (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide),
    dif_pos (show (1 : Fin S128x256.rank) ∈ dot_S8192x128_S128x256_S8192x256_1_0_0_1_n_n.rhsNonContracting by decide)]
  rfl
theorem dot2_l0 (i : S8192x16.Idx) (q : dot_S8192x256_S256x16_S8192x16_1_0_0_1_n_n.contr.Idx) :
    (dot_S8192x256_S256x16_S8192x16_1_0_0_1_n_n.lhsIdx i q 0).val = (i 0).val := by
  unfold DotDims.lhsIdx
  rw [dif_neg (show ¬(0 : Fin S8192x256.rank) ∈ dot_S8192x256_S256x16_S8192x16_1_0_0_1_n_n.lhsBatch by decide),
    dif_pos (show (0 : Fin S8192x256.rank) ∈ dot_S8192x256_S256x16_S8192x16_1_0_0_1_n_n.lhsNonContracting by decide)]
  rfl
theorem dot2_r1 (i : S8192x16.Idx) (q : dot_S8192x256_S256x16_S8192x16_1_0_0_1_n_n.contr.Idx) :
    (dot_S8192x256_S256x16_S8192x16_1_0_0_1_n_n.rhsIdx i q 1).val = (i 1).val := by
  unfold DotDims.rhsIdx
  rw [dif_neg (show ¬(1 : Fin S256x16.rank) ∈ dot_S8192x256_S256x16_S8192x16_1_0_0_1_n_n.rhsBatch by decide),
    dif_pos (show (1 : Fin S256x16.rank) ∈ dot_S8192x256_S256x16_S8192x16_1_0_0_1_n_n.rhsNonContracting by decide)]
  rfl

/-- The features times the first weight matrix: entry `(r, j)` is the sum over the 128 input features. -/
theorem V5_v43_apply (c : Dev nD) (r : Fin 8192) (j : Fin 256) :
    (V5 m outs c main_v43 : S8192x256.Idx → EReal) (ix2 r j)
      = matProd (m ((c : Thread nD τ).loc main_arg0)) (m ((c : Thread nD τ).loc main_arg3)) r j := by
  have e : (V5 m outs c main_v43 : S8192x256.Idx → EReal)
      = Host.dotGeneral (F := Ideal) (φ₁ := .f32) (φ₂ := .f32) dot_S8192x128_S128x256_S8192x256_1_0_0_1_n_n none
          (V4 m outs c main_arg0 : FVec Ideal S8192x128 .f32) (V4 m outs c main_arg3 : FVec Ideal S128x256 .f32) := by
    dsimp only [V5]
    generalize V4 m outs c = W
    after_results
  have a0 : V4 m outs c main_arg0 = m ((c : Thread nD τ).loc main_arg0) :=
    (V4_of m outs c main_arg0 (by decide)).trans <| (V3_of m outs c main_arg0 (by decide)).trans <|
      (V2_of m outs c main_arg0 (by decide)).trans <| (V1_of m c main_arg0 (by decide)).trans rfl
  have a3 : V4 m outs c main_arg3 = m ((c : Thread nD τ).loc main_arg3) :=
    (V4_of m outs c main_arg3 (by decide)).trans <| (V3_of m outs c main_arg3 (by decide)).trans <|
      (V2_of m outs c main_arg3 (by decide)).trans <| (V1_of m c main_arg3 (by decide)).trans rfl
  rw [e, a0, a3]
  exact Cert.SageLayer.dotGeneral_rows_cols dot_S8192x128_S128x256_S8192x256_1_0_0_1_n_n rfl rfl dot1_l0
    (fun i q => dot_S8192x128_S128x256_S8192x256_1_0_0_1_n_n.lhsIdx_val_of_single rfl i q)
    (fun i q => dot_S8192x128_S128x256_S8192x256_1_0_0_1_n_n.rhsIdx_val_of_single rfl i q) dot1_r1 none _ _ r j

/-- The first bias laid out as a row. -/
theorem V5_v44_apply (c : Dev nD) (j : Fin 256) :
    (V5 m outs c main_v44 : S1x256.Idx → EReal) (ix2 0 j)
      = (m ((c : Thread nD τ).loc main_arg4) : S256.Idx → EReal) (ix1 j) := by
  have e : (V5 m outs c main_v44 : S1x256.Idx → EReal)
      = shapeCast S1x256 (V4 m outs c main_arg4 : S256.Idx → EReal) shapeCasts_S256_S1x256 := by
    dsimp only [V5]
    generalize V4 m outs c = W
    after_results
    rfl
  have a4 : V4 m outs c main_arg4 = m ((c : Thread nD τ).loc main_arg4) :=
    (V4_of m outs c main_arg4 (by decide)).trans <| (V3_of m outs c main_arg4 (by decide)).trans <|
      (V2_of m outs c main_arg4 (by decide)).trans <| (V1_of m c main_arg4 (by decide)).trans rfl
  rw [e, a4]
  exact row_of_vec_apply (n := 256) _ _ 0 j

/-- The adjacency matrix is the one the first host stretch built: no later line writes it. -/
theorem V5_v34 (c : Dev nD) : V5 m outs c main_v34 = V1 m c main_v34 :=
  (V5_of m outs c main_v34 (by decide)).trans <| (V4_of m outs c main_v34 (by decide)).trans <|
    (V3_of m outs c main_v34 (by decide)).trans <| V2_of m outs c main_v34 (by decide)

/-! ## After the second region -/

/-- After the second region its output array holds what that region left there. -/
theorem V6_v45 (c : Dev nD) : V6 m outs c main_v45 = outs 6 main_v45 c := by
  dsimp only [V6]
  exact Function.update_self _ _ _

theorem V7_v34 (c : Dev nD) : V7 m outs c main_v34 = V1 m c main_v34 :=
  (V7_of m outs c main_v34 (by decide)).trans <| (V6_of m outs c main_v34 (by decide)).trans <| V5_v34 m outs c
theorem V7_v41 (c : Dev nD) : V7 m outs c main_v41 = V5 m outs c main_v41 :=
  (V7_of m outs c main_v41 (by decide)).trans <| V6_of m outs c main_v41 (by decide)
theorem V7_v42 (c : Dev nD) : V7 m outs c main_v42 = V5 m outs c main_v42 :=
  (V7_of m outs c main_v42 (by decide)).trans <| V6_of m outs c main_v42 (by decide)

/-- The first layer's output times the second weight matrix: entry `(r, j)` is the sum over the 256 hidden
    features of what the second region left. -/
theorem V7_v46_apply (c : Dev nD) (r : Fin 8192) (j : Fin 16) :
    (V7 m outs c main_v46 : S8192x16.Idx → EReal) (ix2 r j)
      = matProd (outs 6 main_v45 c) (m ((c : Thread nD τ).loc main_arg5)) r j := by
  have e : (V7 m outs c main_v46 : S8192x16.Idx → EReal)
      = Host.dotGeneral (F := Ideal) (φ₁ := .f32) (φ₂ := .f32) dot_S8192x256_S256x16_S8192x16_1_0_0_1_n_n none
          (V6 m outs c main_v45 : FVec Ideal S8192x256 .f32) (V6 m outs c main_arg5 : FVec Ideal S256x16 .f32) := by
    dsimp only [V7]
    generalize V6 m outs c = W
    after_results
  have a5 : V6 m outs c main_arg5 = m ((c : Thread nD τ).loc main_arg5) :=
    (V6_of m outs c main_arg5 (by decide)).trans <| (V5_of m outs c main_arg5 (by decide)).trans <|
      (V4_of m outs c main_arg5 (by decide)).trans <| (V3_of m outs c main_arg5 (by decide)).trans <|
      (V2_of m outs c main_arg5 (by decide)).trans <| (V1_of m c main_arg5 (by decide)).trans rfl
  rw [e, a5, V6_v45]
  exact Cert.SageLayer.dotGeneral_rows_cols dot_S8192x256_S256x16_S8192x16_1_0_0_1_n_n rfl rfl dot2_l0
    (fun i q => dot_S8192x256_S256x16_S8192x16_1_0_0_1_n_n.lhsIdx_val_of_single rfl i q)
    (fun i q => dot_S8192x256_S256x16_S8192x16_1_0_0_1_n_n.rhsIdx_val_of_single rfl i q) dot2_r1 none _ _ r j

/-- The second bias laid out as a row. -/
theorem V7_v47_apply (c : Dev nD) (j : Fin 16) :
    (V7 m outs c main_v47 : S1x16.Idx → EReal) (ix2 0 j)
      = (m ((c : Thread nD τ).loc main_arg6) : S16.Idx → EReal) (ix1 j) := by
  have e : (V7 m outs c main_v47 : S1x16.Idx → EReal)
      = shapeCast S1x16 (V6 m outs c main_arg6 : S16.Idx → EReal) shapeCasts_S16_S1x16 := by
    dsimp only [V7]
    generalize V6 m outs c = W
    after_results
    rfl
  have a6 : V6 m outs c main_arg6 = m ((c : Thread nD τ).loc main_arg6) :=
    (V6_of m outs c main_arg6 (by decide)).trans <| (V5_of m outs c main_arg6 (by decide)).trans <|
      (V4_of m outs c main_arg6 (by decide)).trans <| (V3_of m outs c main_arg6 (by decide)).trans <|
      (V2_of m outs c main_arg6 (by decide)).trans <| (V1_of m c main_arg6 (by decide)).trans rfl
  rw [e, a6]
  exact row_of_vec_apply (n := 16) _ _ 0 j

end Cert.KernelIdeal.HostSide

end
-- ==== Proof.KI.HostTail.lean ====
/-
  The last lines of the kernel's host program: a log-softmax over each row of the second layer's output.

  The row maximum (started from minus infinity) is subtracted from every entry, the shifted entries are
  exponentiated and summed along the row (started from zero), and the logarithm of that sum is subtracted from the
  shifted entries.  The reference program ends with the same lines, so they are kept as one function of the
  second layer's output and never opened: all that is needed is that the kernel's final array is this function
  of what the third region left in its output array.
-/
import proofs.«173056_j36472862278098_1_alg».proof.Proof.Gen.KernelIdeal.Regions
import proofs.«173056_j36472862278098_1_alg».proof.Proof.Spec

noncomputable section

namespace Cert.KernelIdeal.HostSide

open Cert.KernelIdeal Cert.KernelIdeal.Gen Cert.Spec
open Idealize.ShloMosaic Idealize.ShloMosaic.TcCoe Idealize.ShloMosaic.ValueIdx Idealize.SL.Sem Idealize.ShloMosaic.StableHlo

/-- The log-softmax of each row of `y`, spelt with the operations the host program lists after the third
    region: row maximum, shift, exponential, row sum, logarithm, shift. -/
def tail (y : Spec.Mat 8192 16) : Spec.Mat 8192 16 :=
  let rowMax : FVec Ideal S8192 .f32 :=
    maximumf (broadcastInDim S8192 ![] bcast_S_S8192 (constant (F := Ideal) S_ .f32 0xFF800000#32))
      (Host.reduce FloatOps.maximumf (y : FVec Ideal S8192x16 .f32) (constant (F := Ideal) S_ .f32 0xFF800000#32)
        reducesTo_S8192x16_S8192_d1 h_S_)
  let shifted : FVec Ideal S8192x16 .f32 :=
    subf (y : FVec Ideal S8192x16 .f32)
      (broadcastInDim S8192x16 ![0, 1] bcast_S8192x1_S8192x16_0_1
        (broadcastInDim S8192x1 ![0] bcast_S8192_S8192x1_0 rowMax))
  let rowSum : FVec Ideal S8192 .f32 :=
    Host.reduceAdd (Host.exp shifted) (constant (F := Ideal) S_ .f32 0x00000000#32) reducesTo_S8192x16_S8192_d1 h_S_
  show FVec Ideal S8192x16 .f32 from
    subf shifted
      (broadcastInDim S8192x16 ![0, 1] bcast_S8192x1_S8192x16_0_1
        (Host.log (broadcastInDim S8192x1 ![0] bcast_S8192_S8192x1_0 rowSum)))

variable (m : (ℓ : Loc nD τ sig) → Buf (Elt Ideal) ℓ) (outs : Outs (F := Ideal))

/-- After the third region the second layer's output array holds what that region left there. -/
theorem V8_v48 (c : Dev nD) : V8 m outs c main_v48 = outs 8 main_v48 c := by
  dsimp only [V8]
  exact Function.update_self _ _ _

attribute [local irreducible] Host.reduce Host.reduceAdd Host.exp Host.log broadcastInDim subf maximumf constant in
set_option maxRecDepth 8192 in
/-- The program's result array is the log-softmax of what the third region left in its output array. -/
theorem V9_v49 (c : Dev nD) :
    (V9 m outs c main_v49 : S8192x16.Idx → EReal) = tail (outs 8 main_v48 c) := by
  have e : (V9 m outs c main_v49 : S8192x16.Idx → EReal) = tail (V8 m outs c main_v48) := by
    dsimp only [V9]
    generalize V8 m outs c = W
    unfold tail
    after_results
    rfl
  rw [e, V8_v48]

end Cert.KernelIdeal.HostSide

end
-- ==== Proof.LibEntryScatter.lean ====
/-
  A SCATTER-ADD OF SINGLE ENTRIES INTO A MATRIX, READ AT AN ENTRY.  For an operand `x : [A, B]`, an integer array
  of `E` pairs `(row, column)` and updates `upd : [E]`, the array `x.at[rows, cols].add(upd)` is
  `stablehlo.scatter` with an `add` body, no update window axis, inserted_window_dims [0, 1],
  scatter_dims_to_operand_dims [0, 1] and index_vector_dim 1 over the pairs as `[E, 2]`.  Update `e` lands on entry
  `(r, k)` exactly when the two numbers of pair `e`, read as signed integers and NOT clamped, are `r` and `k`; a
  pair with a number that is negative or beyond the operand is dropped.  So, over the extended reals, the result's
  entry `(r, k)` is `x (r, k)` plus the sum of `upd e` over the `e` whose pair is `(r, k)`.  Generic in the sizes
  and in the width of the index words.
-/
import Idealize.ShloMosaic.PureOps.Ideal
import Idealize.ShloMosaic.Lib.ValueIdx

noncomputable section

open scoped BigOperators

namespace Cert.EntryScatter

open Idealize.ShloMosaic Idealize.ShloMosaic.ValueIdx

/-- The dimension numbers of `x.at[rows, cols].add(upd)` for an operand `[A, B]`, the pairs as `[E, 2]` and
    updates `[E]`. -/
abbrev dims (A B E : Nat) (wf : ScatterDims.WF ⟨2, ![A, B]⟩ ⟨2, ![E, 2]⟩ ⟨1, ![E]⟩ [] [0, 1] [0, 1] 1) :
    ScatterDims ⟨2, ![A, B]⟩ ⟨2, ![E, 2]⟩ ⟨1, ![E]⟩ where
  updateWindowDims := []
  insertedWindowDims := [0, 1]
  scatterDimsToOperandDims := [0, 1]
  indexVectorDim := 1
  wf := wf

/-- Update `e` lands on entry `(r, k)`: its pair, read signed and NOT clamped, is `(r, k)`. -/
def hits {A B E w : Nat} (idx : IVec ⟨2, ![E, 2]⟩ w) (e : Fin E) (r : Fin A) (k : Fin B) : Prop :=
  (idx (ix2 e (0 : Fin 2))).toInt = (r.val : Int) ∧ (idx (ix2 e (1 : Fin 2))).toInt = (k.val : Int)

instance {A B E w : Nat} (idx : IVec ⟨2, ![E, 2]⟩ w) (e : Fin E) (r : Fin A) (k : Fin B) :
    Decidable (hits idx e r k) := by
  unfold hits; infer_instance

/-- A sum over the indices of a rank-1 shape is the sum over its one coordinate. -/
theorem sum_rank1 {M : Type*} [AddCommMonoid M] {n : Nat} (f : (⟨1, ![n]⟩ : Shape).Idx → M) :
    ∑ i, f i = ∑ a : Fin n, f (ix1 a) := by
  let eqv : Fin n ≃ (⟨1, ![n]⟩ : Shape).Idx :=
    { toFun := fun a => ix1 a, invFun := fun i => i 0, left_inv := fun _ => rfl, right_inv := fun i => (eq_ix1 i).symm }
  exact (Equiv.sum_comp eqv f).symm

/-- A matrix has the two axes `0` and `1`. -/
theorem axis_mem (a : Fin 2) : a ∈ ([0, 1] : List (Fin 2)) := by revert a; decide

section Coordinates
variable {A B E w : Nat} (wf : ScatterDims.WF ⟨2, ![A, B]⟩ ⟨2, ![E, 2]⟩ ⟨1, ![E]⟩ [] [0, 1] [0, 1] 1)
  (idx : IVec ⟨2, ![E, 2]⟩ w) (e : Fin E)

/-- On the operand's row axis the window of update `e` starts at the first number of pair `e`, read signed. -/
theorem start_row : (dims A B E wf).start (ix1 e) idx 0 = (idx (ix2 e (0 : Fin 2))).toInt := by
  unfold ScatterDims.start
  rw [dif_pos (show (0 : Fin 2) ∈ (dims A B E wf).scatterDimsToOperandDims from List.mem_cons_self)]
  have hsi : (dims A B E wf).siIdx (ix1 e) ⟨List.idxOf (0 : Fin 2) (dims A B E wf).scatterDimsToOperandDims,
      List.idxOf_lt_length_iff.2 List.mem_cons_self⟩ = ix2 e (0 : Fin 2) := by
    funext b; refine Fin.ext ?_
    match b with
    | ⟨0, _⟩ => rfl
    | ⟨1, _⟩ => rfl
  rw [hsi]

/-- On the column axis it starts at the second number. -/
theorem start_col : (dims A B E wf).start (ix1 e) idx 1 = (idx (ix2 e (1 : Fin 2))).toInt := by
  unfold ScatterDims.start
  rw [dif_pos (show (1 : Fin 2) ∈ (dims A B E wf).scatterDimsToOperandDims from List.mem_cons_of_mem _ List.mem_cons_self)]
  have hsi : (dims A B E wf).siIdx (ix1 e) ⟨List.idxOf (1 : Fin 2) (dims A B E wf).scatterDimsToOperandDims,
      List.idxOf_lt_length_iff.2 (List.mem_cons_of_mem _ List.mem_cons_self)⟩ = ix2 e (1 : Fin 2) := by
    funext b; refine Fin.ext ?_
    match b with
    | ⟨0, _⟩ => rfl
    | ⟨1, _⟩ => rfl
  rw [hsi]

/-- Both operand axes are inserted ones: none is kept for a window. -/
theorem not_mem_sKept (a : Fin 2) : a ∉ (dims A B E wf).sKept := fun h =>
  (of_decide_eq_true (List.mem_filter.mp h).2) (axis_mem a)

/-- So neither axis takes a window coordinate. -/
theorem window_zero (a : Fin 2) : (dims A B E wf).window (ix1 e) a = 0 := by
  unfold ScatterDims.window
  rw [dif_neg (not_mem_sKept wf a)]

end Coordinates

/-- WHERE AN UPDATE LANDS: update `e` lands on entry `(r, k)` exactly when pair `e`, read signed and not clamped,
    is `(r, k)`. -/
theorem resultIdx?_eq_some_iff {A B E w : Nat}
    (wf : ScatterDims.WF ⟨2, ![A, B]⟩ ⟨2, ![E, 2]⟩ ⟨1, ![E]⟩ [] [0, 1] [0, 1] 1)
    (idx : IVec ⟨2, ![E, 2]⟩ w) (e : Fin E) (r : Fin A) (k : Fin B) :
    (dims A B E wf).resultIdx? (ix1 e) idx = some (ix2 r k) ↔ hits idx e r k := by
  have hs0 := start_row wf idx e
  have hs1 := start_col wf idx e
  have hw0 := window_zero wf e 0
  have hw1 := window_zero wf e 1
  have hr : r.val < A := r.isLt
  have hk : k.val < B := k.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      have hb1 := (h 1).1
      simp only [hs0, hs1, hw0, hw1] at h0 h1 hb0 hb1
      change (((idx (ix2 e (0 : Fin 2))).toInt + ((0 : Nat) : Int)).toNat) = r.val at h0
      change (((idx (ix2 e (1 : Fin 2))).toInt + ((0 : Nat) : Int)).toNat) = k.val at h1
      constructor <;> omega
    · rintro ⟨hh0, hh1⟩
      funext a
      refine Fin.ext ?_
      match a with
      | ⟨0, _⟩ =>
        show ((dims A B E wf).start (ix1 e) idx 0 + ((dims A B E wf).window (ix1 e) 0 : Nat)).toNat = r.val
        rw [hs0, hw0, hh0]; omega
      | ⟨1, _⟩ =>
        show ((dims A B E wf).start (ix1 e) idx 1 + ((dims A B E wf).window (ix1 e) 1 : Nat)).toNat = k.val
        rw [hs1, hw1, hh1]; omega
  · rename_i h
    constructor
    · intro hf; exact absurd hf (by simp)
    · rintro ⟨hh0, hh1⟩
      exfalso; apply h
      intro a
      match a with
      | ⟨0, _⟩ =>
        show 0 ≤ (dims A B E wf).start (ix1 e) idx 0 + ((dims A B E wf).window (ix1 e) 0 : Nat) ∧
          (dims A B E wf).start (ix1 e) idx 0 + ((dims A B E wf).window (ix1 e) 0 : Nat) < (A : Int)
        rw [hs0, hw0, hh0]; omega
      | ⟨1, _⟩ =>
        show 0 ≤ (dims A B E wf).start (ix1 e) idx 1 + ((dims A B E wf).window (ix1 e) 1 : Nat) ∧
          (dims A B E wf).start (ix1 e) idx 1 + ((dims A B E wf).window (ix1 e) 1 : Nat) < (B : Int)
        rw [hs1, hw1, hh1]; omega

/-- THE SCATTER-ADD READ AT `(r, k)`: the operand's entry plus the sum, over the updates `e` whose pair (read signed,
    not clamped) is `(r, k)`, of the update's element `e`. -/
theorem scatterAdd_apply {A B E w : Nat}
    (wf : ScatterDims.WF ⟨2, ![A, B]⟩ ⟨2, ![E, 2]⟩ ⟨1, ![E]⟩ [] [0, 1] [0, 1] 1)
    (x : (⟨2, ![A, B]⟩ : Shape).Idx → EReal) (idx : IVec ⟨2, ![E, 2]⟩ w)
    (upd : (⟨1, ![E]⟩ : Shape).Idx → EReal) (r : Fin A) (k : Fin B) :
    Ideal.hostScatterAdd (dims A B E wf) x idx upd (ix2 r k)
      = x (ix2 r k) + ∑ e : Fin E, if hits idx e r k then upd (ix1 e) else 0 := by
  unfold Ideal.hostScatterAdd
  congr 1
  rw [Finset.sum_filter, sum_rank1]
  refine Finset.sum_congr rfl fun e _ => ?_
  by_cases h2 : hits idx e r k
  · rw [if_pos ((resultIdx?_eq_some_iff wf idx e r k).mpr h2), if_pos h2]
  · rw [if_neg (fun h => h2 ((resultIdx?_eq_some_iff wf idx e r k).mp h)), if_neg h2]

/-- The same read of the host's accumulating scatter as a program states it, at the ideal instance, where it is that
    exact sum whatever the float format. -/
theorem host_scatterAdd_apply {A B E w : Nat} {φ : FTy}
    (wf : ScatterDims.WF ⟨2, ![A, B]⟩ ⟨2, ![E, 2]⟩ ⟨1, ![E]⟩ [] [0, 1] [0, 1] 1)
    (x : FVec Ideal ⟨2, ![A, B]⟩ φ) (idx : IVec ⟨2, ![E, 2]⟩ w)
    (upd : FVec Ideal ⟨1, ![E]⟩ φ) (r : Fin A) (k : Fin B) :
    Host.scatterAdd (F := Ideal) (dims A B E wf) x idx upd (ix2 r k)
      = x (ix2 r k) + ∑ e : Fin E, if hits idx e r k then upd (ix1 e) else 0 :=
  scatterAdd_apply wf x idx upd r k

end Cert.EntryScatter

end
-- ==== Proof.KI.HostAdj.lean ====
/-
  The dense adjacency matrix the kernel's host program builds before the first region, read at an entry.

  The matrix starts as zeros.  A first scatter adds every edge weight into the entry its edge names (an endpoint
  given as a negative number is first moved up by the number of nodes); its result is kept as one function `base` of
  the two edge arguments and never opened, since the reference program forms it by the same lines.  A second
  scatter adds a one at every pair `(i, i)`: pair `i` is read off a count `0, 1, …, 8191`, which is never negative,
  so it lands on the diagonal entry `(i, i)` and nowhere else.  Hence entry `(r, k)` of the adjacency matrix is the
  entry of `base` plus one when `r = k`, plus nothing otherwise.
-/
import proofs.«173056_j36472862278098_1_alg».proof.Proof.Gen.KernelIdeal.Regions
import proofs.«173056_j36472862278098_1_alg».proof.Proof.Spec
import proofs.«173056_j36472862278098_1_alg».proof.Proof.LibEntryScatter
import Idealize.ShloMosaic.Lib.Pipeline.Value

noncomputable section

namespace Cert.KernelIdeal.HostSide

open Cert.KernelIdeal Cert.KernelIdeal.Gen Cert.Spec
open Idealize.ShloMosaic Idealize.ShloMosaic.TcCoe Idealize.ShloMosaic.ValueIdx Idealize.SL.Sem Idealize.ShloMosaic.StableHlo

/-! ## The two scatters as terms -/

/-- A vector of node numbers with every negative one moved up by the number of nodes. -/
def wrapE (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- The edge weights summed into a zero matrix at the entries the edge list names: the first scatter, as the
    host program spells it from the edge list `x1` (one row of sources, one of targets) and the weights `x2`. -/
def base (x1 : IVec S2x262144 32) (x2 : FVec Ideal S262144 .f32) : Spec.Mat 8192 8192 :=
  Host.scatterAdd (F := Ideal) scatter_S8192x8192_S262144x2_S262144_n_01_01_1
    (broadcastInDim S8192x8192 ![] bcast_S_S8192x8192 (constant (F := Ideal) S_ .f32 0x00000000#32))
    (concatenate S262144x2 1
      [⟨S262144x1, broadcastInDim S262144x1 ![0] bcast_S262144_S262144x1_0
          (wrapE (shapeCast S262144 (extractStridedSlice S1x262144 ![0, 0] x1 slices_S2x262144_S1x262144_0_0)
            shapeCasts_S1x262144_S262144))⟩,
        ⟨S262144x1, broadcastInDim S262144x1 ![0] bcast_S262144_S262144x1_0
          (wrapE (shapeCast S262144 (extractStridedSlice S1x262144 ![1, 0] x1 slices_S2x262144_S1x262144_1_0)
            shapeCasts_S1x262144_S262144))⟩]
      concatenates_S262144x1_S262144x1_S262144x2_d1)
    x2

/-- The count `0, 1, …, 8191` after the same treatment of negative numbers (there are none). -/
def diagNum : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The pairs `(i, i)`: the count beside itself. -/
def diagIdx : IVec S8192x2 32 :=
  concatenate S8192x2 1
    [⟨S8192x1, broadcastInDim S8192x1 ![0] bcast_S8192_S8192x1_0 diagNum⟩,
      ⟨S8192x1, broadcastInDim S8192x1 ![0] bcast_S8192_S8192x1_0 diagNum⟩]
    concatenates_S8192x1_S8192x1_S8192x2_d1

/-- A vector of ones, one per node. -/
def ones : FVec Ideal S8192 .f32 :=
  broadcastInDim S8192 ![] bcast_S_S8192 (constant (F := Ideal) S_ .f32 0x3F800000#32)

variable (m : (ℓ : Loc nD τ sig) → Buf (Elt Ideal) ℓ)

attribute [local irreducible] Host.scatterAdd concatenate broadcastInDim extractStridedSlice shapeCast select cmpi addi
  constant constantI iotaInDim in
set_option maxRecDepth 8192 in
/-- What the first scatter leaves: `base` of the edge list and the weights. -/
theorem V1_v18 (c : Dev nD) :
    (V1 m c main_v18 : S8192x8192.Idx → EReal)
      = base (m ((c : Thread nD τ).loc main_arg1)) (m ((c : Thread nD τ).loc main_arg2)) := by
  have e : (V1 m c main_v18 : S8192x8192.Idx → EReal) = base (V0 m c main_arg1) (V0 m c main_arg2) := by
    dsimp only [V1]
    generalize V0 m c = W
    unfold base wrapE
    after_results_simp
    rfl
  exact e

attribute [local irreducible] Host.scatterAdd concatenate broadcastInDim extractStridedSlice shapeCast select cmpi addi
  constant constantI iotaInDim in
set_option maxRecDepth 8192 in
/-- The adjacency matrix: the second scatter, of the ones at the pairs `(i, i)`, over `base`. -/
theorem V1_v34 (c : Dev nD) :
    (V1 m c main_v34 : S8192x8192.Idx → EReal)
      = Host.scatterAdd (F := Ideal) scatter_S8192x8192_S8192x2_S8192_n_01_01_1
          (base (m ((c : Thread nD τ).loc main_arg1)) (m ((c : Thread nD τ).loc main_arg2))) diagIdx ones := by
  have e : (V1 m c main_v34 : S8192x8192.Idx → EReal)
      = Host.scatterAdd (F := Ideal) scatter_S8192x8192_S8192x2_S8192_n_01_01_1
          (base (V0 m c main_arg1) (V0 m c main_arg2)) diagIdx ones := by
    dsimp only [V1]
    generalize V0 m c = W
    unfold base wrapE diagIdx diagNum ones
    after_results_simp
    rfl
  exact e

/-! ## The second scatter read at an entry -/

/-- A count below 8192, as a 32-bit word read signed, is itself. -/
theorem toInt_count (e : Fin 8192) : (BitVec.ofNat 32 e.val).toInt = (e.val : Int) := by
  have he := e.isLt
  rw [BitVec.toInt_eq_toNat_cond, BitVec.toNat_ofNat]
  omega

/-- The count is never negative, so the treatment of negative numbers leaves it alone. -/
theorem diagNum_apply (e : Fin 8192) : diagNum (ix1 e) = BitVec.ofNat 32 e.val := by
  have hlt : IntOp.cmpi .slt (BitVec.ofNat 32 e.val) (0#32) = 0#1 := by
    have h := toInt_count e
    have h0 : (0#32 : BitVec 32).toInt = 0 := by decide
    unfold IntOp.cmpi
    show BitVec.ofBool ((BitVec.ofNat 32 e.val).slt 0#32) = 0#1
    rw [BitVec.slt, h, h0]
    have : ¬ ((e.val : Int) < 0) := by omega
    simp [this]
  show Scalar.select (IntOp.cmpi .slt (BitVec.ofNat 32 e.val) (0#32)) _ (BitVec.ofNat 32 e.val) = _
  rw [hlt, select_zero]

/-- Pair `e` is `(e, e)`. -/
theorem diagIdx_apply (e : Fin 8192) (a : Fin 2) : diagIdx (ix2 e a) = BitVec.ofNat 32 e.val := by
  have hb : broadcastInDim S8192x1 ![0] bcast_S8192_S8192x1_0 diagNum (ix2 e (0 : Fin 1)) = diagNum (ix1 e) :=
    broadcastInDim_apply _ _ _ _ (ix1 e) (fun b => by match b with | ⟨0, _⟩ => rfl)
  unfold diagIdx
  match a with
  | ⟨0, _⟩ =>
    refine (concatenate_pair_apply_left (t := S8192x2) (1 : Fin 2) _ _ concatenates_S8192x1_S8192x1_S8192x2_d1
      (ix2 e (0 : Fin 2)) rfl (ix2 e (0 : Fin 1)) (fun b => by match b with | ⟨0, _⟩ => rfl | ⟨1, _⟩ => rfl)).trans ?_
    rw [hb, diagNum_apply]
  | ⟨1, _⟩ =>
    refine (concatenate_pair_apply_right (t := S8192x2) (1 : Fin 2) _ _ concatenates_S8192x1_S8192x1_S8192x2_d1
      (ix2 e (1 : Fin 2)) rfl rfl (ix2 e (0 : Fin 1))
      (fun b hb => by match b with | ⟨0, _⟩ => rfl | ⟨1, _⟩ => exact absurd rfl hb) rfl).trans ?_
    rw [hb, diagNum_apply]

/-- The word `0x3F800000` is the number one. -/
theorem ones_apply (e : Fin 8192) : ones (ix1 e) = 1 := by
  show Ideal.ofBits .f32 0x3F800000#32 = 1
  simp [Ideal.ofBits, Ideal.ieee]
  rw [← EReal.coe_mul]
  norm_num

/-- Update `e` of the second scatter lands on `(r, k)` exactly when `e = r` and `e = k`. -/
theorem hits_diag (e r k : Fin 8192) :
    Cert.EntryScatter.hits (A := 8192) (B := 8192) diagIdx e r k ↔ e = r ∧ e = k := by
  unfold Cert.EntryScatter.hits
  rw [diagIdx_apply, diagIdx_apply, toInt_count]
  constructor
  · rintro ⟨h0, h1⟩; exact ⟨Fin.ext (by omega), Fin.ext (by omega)⟩
  · rintro ⟨h0, h1⟩; subst h0; subst h1; exact ⟨rfl, rfl⟩

/-- THE ADJACENCY MATRIX AT AN ENTRY: the summed edge weights there, plus one on the diagonal. -/
theorem adj_apply (c : Dev nD) (r k : Fin 8192) :
    (V1 m c main_v34 : S8192x8192.Idx → EReal) (ix2 r k)
      = base (m ((c : Thread nD τ).loc main_arg1)) (m ((c : Thread nD τ).loc main_arg2)) (ix2 r k)
        + (if r = k then (1 : EReal) else 0) := by
  rw [V1_v34]
  refine (Cert.EntryScatter.host_scatterAdd_apply (A := 8192) (B := 8192) (E := 8192) (by decide) _ diagIdx ones r k).trans ?_
  congr 1
  by_cases hrk : r = k
  · subst hrk
    rw [if_pos rfl]
    have : ∀ e : Fin 8192, (if Cert.EntryScatter.hits (A := 8192) (B := 8192) diagIdx e r r then ones (ix1 e) else 0)
        = if e = r then (1 : EReal) else 0 := fun e => by
      by_cases he : e = r
      · rw [if_pos ((hits_diag e r r).mpr ⟨he, he⟩), if_pos he, ones_apply]
      · rw [if_neg (fun h => he ((hits_diag e r r).mp h).1), if_neg he]
    rw [Finset.sum_congr rfl (fun e _ => this e), Finset.sum_ite_eq' Finset.univ r (fun _ => (1 : EReal)), if_pos (Finset.mem_univ r)]
  · rw [if_neg hrk]
    refine Finset.sum_eq_zero fun e _ => ?_
    rw [if_neg (fun h => hrk (((hits_diag e r k).mp h).1.symm.trans ((hits_diag e r k).mp h).2))]

end Cert.KernelIdeal.HostSide

end
-- ==== Proof.SpecFns.lean ====
/-
  The two-layer network as one function of the adjacency matrix and the parameters, over extended reals:
  both programs' values before the closing log-softmax are `pre A x W1 b1 W2 b2` for their adjacency `A`.
  Matrices are functions of a rank-2 index; `mk` builds one from a function of the two coordinates, and two
  matrices that agree at every pair of coordinates are equal (`Mat.ext`).
-/
import proofs.«173056_j36472862278098_1_alg».proof.Proof.Spec

noncomputable section

namespace Cert.Spec

open Idealize.ShloMosaic Idealize.ShloMosaic.ValueIdx

/-- The matrix with entry `f p q` at row `p`, column `q`. -/
def mk {a b : Nat} (f : Fin a → Fin b → EReal) : Mat a b := fun i => f (i 0) (i 1)

theorem mk_apply {a b : Nat} (f : Fin a → Fin b → EReal) (p : Fin a) (q : Fin b) : mk f (ix2 p q) = f p q := rfl

/-- Matrices that agree at every pair of coordinates are equal. -/
theorem Mat.ext {a b : Nat} {f g : Mat a b} (h : ∀ (p : Fin a) (q : Fin b), f (ix2 p q) = g (ix2 p q)) : f = g := by
  funext i
  rw [eq_ix2 i]
  exact h (i 0) (i 1)

/-- A vector of extended reals with a literal extent. -/
abbrev Vect (b : Nat) : Type := (⟨1, ![b]⟩ : Shape).Idx → EReal

/-- The matrix product. -/
def dot {a k b : Nat} (L : Mat a k) (R : Mat k b) : Mat a b := mk fun p q => ∑ t : Fin k, L (ix2 p t) * R (ix2 t q)

/-- A vector laid out as a one-row matrix. -/
def row {b : Nat} (v : Vect b) : Mat 1 b := mk fun _ q => v (ix1 q)

/-- The inverse square roots of the degrees, as a column: the row scale. -/
def DR (A : Mat 8192 8192) : Mat 8192 1 := mk fun r _ => dinv (deg A r)

/-- The same numbers as a row: the column scale. -/
def DC (A : Mat 8192 8192) : Mat 1 8192 := mk fun _ k => dinv (deg A k)

/-- The hidden layer: `max (Â (x W1) + b1) 0`, `Â` the symmetrically scaled adjacency. -/
def hidden (A : Mat 8192 8192) (x : Mat 8192 128) (W1 : Mat 128 256) (b1 : Vect 256) : Mat 8192 256 :=
  mk (layer1 A (DR A) (DC A) (dot x W1) (row b1))

/-- The network's value before the closing log-softmax: `Â (h W2) + b2`. -/
def pre (A : Mat 8192 8192) (x : Mat 8192 128) (W1 : Mat 128 256) (b1 : Vect 256) (W2 : Mat 256 16) (b2 : Vect 16) :
    Mat 8192 16 :=
  mk (layer2 A (DR A) (DC A) (dot (hidden A x W1 b1) W2) (row b2))

end Cert.Spec

end
-- ==== Proof.RefValue.lean ====
/-
  What the reference program computes, said in the words of `Cert.Spec`.

  The reference builds the dense adjacency matrix `A` (edge weights scattered into a zero matrix, then a one added
  on the diagonal), sums its rows into degrees, sends each degree `d` to `d ^ (-1/2)` guarded at zero, scales `A`
  on both sides by these numbers, and runs two propagation steps.  Read at one entry, every one of these lines is
  a line of `Cert.Spec`: a row sum started from zero is `deg`; the guarded power is `dinv`; the twice-scaled
  entry `(d_r · A(r,k)) · d_k` is `scaled`, because multiplication of extended reals commutes; each matrix product
  is the sum over the contracted index; a bias row is read at its column.  So the value before the closing
  log-softmax is `Spec.pre A x W1 b1 W2 b2`.

  The closing log-softmax is gathered into ONE function `tail` of that value.  Both programs apply the same
  function, so it is never opened.
-/
import proofs.«173056_j36472862278098_1_alg».proof.Proof.RefRead
import proofs.«173056_j36472862278098_1_alg».proof.Proof.SpecFns

noncomputable section

namespace Cert.RefSide

open Cert.ReferenceIdeal Cert.ReferenceIdeal.Gen Cert.ReferenceIdeal.ReadP Cert.Spec
open Idealize.ShloMosaic Idealize.ShloMosaic.ValueIdx

/-! ## The closing log-softmax as one function -/

/-- Each row minus its largest entry (the largest entry itself clamped from below by `-∞`, as printed). -/
def shifted (y : FVec Ideal S8192x16 .f32) : FVec Ideal S8192x16 .f32 :=
  subf y
    (broadcastInDim S8192x16 ![0, 1] bcast_S8192x1_S8192x16_0_1
      (broadcastInDim S8192x1 ![0] bcast_S8192_S8192x1_0
        (maximumf (val_main_call2_v1 (F := Ideal))
          (Host.reduce FloatOps.maximumf y (val_main_call2_cst (F := Ideal)) reducesTo_S8192x16_S8192_d1 h_S_))))

/-- The log-softmax of every row: the shifted row minus the logarithm of the sum of its exponentials. -/
def tail (y : Spec.Mat 8192 16) : Spec.Mat 8192 16 :=
  subf (shifted y)
    (broadcastInDim S8192x16 ![0, 1] bcast_S8192x1_S8192x16_0_1
      (Host.log
        (broadcastInDim S8192x1 ![0] bcast_S8192_S8192x1_0
          (Host.reduceAdd (Host.exp (shifted y)) (val_main_call2_cst_1 (F := Ideal)) reducesTo_S8192x16_S8192_d1 h_S_))))

/-- The reference's result is `tail` of its value before the log-softmax. -/
theorem val_main_v50_eq_tail
    (x0 : (⟨S8192x128, .f32⟩ : BufTy).Contents (Elt Ideal)) (x1 : (⟨S2x262144, .i32⟩ : BufTy).Contents (Elt Ideal))
    (x2 : (⟨S262144, .f32⟩ : BufTy).Contents (Elt Ideal)) (x3 : (⟨S128x256, .f32⟩ : BufTy).Contents (Elt Ideal))
    (x4 : (⟨S256, .f32⟩ : BufTy).Contents (Elt Ideal)) (x5 : (⟨S256x16, .f32⟩ : BufTy).Contents (Elt Ideal))
    (x6 : (⟨S16, .f32⟩ : BufTy).Contents (Elt Ideal)) :
    val_main_v50 (F := Ideal) x0 x1 x2 x3 x4 x5 x6 = tail (val_main_v49 (F := Ideal) x0 x1 x2 x3 x4 x5 x6) := by
  unfold tail shifted val_main_v50 val_main_call2_v10 val_main_call2_v9 val_main_call2_v8 val_main_call2_v7
    val_main_call2_v6 val_main_call2_v5 val_main_call2_v4 val_main_call2_v3 val_main_call2_v2 val_main_call2_v0
  rfl

/-! ## The adjacency matrix at an entry -/

/-- The word `row + 0 == column` on 32-bit row and column numbers below 8192 is one exactly on the diagonal. -/
theorem diag_word (r k : Fin 8192) :
    IntOp.cmpi .eq (IntOp.addi (BitVec.ofNat 32 r.val) 0#32) (BitVec.ofNat 32 k.val) = if r = k then 1#1 else 0#1 := by
  have hr : (BitVec.ofNat 32 r.val).toNat = r.val := by
    rw [BitVec.toNat_ofNat]; have := r.isLt; omega
  have hk : (BitVec.ofNat 32 k.val).toNat = k.val := by
    rw [BitVec.toNat_ofNat]; have := k.isLt; omega
  unfold IntOp.cmpi IntOp.addi
  rw [BitVec.add_zero]
  by_cases h : r = k
  · subst h; simp
  · rw [if_neg h]
    have hne : BitVec.ofNat 32 r.val ≠ BitVec.ofNat 32 k.val := fun e => h (Fin.ext (by rw [← hr, ← hk, e]))
    rw [beq_eq_false_iff_ne.mpr hne]
    rfl

/-- An entry of the adjacency matrix: the scattered edge weights there, plus one on the diagonal. -/
theorem adj_apply (x1 : (⟨S2x262144, .i32⟩ : BufTy).Contents (Elt Ideal)) (x2 : (⟨S262144, .f32⟩ : BufTy).Contents (Elt Ideal))
    (r k : Fin 8192) :
    val_main_v25 (F := Ideal) x1 x2 (ix2 r k)
      = val_main_v18 (F := Ideal) x1 x2 (ix2 r k) + (if r = k then (1 : EReal) else 0) := by
  rw [val_main_v25_apply, val_main_v24_apply, val_main_v23_apply, val_main_v22_apply, val_main_v19_apply,
    val_main_v20_apply, val_main_v21_apply, val_main_c_3_apply]
  refine congrArg (val_main_v18 (F := Ideal) x1 x2 (ix2 r k) + ·) ?_
  show FloatOps.uitofp (F := Ideal) .f32 (IntOp.cmpi .eq (IntOp.addi (BitVec.ofNat 32 r.val) 0#32) (BitVec.ofNat 32 k.val)) = _
  rw [diag_word]
  by_cases h : r = k
  · rw [if_pos h, if_pos h]
    show (((1#1 : BitVec 1).toNat : ℝ) : EReal) = 1
    simp
  · rw [if_neg h, if_neg h]
    show (((0#1 : BitVec 1).toNat : ℝ) : EReal) = 0
    simp

/-! ## The value before the log-softmax -/

section
variable (x0 : (⟨S8192x128, .f32⟩ : BufTy).Contents (Elt Ideal)) (x1 : (⟨S2x262144, .i32⟩ : BufTy).Contents (Elt Ideal))
  (x2 : (⟨S262144, .f32⟩ : BufTy).Contents (Elt Ideal)) (x3 : (⟨S128x256, .f32⟩ : BufTy).Contents (Elt Ideal))
  (x4 : (⟨S256, .f32⟩ : BufTy).Contents (Elt Ideal)) (x5 : (⟨S256x16, .f32⟩ : BufTy).Contents (Elt Ideal))
  (x6 : (⟨S16, .f32⟩ : BufTy).Contents (Elt Ideal))

/-- The row sums started from zero are the degrees. -/
theorem deg_apply (r : Fin 8192) :
    val_main_v26 (F := Ideal) x1 x2 (ix1 r) = Spec.deg (val_main_v25 (F := Ideal) x1 x2) r := by
  rw [val_main_v26_apply, val_main_cst_4_apply, Ideal.ofBits_def, Ideal.ofBits_zero_f32, zero_add]
  unfold Spec.deg
  refine Finset.sum_congr rfl fun k _ => ?_
  exact congrArg _ (funext fun a => Fin.ext (by match a with | ⟨0, _⟩ => rfl | ⟨1, _⟩ => rfl))

/-- The guarded power of the degree is `dinv` of it: the same comparison, power and choice, word for word. -/
theorem dinv_apply (r : Fin 8192) :
    val_main_v32 (F := Ideal) x1 x2 (ix1 r) = Spec.dinv (Spec.deg (val_main_v25 (F := Ideal) x1 x2) r) := by
  rw [val_main_v32_apply, val_main_v28_apply, val_main_v30_apply, val_main_v27_apply, val_main_v29_apply,
    val_main_v31_apply, val_main_cst_5_apply, val_main_cst_6_apply, val_main_cst_7_apply, deg_apply]
  rfl

/-- The row scale at row `r` is `dinv` of that row's degree. -/
theorem DR_apply (A : Spec.Mat 8192 8192) (r : Fin 8192) : Spec.DR A (ix2 r 0) = Spec.dinv (Spec.deg A r) :=
  Spec.mk_apply _ r 0

/-- The column scale at column `k` is `dinv` of row `k`'s degree. -/
theorem DC_apply (A : Spec.Mat 8192 8192) (k : Fin 8192) : Spec.DC A (ix2 0 k) = Spec.dinv (Spec.deg A k) :=
  Spec.mk_apply _ 0 k

/-- The twice-scaled adjacency at an entry: `(d_r · A(r,k)) · d_k`, which is `scaled` since the product commutes. -/
theorem scaled_apply (r k : Fin 8192) :
    val_main_v38 (F := Ideal) x1 x2 (ix2 r k)
      = Spec.scaled (val_main_v25 (F := Ideal) x1 x2) (Spec.DR (val_main_v25 (F := Ideal) x1 x2))
          (Spec.DC (val_main_v25 (F := Ideal) x1 x2)) r k := by
  have er : idx_main_v33 (idx_main_v34 (ix2 r k)) = ix1 r :=
    funext fun a => Fin.ext (by match a with | ⟨0, _⟩ => rfl)
  have ek : idx_main_v36 (idx_main_v37 (ix2 r k)) = ix1 k :=
    funext fun a => Fin.ext (by match a with | ⟨0, _⟩ => rfl)
  rw [val_main_v38_apply, val_main_v35_apply, val_main_v34_apply, val_main_v33_apply, val_main_v37_apply,
    val_main_v36_apply, er, ek, dinv_apply, dinv_apply, ← DR_apply _ r, ← DC_apply _ k, Ideal.mulf_def, Ideal.mulf_def]
  exact Spec.scaled_comm _ _ _ r k

/-- The features times the first weight matrix. -/
theorem xw1_eq : val_main_v39 (F := Ideal) x0 x3 = Spec.dot x0 x3 := by
  refine Spec.Mat.ext (a := 8192) (b := 256) fun p q => ?_
  rw [val_main_v39_apply]
  unfold Spec.dot
  rw [Spec.mk_apply]
  refine Finset.sum_congr rfl fun t _ => ?_
  have el : lidx_main_v39 (ix2 p q) t = ix2 p t :=
    funext fun a => Fin.ext (by match a with | ⟨0, _⟩ => rfl | ⟨1, _⟩ => rfl)
  have er : ridx_main_v39 (ix2 p q) t = ix2 t q :=
    funext fun a => Fin.ext (by match a with | ⟨0, _⟩ => rfl | ⟨1, _⟩ => rfl)
  rw [el, er]

/-- The first layer: the scaled adjacency against `x W1`, plus the bias row, clamped at zero from below. -/
theorem hidden_eq :
    val_main_v44 (F := Ideal) x0 x1 x2 x3 x4 = Spec.hidden (val_main_v25 (F := Ideal) x1 x2) x0 x3 x4 := by
  refine Spec.Mat.ext (a := 8192) (b := 256) fun r j => ?_
  have eb : idx_main_v41 (idx_main_v42 (ix2 r j)) = ix1 j :=
    funext fun a => Fin.ext (by match a with | ⟨0, _⟩ => rfl)
  rw [val_main_v44_apply, val_main_v43_apply, val_main_v42_apply, val_main_v41_apply, eb, val_main_call1_v0_apply,
    val_main_call1_cst_apply, val_main_v40_apply, xw1_eq, Ideal.ofBits_def, Ideal.ofBits_zero_f32]
  unfold Spec.hidden
  rw [Spec.mk_apply]
  unfold Spec.layer1 Spec.agg
  refine congrArg (fun s => max (s + x4 (ix1 j)) 0) (Finset.sum_congr rfl fun k _ => ?_)
  have el : lidx_main_v40 (ix2 r j) k = ix2 r k :=
    funext fun a => Fin.ext (by match a with | ⟨0, _⟩ => rfl | ⟨1, _⟩ => rfl)
  have er : ridx_main_v40 (ix2 r j) k = ix2 k j :=
    funext fun a => Fin.ext (by match a with | ⟨0, _⟩ => rfl | ⟨1, _⟩ => rfl)
  rw [el, er, scaled_apply]

/-- The hidden layer times the second weight matrix. -/
theorem hw2_eq :
    val_main_v45 (F := Ideal) x0 x1 x2 x3 x4 x5
      = Spec.dot (Spec.hidden (val_main_v25 (F := Ideal) x1 x2) x0 x3 x4) x5 := by
  refine Spec.Mat.ext (a := 8192) (b := 16) fun p q => ?_
  rw [val_main_v45_apply, hidden_eq]
  unfold Spec.dot
  rw [Spec.mk_apply]
  refine Finset.sum_congr rfl fun t _ => ?_
  have el : lidx_main_v45 (ix2 p q) t = ix2 p t :=
    funext fun a => Fin.ext (by match a with | ⟨0, _⟩ => rfl | ⟨1, _⟩ => rfl)
  have er : ridx_main_v45 (ix2 p q) t = ix2 t q :=
    funext fun a => Fin.ext (by match a with | ⟨0, _⟩ => rfl | ⟨1, _⟩ => rfl)
  rw [el, er]

/-- The reference's value before the log-softmax is the two-layer network of `Cert.Spec` at its own adjacency matrix. -/
theorem val_main_v49_eq_pre :
    val_main_v49 (F := Ideal) x0 x1 x2 x3 x4 x5 x6 = Spec.pre (val_main_v25 (F := Ideal) x1 x2) x0 x3 x4 x5 x6 := by
  refine Spec.Mat.ext (a := 8192) (b := 16) fun r j => ?_
  have eb : idx_main_v47 (idx_main_v48 (ix2 r j)) = ix1 j :=
    funext fun a => Fin.ext (by match a with | ⟨0, _⟩ => rfl)
  rw [val_main_v49_apply, val_main_v48_apply, val_main_v47_apply, eb, val_main_v46_apply, hw2_eq]
  unfold Spec.pre
  rw [Spec.mk_apply]
  unfold Spec.layer2 Spec.agg
  refine congrArg (fun s => s + x6 (ix1 j)) (Finset.sum_congr rfl fun k _ => ?_)
  have el : lidx_main_v46 (ix2 r j) k = ix2 r k :=
    funext fun a => Fin.ext (by match a with | ⟨0, _⟩ => rfl | ⟨1, _⟩ => rfl)
  have er : ridx_main_v46 (ix2 r j) k = ix2 k j :=
    funext fun a => Fin.ext (by match a with | ⟨0, _⟩ => rfl | ⟨1, _⟩ => rfl)
  rw [el, er, scaled_apply]

end

end Cert.RefSide

end
-- ==== Proof.Bridge.lean ====
/-
  The kernel program's value, in the specification's words, and the two programs' values side by side.

  After the three regions the kernel program holds, in the buffer its last region wrote, the network's value
  before the closing log-softmax: `Spec.pre A x W1 b1 W2 b2` for the kernel's adjacency matrix `A`
  (`pre_kernel`).  The proof walks the program once: the first region leaves the degrees, the host lines turn
  them into the row and column scales, the second region leaves the hidden layer, a host product brings it to
  sixteen columns, the third region adds the last propagation step.  Each region's array is read by its
  value lemma, each host line by its read lemma; matrices are compared entry by entry (`Mat.ext`).

  The kernel builds its adjacency by adding ones at the diagonal positions with a second accumulating scatter,
  the reference by adding the identity matrix: entry by entry both are the edge-weight sums plus one on the
  diagonal (`adj_eq`).  The closing log-softmax lines are the same operations in both programs
  (`tail_eq`), so they are carried as one function and never opened.
-/
import proofs.«173056_j36472862278098_1_alg».proof.Proof.KI.RunInst
import proofs.«173056_j36472862278098_1_alg».proof.Proof.KI.R0Value
import proofs.«173056_j36472862278098_1_alg».proof.Proof.KI.R1Value
import proofs.«173056_j36472862278098_1_alg».proof.Proof.KI.R2Value
import proofs.«173056_j36472862278098_1_alg».proof.Proof.KI.HostMid
import proofs.«173056_j36472862278098_1_alg».proof.Proof.KI.HostTail
import proofs.«173056_j36472862278098_1_alg».proof.Proof.KI.HostAdj
import proofs.«173056_j36472862278098_1_alg».proof.Proof.RefValue
import proofs.«173056_j36472862278098_1_alg».proof.Proof.SpecFns
import proofs.«173056_j36472862278098_1_alg».proof.Proof.Gen.ReferenceIdeal

noncomputable section

namespace Cert.Bridge

open Cert.KernelIdeal Cert.KernelIdeal.Gen Cert.KernelIdeal.Hand Cert.KernelIdeal.HandValue Cert.KernelIdeal.HostSide Cert.Spec
open Idealize.ShloMosaic Idealize.ShloMosaic.TcCoe Idealize.ShloMosaic.ValueIdx Idealize.SL.Sem

variable (m : (ℓ : Loc nD τ sig) → Buf (Elt Ideal) ℓ) (c : Dev nD)

/-- The kernel program's adjacency matrix: what its host lines leave before the first region. -/
abbrev adjK : Mat 8192 8192 := (Gen.V1 m c main_v34 : S8192x8192.Idx → EReal)
/-- The arguments' arrays. -/
abbrev a0 : Mat 8192 128 := (m ((c : Thread nD τ).loc main_arg0) : S8192x128.Idx → EReal)
abbrev a3 : Mat 128 256 := (m ((c : Thread nD τ).loc main_arg3) : S128x256.Idx → EReal)
abbrev a4 : Vect 256 := (m ((c : Thread nD τ).loc main_arg4) : S256.Idx → EReal)
abbrev a5 : Mat 256 16 := (m ((c : Thread nD τ).loc main_arg5) : S256x16.Idx → EReal)
abbrev a6 : Vect 16 := (m ((c : Thread nD τ).loc main_arg6) : S16.Idx → EReal)

/-! ## After the first region: the degrees, and the two scales -/

/-- The first region leaves the degrees of the kernel's adjacency. -/
theorem res0_apply (r : Fin 8192) :
    (res0 (half0 (F := Ideal)) m c : S8192x1.Idx → EReal) (ix2 r 0) = Spec.deg (adjK m c) r :=
  final0 (ent0 m) c r

/-- The row scale the later regions are handed. -/
theorem drow_eq (o : Gen.Outs (F := Ideal)) (ho : o 2 main_v35 c = res0 (half0 (F := Ideal)) m c) :
    (Gen.V5 m o c main_v41 : S8192x1.Idx → EReal) = Spec.DR (adjK m c) :=
  Mat.ext fun r q => by
    obtain rfl : q = 0 := Subsingleton.elim _ _
    rw [V5_v41_apply, ho, res0_apply]
    rfl

/-- The column scale the later regions are handed. -/
theorem dcol_eq (o : Gen.Outs (F := Ideal)) (ho : o 2 main_v35 c = res0 (half0 (F := Ideal)) m c) :
    (Gen.V5 m o c main_v42 : S1x8192.Idx → EReal) = Spec.DC (adjK m c) :=
  Mat.ext fun p k => by
    obtain rfl : p = 0 := Subsingleton.elim _ _
    rw [V5_v42_apply, ho, res0_apply]
    rfl

/-- The features times the first weight matrix. -/
theorem xw1_eq (o : Gen.Outs (F := Ideal)) :
    (Gen.V5 m o c main_v43 : S8192x256.Idx → EReal) = Spec.dot (a0 m c) (a3 m c) :=
  Mat.ext fun r j => by rw [V5_v43_apply]; rfl

/-- The first bias as a row. -/
theorem b1_eq (o : Gen.Outs (F := Ideal)) :
    (Gen.V5 m o c main_v44 : S1x256.Idx → EReal) = Spec.row (a4 m c) :=
  Mat.ext fun p j => by
    obtain rfl : p = 0 := Subsingleton.elim _ _
    rw [V5_v44_apply]; rfl

/-! ## After the second region: the hidden layer -/

/-- The second region leaves the hidden layer. -/
theorem res1_eq :
    (res1 (half0 (F := Ideal)) half1 m c : S8192x256.Idx → EReal) = Spec.hidden (adjK m c) (a0 m c) (a3 m c) (a4 m c) :=
  Mat.ext fun r j => by
    refine (final1 (ent1 half0 m) c r j).trans ?_
    show Spec.layer1 (Gen.V5 m (outsA half0 m) c main_v34 : S8192x8192.Idx → EReal) (Gen.V5 m (outsA half0 m) c main_v41 : S8192x1.Idx → EReal)
      (Gen.V5 m (outsA half0 m) c main_v42 : S1x8192.Idx → EReal) (Gen.V5 m (outsA half0 m) c main_v43 : S8192x256.Idx → EReal)
      (Gen.V5 m (outsA half0 m) c main_v44 : S1x256.Idx → EReal) r j = _
    rw [V5_v34, drow_eq m c _ (outsA_v35 half0 m c), dcol_eq m c _ (outsA_v35 half0 m c), xw1_eq, b1_eq]
    rfl

/-! ## After the third region: the network's value before the log-softmax -/

/-- The third region leaves the network's value before the closing log-softmax. -/
theorem pre_kernel :
    (res2 (half0 (F := Ideal)) half1 half2 m c : S8192x16.Idx → EReal)
      = Spec.pre (adjK m c) (a0 m c) (a3 m c) (a4 m c) (a5 m c) (a6 m c) :=
  Mat.ext fun r j => by
    refine (final2 (ent2 half0 half1 m) c r j).trans ?_
    show Spec.layer2 (Gen.V7 m (outsB half0 half1 m) c main_v34 : S8192x8192.Idx → EReal) (Gen.V7 m (outsB half0 half1 m) c main_v41 : S8192x1.Idx → EReal)
      (Gen.V7 m (outsB half0 half1 m) c main_v42 : S1x8192.Idx → EReal) (Gen.V7 m (outsB half0 half1 m) c main_v46 : S8192x16.Idx → EReal)
      (Gen.V7 m (outsB half0 half1 m) c main_v47 : S1x16.Idx → EReal) r j = _
    have h46 : (Gen.V7 m (outsB half0 half1 m) c main_v46 : S8192x16.Idx → EReal)
        = Spec.dot (Spec.hidden (adjK m c) (a0 m c) (a3 m c) (a4 m c)) (a5 m c) :=
      Mat.ext fun r j => by
        rw [V7_v46_apply, outsB_v45 half0 half1 m c, res1_eq]; rfl
    have h47 : (Gen.V7 m (outsB half0 half1 m) c main_v47 : S1x16.Idx → EReal) = Spec.row (a6 m c) :=
      Mat.ext fun p j => by
        obtain rfl : p = 0 := Subsingleton.elim _ _
        rw [V7_v47_apply]; rfl
    rw [V7_v34, V7_v41, V7_v42, drow_eq m c _ (outsB_v35 half0 half1 m c), dcol_eq m c _ (outsB_v35 half0 half1 m c), h46, h47]
    rfl

/-! ## The two programs side by side -/

open Cert.ReferenceIdeal.ReadP in
/-- The edge-weight sums are one term in both programs: the same operations on the same arguments. -/
theorem base_eq (x1 : (⟨Cert.ReferenceIdeal.S2x262144, .i32⟩ : BufTy).Contents (Elt Ideal)) (x2 : (⟨Cert.ReferenceIdeal.S262144, .f32⟩ : BufTy).Contents (Elt Ideal)) :
    Cert.KernelIdeal.HostSide.base x1 x2 = Cert.ReferenceIdeal.ReadP.val_main_v18 (F := Ideal) x1 x2 := by
  unfold Cert.KernelIdeal.HostSide.base Cert.ReferenceIdeal.ReadP.val_main_v18
  rfl

/-- The closing log-softmax lines are one function in both programs. -/
theorem tail_eq : Cert.KernelIdeal.HostSide.tail = Cert.RefSide.tail := by
  funext y
  unfold Cert.KernelIdeal.HostSide.tail Cert.RefSide.tail
  rfl

/-- The two programs' adjacency matrices are one: the edge-weight sums plus one on the diagonal. -/
theorem adj_eq : adjK m c = Cert.ReferenceIdeal.ReadP.val_main_v25 (F := Ideal)
    (m ((c : Thread nD τ).loc main_arg1)) (m ((c : Thread nD τ).loc main_arg2)) :=
  Mat.ext fun r k => by
    refine (Cert.KernelIdeal.HostSide.adj_apply m c r k).trans ?_
    rw [Cert.RefSide.adj_apply, base_eq]

/-- The kernel program's result: the closing lines applied to the network's value for its adjacency. -/
theorem result_kernel :
    Gen.V9 m (outs half0 half1 half2 m) c main_v49
      = Cert.RefSide.tail (Spec.pre (adjK m c) (a0 m c) (a3 m c) (a4 m c) (a5 m c) (a6 m c)) := by
  refine (V9_v49 m (outs half0 half1 half2 m) c).trans ?_
  rw [outs_v48 half0 half1 half2 m c, pre_kernel, tail_eq]

/-- The reference's result from a memory that agrees with the kernel's on the arguments: the same array. -/
theorem result_reference (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) :
    Cert.ReferenceIdeal.ReadP.val_main_v50 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
      = Cert.RefSide.tail (Spec.pre (adjK m c) (a0 m c) (a3 m c) (a4 m c) (a5 m c) (a6 m c)) := by
  obtain ⟨h0, h1, h2, h3, h4, h5, h6⟩ := hagree
  rw [h0, h1, h2, h3, h4, h5, h6, Cert.RefSide.val_main_v50_eq_tail, Cert.RefSide.val_main_v49_eq_pre, ← adj_eq]

end Cert.Bridge

end
-- ==== Proof.lean ====
/-
  The certificate of a two-layer graph convolution computed by three tiled kernels against its plain reference.

  The kernel program builds the dense adjacency matrix on the host, then runs three kernels over a grid of 8 row
  tiles by 4 column tiles, each keeping a running sum over the column tiles in a scratch accumulator: the row
  degrees; the first propagation step with its bias and clamp; the second propagation step with its bias.  Host
  lines between them form the inverse square roots of the degrees, two small matrix products, and the closing
  log-softmax.  The reference computes the same network with whole-matrix operations.

  The three frames: each kernel program runs to its end without a fault and leaves its arguments as they were,
  by running every region point by point with the accumulator's contents tracked (the region halves, stated once
  for any float instance, and assembled over the program's host lines); the reference, a straight line of host
  operations, by folding them.  The ideal pass rewrote nothing, so the kernel's idealization is its own text.

  The values agree over the extended reals, entry by entry: a sum over 8192 columns is the sum of its four tile
  sums, the product `(A · d_r) · d_k` is `(d_r · A) · d_k`, adding ones at the diagonal positions is adding
  the identity matrix, and the closing lines are the same function of equal arrays.  No entry needs to be finite.
-/
import proofs.«173056_j36472862278098_1_alg».proof.Defs
import proofs.«173056_j36472862278098_1_alg».proof.Proof.Gen.Kernel
import proofs.«173056_j36472862278098_1_alg».proof.Proof.Gen.KernelIdeal
import proofs.«173056_j36472862278098_1_alg».proof.Proof.Gen.ReferenceIdeal
import proofs.«173056_j36472862278098_1_alg».proof.Proof.Gen.Pre_finite_inputs
import proofs.«173056_j36472862278098_1_alg».proof.Proof.K.RunInst
import proofs.«173056_j36472862278098_1_alg».proof.Proof.KI.RunInst
import proofs.«173056_j36472862278098_1_alg».proof.Proof.RefRunH
import proofs.«173056_j36472862278098_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.RefSide.run m ρ)

/-- From memories that agree on the arguments both idealized programs end with the same result array: the closing
    log-softmax of the network's value for the kernel's adjacency, which is the reference's adjacency. -/
theorem algebraic : Cert.algebraic_KernelIdeal_ReferenceIdeal := by
  intro m ρ m' ρ' _ hagree
  refine ⟨fun c => Cert.RefSide.tail (Cert.Spec.pre (Cert.Bridge.adjK m c) (Cert.Bridge.a0 m c) (Cert.Bridge.a3 m c)
    (Cert.Bridge.a4 m c) (Cert.Bridge.a5 m c) (Cert.Bridge.a6 m c)), ?_, ?_⟩
  · exact (θ_run Cert.KernelIdeal.defs _ _).mono (fun _ h c => ⟨(h c).1.trans (Cert.Bridge.result_kernel m c), (h c).2⟩)
      (Cert.KernelIdeal.Hand.run_main (F := Ideal) m ρ)
  · exact (θ_run Cert.ReferenceIdeal.defs _ _).mono
      (fun _ h c => ⟨(h c).1.trans (Cert.Bridge.result_reference m c m' (hagree c)), (h c).2⟩) (Cert.RefSide.run m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
